-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S1024x1024 : Shape := ⟨2, ![1024, 1024]⟩
abbrev S256x1024 : Shape := ⟨2, ![256, 1024]⟩
abbrev S8192 : Shape := ⟨1, ![8192]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .bf16⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S8192x256, .bf16⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1024, .f32⟩
  | .local _ .vmem, ⟨10, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc1_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_mult1 (i : grid1.Coords) : BitVec 32 :=
  let arg0 : BitVec 32 := BitVec.ofNat 32 (i 0).val
  let c1024_i32 : BitVec 32 := 1024#32
  let v3 : BitVec 32 := Scalar.muli arg0 c1024_i32
  v3
def k1_mult2 (i : grid1.Coords) : BitVec 32 :=
  let arg1 : BitVec 32 := BitVec.ofNat 32 (i 1).val
  let c1024_i32_1 : BitVec 32 := 1024#32
  let v5 : BitVec 32 := Scalar.muli arg1 c1024_i32_1
  v5
def k1_off1 (i : grid1.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v7 : Index := Scalar.indexCast v4
  let c0 : Index := 0#32
  ![v7.toNat, 0]
def k1_off2 (i : grid1.Coords) : Fin 2 → Nat :=
  let arg1 : BitVec 32 := BitVec.ofNat 32 (i 1).val
  let c1024_i32_1 : BitVec 32 := 1024#32
  let v5 : BitVec 32 := Scalar.muli arg1 c1024_i32_1
  let v6 : BitVec 32 := v5
  let v10 : Index := Scalar.indexCast v6
  let c0_2 : Index := 0#32
  ![v10.toNat, 0]
def k1_cond5 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_17 : BitVec 32 := 0#32
  let v43 : BitVec 1 := Scalar.cmpi .ne v42 c0_i32_17
  v43

def k1_cond4 (i : grid1.Coords) : BitVec 1 :=
  let arg1 : BitVec 32 := BitVec.ofNat 32 (i 1).val
  let arg0 : BitVec 32 := BitVec.ofNat 32 (i 0).val
  let c4_i32 : BitVec 32 := 4#32
  let v34 : BitVec 1 := Scalar.cmpi .slt arg0 c4_i32
  let c4_i32_14 : BitVec 32 := 4#32
  let v35 : BitVec 32 := Scalar.addi arg0 c4_i32_14
  let c4_i32_15 : BitVec 32 := 4#32
  let v36 : BitVec 32 := Scalar.subi arg0 c4_i32_15
  let v37 : BitVec 32 := Scalar.select v34 v35 v36
  let v38 : BitVec 1 := Scalar.cmpi .eq arg1 v37
  let v39 : BitVec 32 := Scalar.extui v38
  let c0_i32_16 : BitVec 32 := 0#32
  let v40 : BitVec 1 := Scalar.cmpi .ne v39 c0_i32_16
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S8192x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x256_S4096x256_S8192x256_d0 : Shape.Concatenates [S4096x256, S4096x256] S8192x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S8192x1_S8192 : S8192x1.ShapeCasts S8192
  reducesTo_S8192_S_d0 : S8192.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  k1_mult1_dvd : ∀ i : grid1.Coords, 1024 ∣ (k1_mult1 i).toNat
  k1_mult2_dvd : ∀ i : grid1.Coords, 1024 ∣ (k1_mult2 i).toNat
  k1_off1_inb : ∀ i : grid1.Coords, ∀ a, (k1_off1 i) a + S1024x256.size a ≤ S8192x256.size a
  k1_off2_inb : ∀ i : grid1.Coords, ∀ a, (k1_off2 i) a + S1024x256.size a ≤ S8192x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .bf16 = 32 ∨ (Rect.block (s := S8192x256) S8192x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x1.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond5 i == 1#1) | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S8192, .i32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1, .f32⟩
  | .hbm, ⟨57, _⟩ => ⟨S8192x8192, .f32⟩
  | .hbm, ⟨58, _⟩ => ⟨S8192x8192, .f32⟩
  | .hbm, ⟨59, _⟩ => ⟨S8192x1, .i32⟩
  | .hbm, ⟨60, _⟩ => ⟨S_, .i32⟩
  | .hbm, ⟨61, _⟩ => ⟨S8192x1, .i32⟩
  | .hbm, ⟨62, _⟩ => ⟨S8192x1, .i1⟩
  | .hbm, ⟨63, _⟩ => ⟨S_, .i32⟩
  | .hbm, ⟨64, _⟩ => ⟨S8192x1, .i32⟩
  | .hbm, ⟨65, _⟩ => ⟨S8192x1, .i32⟩
  | .hbm, ⟨66, _⟩ => ⟨S8192x1, .i32⟩
  | .hbm, ⟨67, _⟩ => ⟨S8192x1x1, .i32⟩
  | .hbm, ⟨68, _⟩ => ⟨S1, .i32⟩
  | .hbm, ⟨69, _⟩ => ⟨S_, .i32⟩
  | .hbm, ⟨70, _⟩ => ⟨S8192x1x1, .i32⟩
  | .hbm, ⟨71, _⟩ => ⟨S8192x1x1, .i1⟩
  | .hbm, ⟨72, _⟩ => ⟨S1x1x1, .i32⟩
  | .hbm, ⟨73, _⟩ => ⟨S8192x1x1, .i32⟩
  | .hbm, ⟨74, _⟩ => ⟨S8192x1x1, .i1⟩
  | .hbm, ⟨75, _⟩ => ⟨S8192x1x1, .i1⟩
  | .hbm, ⟨76, _⟩ => ⟨S_, .i1⟩
  | .hbm, ⟨77, _⟩ => ⟨S8192x1, .i1⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_cst : Ref sig .tc := ⟨.hbm, 44, rfl⟩
abbrev main_call1_v0 : Ref sig .tc := ⟨.hbm, 45, rfl⟩
abbrev main_call1_cst_0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_cst_1 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_v32 : Ref sig .tc := ⟨.hbm, 58, rfl⟩
abbrev main_v33 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_6 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.RegionData.lean ====
/-
  What a kernel region's proof hands to the proof of the whole program's run.

  For each of the two regions: the pipeline's proof data at ANY contents `V` of the core's buffers on entry
  (the arrays as `V` has them; what the body leaves in each window's buffer at each grid point; the invariant
  carried from point to point), that the body meets its obligation at every point, and that the invariant starts
  from, and ends in, the plain state "every scoped buffer no window stages at some contents, the generator
  register at some state".
-/
import proofs.«148196_j36515811951305_2_alg».proof.Proof.Gen.KernelIdeal.Launch
import proofs.«148196_j36515811951305_2_alg».proof.Proof.Gen.KernelIdeal.Points
import Idealize.ShloMosaic.Lib.Pipeline.Frame
import Idealize.ShloMosaic.Lib.Pipeline.FrameBody

noncomputable section

namespace Cert.KernelIdeal.RegionData

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg BodyObligation)

variable (F : FTy → Type) [FloatOps F] [Named F]

/-- The contents of every buffer of every core's TensorCore. -/
abbrev Vals : Type := (c : Dev nD) → (b : Ref sig .tc) → Buf (Elt F) ((c : Thread nD τ).loc b)

/-- The first region (each row divided by its norm), at any entry contents. -/
structure First where
  dat : Vals F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  recorded_eq : ∀ V c, (dat V c).recorded 0 = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- The second region (the similarities folded into the row losses' two halves), at any entry contents. -/
structure Second where
  dat : Vals F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  recorded_eq : ∀ V c, (dat V c).recorded 0 = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

end Cert.KernelIdeal.RegionData

end
-- ==== Proof.WholeFold.lean ====
/-
  The whole program's run, assembled from the two kernel regions' records.

  The program is: one host operation (the two argument arrays put one above the other), the first kernel region
  (each row divided by its norm), the second kernel region (the similarities folded into the two halves of every
  row's loss), and seven host operations (the two halves subtracted, summed, divided by the number of rows).

  What every unscoped buffer of a core holds is followed from the launch to the return as a fold: a host stretch
  rewrites the buffers its operations write, a region leaves in each of its windows' arrays what its write-backs
  have folded into it and every other buffer as it found it. Over that fold the program's run is the library's
  launch theorem for a list of segments, and the run's conclusion is that at the end every unscoped buffer holds
  what the fold says.
-/
import proofs.«148196_j36515811951305_2_alg».proof.Proof.RegionData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (R0 : RegionData.First F) (R1 : RegionData.Second F)
variable (m : (ℓ : Loc nD τ sig) → Buf (Elt F) ℓ) (ρ : Dev nD → PrngReg)

/-! ## What the buffers hold between the program's four parts -/

/-- A core's buffers at launch. -/
abbrev W0 : Dev nD → Valuation τ sig (Elt F) := fun c b => (s₀ m ρ).mem ((c : Dev nD), b)
/-- After the first host stretch: what the first region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the first region is left: its windows' arrays hold what its write-backs have made of them, every other
    buffer what it held on entry. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 R0 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 R0 m ρ c (Proc.devRef .tc b) = W1 m ρ c (Proc.devRef .tc b) := by
  unfold W2; exact Pipeline.withArrays_of_ne spec0 c _ _ b hb
/-- The same, read at the TensorCore's references: what the second region is entered with. -/
abbrev V2 : (c : Dev nD) → (b : Ref sig .tc) → Buf (Elt F) ((c : Thread nD τ).loc b) := fun c b => W2 R0 m ρ c b
theorem hF0 (c : Dev nD) (w : Fin cfg0.W) :
    (R0.dat (V1 m ρ) c).arrAt w cfg0.N = V2 R0 m ρ c (Pipeline.arrRef spec0 w) :=
  (W2_arr R0 m ρ c w).symm
theorem hrest0 (c : Dev nD) : ∀ b, b ∉ Finset.univ.image (Pipeline.arrRef spec0) → V2 R0 m ρ c b = V1 m ρ c b :=
  fun b hb => W2_of_ne R0 m ρ c b fun w e => hb (Finset.mem_image.mpr ⟨w, Finset.mem_univ _, e⟩)

/-- When the second region is left: again its windows' arrays as its write-backs leave them, the rest as entered. -/
def W3 (c : Dev nD) : Valuation τ sig (Elt F) :=
  Pipeline.withArrays spec1 c (W2 R0 m ρ c) fun w => (R1.dat (V2 R0 m ρ) c).arrAt w cfg1.N
theorem W3_arr (c : Dev nD) (w : Fin cfg1.W) :
    W3 R0 R1 m ρ c (Proc.devRef .tc (Pipeline.arrRef spec1 w)) = (R1.dat (V2 R0 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R0 R1 m ρ c (Proc.devRef .tc b) = W2 R0 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 R0 R1 m ρ c b
theorem hF1 (c : Dev nD) (w : Fin cfg1.W) :
    (R1.dat (V2 R0 m ρ) c).arrAt w cfg1.N = V3 R0 R1 m ρ c (Pipeline.arrRef spec1 w) :=
  (W3_arr R0 R1 m ρ c w).symm
theorem hrest1 (c : Dev nD) : ∀ b, b ∉ Finset.univ.image (Pipeline.arrRef spec1) → V3 R0 R1 m ρ c b = V2 R0 m ρ c b :=
  fun b hb => W3_of_ne R0 R1 m ρ c b fun w e => hb (Finset.mem_image.mpr ⟨w, Finset.mem_univ _, e⟩)

/-- After the last host stretch: what the program returns with. -/
abbrev W4 : Dev nD → Valuation τ sig (Elt F) := fun c => StableHlo.after hostOps2 (W3 R0 R1 m ρ c)

end Cert.KernelIdeal.Whole

end
-- ==== Proof.WholeRun.lean ====
/-
  The program's run as four segments: host stretch, region, region, host stretch.

  Between two segments a core holds every unscoped buffer at the contents the fold of WholeFold gives for that
  boundary, its generator register at some state, and owes nothing. A host stretch takes the buffers from one
  boundary's contents to the next by construction of the fold. A region splits its windows' arrays off the unscoped
  buffers on entry, hands the register and the scoped buffers no window stages to its invariant, gets them back at
  its last point, and puts the arrays back at the contents its write-backs left. The library's launch theorem for
  a list of segments then says: the program terminates, and at the end every unscoped buffer holds the last
  boundary's contents.
-/
import proofs.«148196_j36515811951305_2_alg».proof.Proof.WholeFold

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (R0 : RegionData.First F) (R1 : RegionData.Second F)
variable (m : (ℓ : Loc nD τ sig) → Buf (Elt F) ℓ) (ρ : Dev nD → PrngReg)

/-! ## The regions' proof data and what rides beside the buffers -/

/-- No pipeline has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 R0 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment over all the unscoped buffers, from the contents \`W\`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The first stretch's operation allocates nothing. -/
theorem hostOps0_fresh : (hostOps0 : List (HloOp τ sig (Elt F))).Forall fun op => op.fresh = ∅ := by
  simp only [List.Forall]; repeat' constructor
/-- Nor does any of the last stretch's. -/
theorem hostOps2_fresh : (hostOps2 : List (HloOp τ sig (Elt F))).Forall fun op => op.fresh = ∅ := by
  simp only [List.Forall]; repeat' constructor
/-- An unscoped TensorCore reference is among the references the boundaries hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed: every unscoped buffer at the last contents, the register at some state. -/
abbrev Tₙ (c : Dev nD) : sProp 𝕄 :=
  iprop(StableHlo.held (c : Thread nD τ) (Pipeline.ucRefs τ sig) (W4 R0 R1 m ρ c) ∗ ∃ r, prngReg c r)

/-- What the last host stretch leaves is the last boundary beside the core owing nothing. -/
theorem last_boundary (c : Dev nD) :
    iprop(StableHlo.held (c : Thread nD τ) (Pipeline.ucRefs τ sig) (W4 R0 R1 m ρ c) ∗ R (F := F) c)
      ⊢ iprop(Tₙ R0 R1 m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region: entered with every unscoped buffer at \`W1\`, left with them at \`W2\`. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.body (V1 m ρ) c).loose
  hwaits := Pipeline.hwaits_of_owed_zero _ _ _ _ L lv 0 fun c t => R0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 R0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full (R0.q_eq (V1 m ρ) c)) (V1 m ρ c) (R0.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 0 c).owed 0 = 0 from R0.owed_eq (V1 m ρ) c 0]
      icases HO with ⟨%W, HO⟩; iexists W; isplitr
      · ipureintro; exact fun x _ => Or.inl (by rw [show (pdats R0 R1 m ρ 0 c).recorded 0 = Set.univ from R0.recorded_eq (V1 m ρ) c]; trivial)
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full (R0.q_eq (V1 m ρ) c))
      (V1 m ρ c) (V2 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.owed_eq (V1 m ρ) c _]
    icases HO with ⟨%W, -, HO⟩; iexists W; iexact HO

set_option backward.isDefEq.respectTransparency.types false in
/-- The second region: entered with every unscoped buffer at \`W2\`, left with them at \`W3\`. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V2 R0 m ρ) c).loose
  hwaits := Pipeline.hwaits_of_owed_zero _ _ _ _ L lv 1 fun c t => R1.owed_eq (V2 R0 m ρ) c t
  pre c := iprop(StableHlo.held (c : Thread nD τ) (Pipeline.ucRefs τ sig) (W2 R0 m ρ c) ∗ R c)
  post c := iprop(StableHlo.held (c : Thread nD τ) (Pipeline.ucRefs τ sig) (W3 R0 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full (R1.q_eq (V2 R0 m ρ) c)) (V2 R0 m ρ c) (R1.A_eq (V2 R0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 1 c).owed 0 = 0 from R1.owed_eq (V2 R0 m ρ) c 0]
      icases HO with ⟨%W, HO⟩; iexists W; isplitr
      · ipureintro; exact fun x _ => Or.inl (by rw [show (pdats R0 R1 m ρ 1 c).recorded 0 = Set.univ from R1.recorded_eq (V2 R0 m ρ) c]; trivial)
      iexact HO
    isplitl [Hp]; · iexact Hp
    iexact Hrest
  hin c := by
    refine BIBase.Entails.trans ?_ (R1.hin (V2 R0 m ρ) c)
    unfold Pipeline.ΦA
    iintro ⟨Hp, -, Hr⟩
    isplitl [Hr]; · iexact Hr
    iexact Hp
  hout c := by
    rw [Pipeline.ownSems0_none]
    refine BIBase.Entails.trans (R1.hout (V2 R0 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full (R1.q_eq (V2 R0 m ρ) c))
      (V2 R0 m ρ c) (V3 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 1 c).owed (Fin.last _) = 0 from R1.owed_eq (V2 R0 m ρ) c _]
    icases HO with ⟨%W, -, HO⟩; iexists W; iexact HO

/-! ## The program as its segments, and the launch -/

/-- The four segments in the program's order. -/
abbrev segs : List (Pipeline.Seg (pcfgs (F := F)) adm (pdats R0 R1 m ρ) () defs₀ 𝒱₀ L lv) :=
  [ .host (hseg hostOps0 hostOps0_sub hostOps0_fresh (W0 m ρ)),
    .region (reg0 R0 R1 m ρ),
    .region (reg1 R0 R1 m ρ),
    .host (hseg hostOps2 hostOps2_sub hostOps2_fresh (W3 R0 R1 m ρ)) ]
/-- The program is the run of those segments. -/
theorem main_run (c : Dev nD) : main (F := F) c = Pipeline.Seg.run (segs R0 R1 m ρ) := (main_chain c).trans (by chain_rfl)

set_option backward.isDefEq.respectTransparency.types false in
/-- THE RUN. From any memory with zero counters every weakly fair execution of the program on the TensorCores
    terminates, nothing faulting, and in every final state each unscoped buffer of each core holds what the fold
    gives for the last boundary. -/
theorem run : θ_run defs (onTc (τ := τ) (main (F := F))) ⟨m, fun _ => 0, ρ⟩
    (fun r => ∀ c : Dev nD, ∀ b ∈ Pipeline.ucRefs τ sig, r.2.mem ((c : Thread nD τ).1, b) = W4 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R0 R1 m ρ)
    (hch := ⟨fun _ => .rfl, fun _ => .rfl, fun _ => .rfl, fun _ => .rfl, fun c => last_boundary R0 R1 m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R0 R1 m ρ c) s')
      isplitl [Hh] <;> iassumption)
    (hQ := fun s h => h)

end Cert.KernelIdeal.Whole

end
-- ==== Proof.WholeRead.lean ====
/-
  What the fold of WholeFold gives at the buffers the two sides of the claim read, and the frame claim.

  No host operation and no region writes an argument array, so the last boundary has each as launched. The first
  region is entered with the two arguments joined in its input array; the second region's input array is the first
  region's output array as the first region left it; the returned scalar is the last stretch's seven operations
  applied to the second region's two output arrays.
-/
import proofs.«148196_j36515811951305_2_alg».proof.Proof.WholeRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.ShloMosaic.StableHlo
open Idealize.SL Idealize.SL.Sem
open Idealize.ShloMosaic.Pipeline (Dat Cfg)

variable {F : FTy → Type} [FloatOps F] [Named F]

variable (R0 : RegionData.First F) (R1 : RegionData.Second F)
variable (m : (ℓ : Loc nD τ sig) → Buf (Elt F) ℓ) (ρ : Dev nD → PrngReg)

/-! ## The arguments end as launched

Neither stretch writes an argument, and an argument is no window's array of either region. -/

theorem W4_main_arg0 (c : Dev nD) :
    W4 R0 R1 m ρ c (Proc.devRef .tc main_arg0) = m ((c : Thread nD τ).loc main_arg0) :=
  calc W4 R0 R1 m ρ c (Proc.devRef .tc main_arg0)
      = W3 R0 R1 m ρ c (Proc.devRef .tc main_arg0) := by
        show StableHlo.after hostOps2 _ (Proc.devRef .tc main_arg0) = _
        after_results
    _ = W2 R0 m ρ c (Proc.devRef .tc main_arg0) := W3_of_ne R0 R1 m ρ c main_arg0 (by decide)
    _ = W1 m ρ c (Proc.devRef .tc main_arg0) := W2_of_ne R0 m ρ c main_arg0 (by decide)
    _ = m ((c : Thread nD τ).loc main_arg0) := by
        show StableHlo.after hostOps0 _ (Proc.devRef .tc main_arg0) = _
        after_results

theorem W4_main_arg1 (c : Dev nD) :
    W4 R0 R1 m ρ c (Proc.devRef .tc main_arg1) = m ((c : Thread nD τ).loc main_arg1) :=
  calc W4 R0 R1 m ρ c (Proc.devRef .tc main_arg1)
      = W3 R0 R1 m ρ c (Proc.devRef .tc main_arg1) := by
        show StableHlo.after hostOps2 _ (Proc.devRef .tc main_arg1) = _
        after_results
    _ = W2 R0 m ρ c (Proc.devRef .tc main_arg1) := W3_of_ne R0 R1 m ρ c main_arg1 (by decide)
    _ = W1 m ρ c (Proc.devRef .tc main_arg1) := W2_of_ne R0 m ρ c main_arg1 (by decide)
    _ = m ((c : Thread nD τ).loc main_arg1) := by
        show StableHlo.after hostOps0 _ (Proc.devRef .tc main_arg1) = _
        after_results

/-! ## The regions' arrays -/

/-- The first region is entered with the first argument's rows above the second's in its input array. -/
theorem V1_main_v0 (c : Dev nD) :
    V1 m ρ c main_v0 = concatenate S8192x256 0 [⟨S4096x256, m ((c : Thread nD τ).loc main_arg0)⟩, ⟨S4096x256, m ((c : Thread nD τ).loc main_arg1)⟩] concatenates_S4096x256_S4096x256_S8192x256_d0 := by
  show StableHlo.after hostOps0 _ (Proc.devRef .tc main_v0) = _
  after_results

/-- The first region's output array, when the region is left. -/
theorem W2_main_v1 (c : Dev nD) :
    W2 R0 m ρ c (Proc.devRef .tc main_v1) = (R0.dat (V1 m ρ) c).arrAt 1 cfg0.N := W2_arr R0 m ρ c 1

/-- The second region's input array on entry is the first region's output array as the first region left it. -/
theorem V2_main_v1 (c : Dev nD) :
    V2 R0 m ρ c main_v1 = (R0.dat (V1 m ρ) c).arrAt 1 cfg0.N := W2_arr R0 m ρ c 1

/-- The second region's two output arrays, when the region is left. -/
theorem W3_main_v2_0 (c : Dev nD) :
    W3 R0 R1 m ρ c (Proc.devRef .tc main_v2_0) = (R1.dat (V2 R0 m ρ) c).arrAt 1 cfg1.N := W3_arr R0 R1 m ρ c 1

theorem W3_main_v2_1 (c : Dev nD) :
    W3 R0 R1 m ρ c (Proc.devRef .tc main_v2_1) = (R1.dat (V2 R0 m ρ) c).arrAt 2 cfg1.N := W3_arr R0 R1 m ρ c 2

/-! ## The returned scalar -/

/-- The last stretch applied to the second region's output arrays: both read as vectors of 8192 entries,
    subtracted, summed from zero, the sum divided by the number of rows. -/
theorem W4_main_v7 (c : Dev nD) :
    W4 R0 R1 m ρ c (Proc.devRef .tc main_v7)
      = Host.divf (Host.reduceAdd (subf (shapeCast S8192 (W3 R0 R1 m ρ c (Proc.devRef .tc main_v2_0)) shapeCasts_S8192x1_S8192)
            (shapeCast S8192 (W3 R0 R1 m ρ c (Proc.devRef .tc main_v2_1)) shapeCasts_S8192x1_S8192))
          (constant S_ .f32 0x00000000#32) reducesTo_S8192_S_d0 h_S_) (constant S_ .f32 0x46000000#32) := by
  show StableHlo.after hostOps2 _ (Proc.devRef .tc main_v7) = _
  after_results
  rfl

/-! ## The run read at the result and the arguments, and the frame claim -/

/-- The program terminates; the result buffer ends at the last stretch's operations applied to the second region's
    output arrays, and the argument arrays end as launched. -/
theorem run_reads : θ_run defs (onTc (τ := τ) (main (F := F))) ⟨m, fun _ => 0, ρ⟩ (fun r => ∀ c : Dev nD,
      r.2.mem ((c.tc : Thread nD τ).loc main_v7) = W4 R0 R1 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v7 (by decide)),
     (h c _ (mem_uc main_arg0 (by decide))).trans (W4_main_arg0 R0 R1 m ρ c),
     (h c _ (mem_uc main_arg1 (by decide))).trans (W4_main_arg1 R0 R1 m ρ c)⟩) (run R0 R1 m ρ)

include R0 R1 in
/-- THE FRAME: the program terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 R0 R1 m ρ c),
     (h c _ (mem_uc main_arg1 (by decide))).trans (W4_main_arg1 R0 R1 m ρ c)⟩) (run R0 R1 m ρ)

end Cert.KernelIdeal.Whole

end
-- ==== Proof.Spec.lean ====
/-
  The loss both programs compute, as one function of the two argument arrays, on the extended reals.

  Write x for the 8192 rows obtained by putting the 4096 rows of the first array above the 4096 rows of the
  second. Each row is divided by the larger of its Euclidean norm and the constant ε: these are the rows y.
  The similarity of rows p and q is twice their inner product, s(p, q) = 2·⟨y p, y q⟩; on the diagonal it is
  replaced by −∞. The partner of row p is row p + 4096 (mod 8192). The loss of row p is

      4 + log (∑ q, exp (s'(p, q) − 4)) − s(p, partner p)

  and the result is the mean of the 8192 row losses. The constants are kept as the binary words the
  programs carry; none of them is ever evaluated here.
-/
import Idealize.ShloMosaic.PureOps.Ideal
import Idealize.ShloMosaic.Lib.ValueIdx

noncomputable section

namespace Cert.Spec

open Idealize.ShloMosaic Idealize.ShloMosaic.ValueIdx

/-- An array of 4096 rows of 256 entries, as the programs' argument buffers hold it. -/
abbrev Arg : Type := (⟨2, ![4096, 256]⟩ : Shape).Idx → EReal

/-- 8192 rows of 256 extended reals. -/
abbrev Rows : Type := Fin 8192 → Fin 256 → EReal

/-- The lower bound put under a row's norm (the word of 1e-12 in binary32). -/
def eps : EReal := Ideal.ofBits .f32 0x2B8CBCCC#32
/-- The factor 2 = 1 / temperature. -/
def two : EReal := Ideal.ofBits .f32 0x40000000#32
/-- The fixed shift 4 of the exponentials. -/
def four : EReal := Ideal.ofBits .f32 0x40800000#32
/-- The number of rows, 8192, as the divisor of the mean. -/
def count : EReal := Ideal.ofBits .f32 0x46000000#32

/-- The rows of the first array above the rows of the second. -/
def join (a b : Arg) : Rows := fun p k =>
  if h : p.val < 4096 then a (ix2 (⟨p.val, h⟩ : Fin 4096) k)
  else b (ix2 (⟨p.val - 4096, by have := p.isLt; omega⟩ : Fin 4096) k)

/-- The larger of a row's Euclidean norm and ε: what the row is divided by. -/
def norm (x : Rows) (p : Fin 8192) : EReal :=
  max (Ideal.sqrt (Ideal.ofBits .f32 0x00000000#32 + ∑ d : Fin 256, x p d * x p d)) eps

/-- Every row divided by `norm`. -/
def unit (x : Rows) : Rows := fun p k => Ideal.div (x p k) (norm x p)

/-- Twice the inner product of rows `p` and `q`. -/
def sim (y : Rows) (p q : Fin 8192) : EReal :=
  (Ideal.ofBits .f32 0x00000000#32 + ∑ k : Fin 256, y p k * y q k) * two

/-- The similarity with the diagonal at −∞. -/
def simMasked (y : Rows) (p q : Fin 8192) : EReal := if p = q then ⊥ else sim y p q

/-- Row `p`'s partner: the row 4096 further on, cyclically. -/
def partner (p : Fin 8192) : Fin 8192 := ⟨(p.val + 4096) % 8192, Nat.mod_lt _ (by decide)⟩

/-- The normaliser of row `p`'s softmax relative to the shift 4. -/
def partition (y : Rows) (p : Fin 8192) : EReal := ∑ q : Fin 8192, Ideal.exp (simMasked y p q - four)

/-- Row `p`'s loss: the log-normaliser less the partner's similarity. -/
def loss (y : Rows) (p : Fin 8192) : EReal :=
  (four + Ideal.log (partition y p)) - sim y p (partner p)

/-- The mean of the 8192 row losses of the two arrays: the one number both programs return. -/
def result (a b : Arg) : EReal :=
  Ideal.div (Ideal.ofBits .f32 0x00000000#32 + ∑ p : Fin 8192, loss (unit (join a b)) p) count

/-! ## The same loss as the reference spells it

The reference divides the inner product by 1/2 where the other side multiplies by 2, shifts the exponentials by the
row's largest masked similarity instead of by 4, and takes the logarithm of the softmax's partner entry. -/

/-- The divisor 1/2 (the temperature). -/
def half : EReal := Ideal.ofBits .f32 0x3F000000#32

/-- The inner product of rows `p` and `q` divided by the temperature. -/
def simR (y : Rows) (p q : Fin 8192) : EReal :=
  Ideal.div (Ideal.ofBits .f32 0x00000000#32 + ∑ k : Fin 256, y p k * y q k) half

/-- The same with the diagonal at −∞. -/
def simMaskedR (y : Rows) (p q : Fin 8192) : EReal := if p = q then ⊥ else simR y p q

/-- The largest masked similarity of row `p`. -/
def rowMax (y : Rows) (p : Fin 8192) : EReal := Finset.univ.sup (simMaskedR y p)

/-- Row `p`'s loss as minus the logarithm of the softmax at the partner, shifted by the row's maximum. -/
def lossR (y : Rows) (p : Fin 8192) : EReal :=
  -((simMaskedR y p (partner p) - rowMax y p)
      - Ideal.log (Ideal.ofBits .f32 0x00000000#32 + ∑ q : Fin 8192, Ideal.exp (simMaskedR y p q - rowMax y p)))

/-- The mean of those. -/
def resultR (a b : Arg) : EReal :=
  Ideal.div (Ideal.ofBits .f32 0x00000000#32 + ∑ p : Fin 8192, lossR (unit (join a b)) p) count

/-- Every entry of both arrays is a real number. -/
def Finite (a b : Arg) : Prop := (∀ i, ∃ r : ℝ, a i = (r : EReal)) ∧ (∀ i, ∃ r : ℝ, b i = (r : EReal))

end Cert.Spec

end
-- ==== Proof.NormBody.lean ====
/-
  The first kernel region: every row of an 8192 × 256 array divided by the larger of its Euclidean norm and ε,
  block of 1024 rows by block, the quotient narrowed to the output's element type.

  At ANY contents V of the core's buffers on entry: the block of each window at a grid point, what one run of the
  body leaves in the output window's buffer as a function of the input block, the body's triple, and the proof data
  the pipeline theorem asks for. Nothing is carried from one grid point to the next, so the invariant is the plain
  one at every point.
-/
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of every buffer of every core's TensorCore when the region is entered
variable (V : (c : Dev nD) → (b : Ref sig .tc) → Buf (Elt F) ((c : Thread nD τ).loc b))

/-! ## The windows' blocks -/

/-- The block of window w at grid point t, read off the window's array as V holds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input window's staging buffer holds the window's block when the body starts, at every point, for any
    proof data whose array is V's and whose body leaves that block where it was: the window is fetched anew at
    each point and its index moves with the point. -/
theorem before_in_of {c : Dev nD} (dat : Dat τ (Elt F) Unit ℕ (UR sig nD τ) ℕ cfg0 c)
    (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body writes -/

/-- The whole 1024 × 256 buffer as one rectangle: the body's load and its store both cover it. -/
abbrev whole : Rect S1024x256 := Rect.unit (s := S1024x256) ![0, 0] S1024x256.size inb_S1024x256_S1024x256_0_0

/-- The output window's buffer after the body, from the input block x: the body's single store, whose payload is
    the normalised rows of x. -/
def out (x : Vec F S1024x256 .f32) : Vec F S1024x256 .bf16 :=
  View.canon [⟨whole, k0_pay1 (View.ld x whole)⟩]

/-- The one store covers the buffer. -/
theorem cover (p : Vec F S1024x256 .bf16) (y : S1024x256.Idx) :
    ∃ pc ∈ ([⟨whole, p⟩] : List (View.Piece (Elt F) S1024x256 .bf16)), y ∈ pc.1.set :=
  View.cover_of_tiled [⟨whole, p⟩] S1024x256.size (by rfl) y

/-! ## The body's triple -/

set_option maxHeartbeats 1000000 in
/-- The body on whole staging memrefs, the input's holding x and the output's anything, runs to the continuation
    with the input's unchanged and the output's holding out x. -/
theorem sound_kernel (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (x : Vec F S1024x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The pipeline's proof data -/

/-- The proof data on core c: the arrays as V holds them; after the body at point t the input's buffer still at
    its block and the output's at out of that block; the plain invariant at every point; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => out (blockAt V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_in (c : Dev nD) (t : Fin cfg0.N) : (dat V c).after 0 t = blockAt V c 0 t := by dsimp only [dat]
theorem after_out (c : Dev nD) (t : Fin cfg0.N) : (dat V c).after 1 t = out (blockAt V c 0 t) := by dsimp only [dat]

/-- The input's buffer holds its block when the body starts, at every point. -/
theorem before_in (c : Dev nD) (t : Fin cfg0.N) (d) : (dat V c).before 0 t d = blockAt V c 0 t :=
  before_in_of V (dat V c) (A_eq V c 0) (after_in V c) t d

/-! ## The body obligation -/

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it gives back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so the triple above applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline theorem's body obligation, at every point. -/
theorem body_obligation (c : Dev nD) :
    BodyObligation (dat (F := F) V c) (defs₀ (F := F)) Variants.none () Set.univ := fun t => by
  rw [bigSep_W0, bigSep_W0]
  exact sound_body V c t

end Cert.KernelIdeal.Norm

end
-- ==== Proof.Norm.lean ====
/-
  The first kernel region's record for the proof of the whole run: the proof data of the block-by-block
  normalisation at any entry contents, its body obligation, and that its invariant is the plain state at both ends.
-/
import proofs.«148196_j36515811951305_2_alg».proof.Proof.NormBody
import proofs.«148196_j36515811951305_2_alg».proof.Proof.RegionData

noncomputable section

namespace Cert.KernelIdeal.Norm

open Cert.KernelIdeal Cert.KernelIdeal.Gen Cert.KernelIdeal.RegionData
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg BodyObligation)

variable {F : FTy → Type} [FloatOps F] [Named F]

/-- The first region's data at any entry contents: the invariant is the plain state at every point, so it starts
    from it and ends in it by the identity. -/
def first : First F where
  dat := fun V c => dat V c
  A_eq := fun V c w => A_eq V c w
  q_eq := fun V c w => by dsimp only [dat]
  owed_eq := fun V c t => by dsimp only [dat]
  recorded_eq := fun _ _ => rfl
  body := fun V c => body_obligation V c
  hin := fun V c => BI.Entails.refl _
  hout := fun V c => BI.Entails.refl _

end Cert.KernelIdeal.Norm

end
-- ==== Proof.NormArray.lean ====
/-
  The first kernel region on the extended reals: what it leaves in its output array, index by index.

  The region's body, run on a block of 1024 rows, stores for each entry (r, k) the entry divided by the larger of
  row r's Euclidean norm and ε: the row's squares are summed along the row, the sum is kept as a column, its
  square root is bounded below by ε, the column is repeated across the 256 entries of the row, and the quotient's
  narrowing is the identity on extended reals. Grid point t reads and writes rows 1024 t … 1024 t + 1023, so what
  it writes back is block t of ONE function of the whole input array, and the eight blocks fill the output array:
  after the region the output array is that function of the input array, which is the definition's unit rows.
-/
import proofs.«148196_j36515811951305_2_alg».proof.Proof.NormBody
import proofs.«148196_j36515811951305_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Norm

open Cert.KernelIdeal Cert.KernelIdeal.Gen
open Idealize.ShloMosaic Idealize.ShloMosaic.TcCoe Idealize.ShloMosaic.ValueIdx
open Idealize.ShloMosaic.Pipeline (Dat)

/-! ## The payload at an index -/

/-- An array of a entries cast to a column of a rows reads, at row i, entry i. -/
theorem cast_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column of a rows repeated across b columns reads, at (p, c), the column's row p. -/
theorem repeat_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a 1024 × 256 array of extended reals, at row r: the sum of the row's 256 entries. -/
theorem row_sum (src : FVec Ideal S1024x256 .f32) (h : S1024x256.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ d : Fin 256, src (ix2 r d) := by
  refine (Ideal.multiReduction_add_single src _ h hφ hacc (ix1 r)).trans ?_
  refine Finset.sum_congr rfl fun d _ => congrArg src ?_
  funext a
  match a with
  | ⟨0, _⟩ => rfl
  | ⟨1, _⟩ => rfl

/-- What the body stores, entry by entry: the block's entry divided by the larger of its row's norm and ε. -/
theorem pay_apply (x : Vec Ideal S1024x256 .f32) (r : Fin 1024) (k : Fin 256) :
    k0_pay1 x (ix2 r k)
      = Ideal.div (x (ix2 r k))
          (max (Ideal.sqrt (∑ d : Fin 256, x (ix2 r d) * x (ix2 r d))) (Ideal.ofBits .f32 0x2B8CBCCC#32)) := by
  unfold k0_pay1
  simp only [shapeCast_self]
  show Ideal.div (x (ix2 r k)) (broadcastTo S1024x256 _ _ (ix2 r k)) = _
  rw [repeat_col]
  show Ideal.div (x (ix2 r k)) (max (Ideal.sqrt (shapeCast S1024x1 _ _ (ix2 r 0))) (Ideal.ofBits .f32 0x2B8CBCCC#32)) = _
  rw [cast_col]
  exact congrArg (fun s => Ideal.div (x (ix2 r k)) (max (Ideal.sqrt s) (Ideal.ofBits .f32 0x2B8CBCCC#32)))
    (row_sum (mulf x x) _ _ _ r)

/-! ## From blocks to the array -/

-- the contents of every buffer of every core's TensorCore when the region is entered
variable (V : (c : Dev nD) → (b : Ref sig .tc) → Buf (Elt Ideal) ((c : Thread nD τ).loc b))

theorem hz : (![0, 0] : Fin 2 → Nat) = fun _ => 0 := funext fun a => by fin_cases a <;> rfl

/-- The whole output array as one function of the whole input array: entry (p, k) is row p's entry k divided
    by the larger of row p's norm and ε. -/
def rows (a : S8192x256.Idx → Elt Ideal .f32) : S8192x256.Idx → Elt Ideal .bf16 := fun i =>
  Cert.Spec.unit (fun p k => a (ix2 p k)) (i 0) (i 1)

/-- Both windows' index maps send grid point t to block (t, 0): decided over the eight points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row r of point t's block is row 1024 t + r of the array. -/
def rowOf (t : Fin cfg0.N) (r : Fin 1024) : Fin 8192 :=
  ⟨t.val * 1024 + r.val, by have := t.isLt; have hN : cfg0.N = 8 := N_0; have := r.isLt; omega⟩

/-- The input block at point t, entry by entry, off the input array. -/
theorem blockAt_apply (c : Dev nD) (t : Fin cfg0.N) (r : Fin 1024) (k : Fin 256) :
    (blockAt V c 0 t : Vec Ideal S1024x256 .f32) (ix2 r k) = (V c main_v0 : S8192x256.Idx → Elt Ideal .f32) (ix2 (rowOf t r) k) := by
  obtain ⟨e0, e1, -, -⟩ := idx_facts t
  unfold blockAt
  rw [View.read_apply]
  show V c main_v0 _ = V c main_v0 _
  congr 1
  funext a
  apply Fin.ext
  match a with
  | ⟨0, _⟩ => show win0_0.index t 0 * 1024 + 1 * r.val = t.val * 1024 + r.val; rw [e0]; omega
  | ⟨1, _⟩ => show win0_0.index t 1 * 256 + 1 * k.val = k.val; rw [e1]; omega

/-- Where entry (r, k) of point t's output block lies in the output array. -/
theorem emb_out (t : Fin cfg0.N) (r : Fin 1024) (k : Fin 256) :
    ((cfg0.win 1).blk t).view.emb (ix2 r k) = (ix2 (rowOf t r) k : S8192x256.Idx) := by
  obtain ⟨-, -, e2, e3⟩ := idx_facts t
  funext a
  apply Fin.ext
  match a with
  | ⟨0, _⟩ => show win0_1.index t 0 * 1024 + 1 * r.val = t.val * 1024 + r.val; rw [e2]; omega
  | ⟨1, _⟩ => show win0_1.index t 1 * 256 + 1 * k.val = k.val; rw [e3]; omega

/-- What point t writes back is block t of rows of the input array. -/
theorem flushed_eq (c : Dev nD) (t : Fin cfg0.N) :
    (dat V c).flushed 1 t = ((cfg0.win 1).blk t).view.read (Elt Ideal) (rows (V c main_v0)) := by
  show (cfg0.win 1).cut (grid0.coords t) ((dat V c).after 1 t) = _
  rw [after_out]
  unfold out
  rw [View.canon_unit_zero hz]
  simp only [View.ld_unit_zero (S := S1024x256) hz]
  funext j
  show k0_pay1 (blockAt V c 0 t) j = rows (V c main_v0) (((cfg0.win 1).blk t).view.emb j)
  obtain ⟨r, k, rfl⟩ : ∃ (r : Fin 1024) (k : Fin 256), j = ix2 r k := ⟨j 0, j 1, eq_ix2 j⟩
  rw [pay_apply, emb_out]
  simp only [blockAt_apply]
  unfold rows Cert.Spec.unit Cert.Spec.norm Cert.Spec.eps
  rw [Ideal.ofBits_zero_f32, zero_add]

/-- An index of the output array is in point t's block iff each coordinate is in the block's range. -/
theorem mem_blk (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v1).slice (win0_1.rect t)).set ↔ _
  rw [View.set_slice_whole, Rect.mem_set_unit]
  exact Iff.rfl

/-- Row p of the output array is written back by point p / 1024. -/
theorem covered (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  have hN : cfg0.N = 8 := N_0
  let t : Fin cfg0.N := ⟨(i 0).val / 1024, by rw [hN]; omega⟩
  have ht : t.val = (i 0).val / 1024 := rfl
  obtain ⟨-, -, e2, e3⟩ := idx_facts t
  refine ⟨t, flush0_1 t, ?_⟩
  rw [mem_blk]
  intro a
  match a with
  | ⟨0, _⟩ =>
    show win0_1.index t 0 * 1024 ≤ (i 0).val ∧ (i 0).val < win0_1.index t 0 * 1024 + 1024
    rw [e2, ht]; omega
  | ⟨1, _⟩ =>
    show win0_1.index t 1 * 256 ≤ (i 1).val ∧ (i 1).val < win0_1.index t 1 * 256 + 256
    rw [e3]; omega

/-- The output array after the region: rows of the input array as the region found it. -/
theorem final (c : Dev nD) : (dat V c).arrAt 1 cfg0.N = rows (V c main_v0) :=
  (dat V c).arrAt_eq_of_cover 1 (rows (V c main_v0)) (fun t _ => flushed_eq V c t) covered

/-- Entry (p, k) of the output array after the region, in the words of the loss's definition. -/
theorem value_dat (c : Dev nD) (p : Fin 8192) (k : Fin 256) :
    (dat V c).arrAt 1 cfg0.N (ix2 p k) = Cert.Spec.unit (fun p k => V c main_v0 (ix2 p k)) p k := by
  rw [final]; rfl

end Cert.KernelIdeal.Norm

end
-- ==== Proof.NormValue.lean ====
/-
  The first kernel region's output array after the region, read off the region's record: entry (p, k) is row p of
  the input array, entry k, divided by the larger of the row's Euclidean norm and ε.
-/
import proofs.«148196_j36515811951305_2_alg».proof.Proof.Norm
import proofs.«148196_j36515811951305_2_alg».proof.Proof.NormArray

noncomputable section

namespace Cert.KernelIdeal.Norm

open Cert.KernelIdeal Cert.KernelIdeal.Gen
open Idealize.ShloMosaic Idealize.ShloMosaic.TcCoe

/-- The record's proof data is the one the array was computed for, so the array is the same. -/
theorem value (V : Cert.KernelIdeal.RegionData.Vals Ideal) (c : Dev nD) (p : Fin 8192) (k : Fin 256) :
    ((Cert.KernelIdeal.Norm.first (F := Ideal)).dat V c).arrAt 1 cfg0.N (ValueIdx.ix2 p k)
      = Cert.Spec.unit (fun p k => V c main_v0 (ValueIdx.ix2 p k)) p k :=
  value_dat V c p k

end Cert.KernelIdeal.Norm

end
-- ==== Proof.WholeValue.lean ====
/-
  The host arithmetic around the two regions, on the extended reals.

  Before the regions: the two argument arrays put one above the other, read at row p and column k, is the row of
  the first array for p below 4096 and row p − 4096 of the second otherwise. After the regions: the two output
  columns of the second region are subtracted entry by entry, the 8192 differences are added up from zero, and the
  sum is divided by 8192; if the difference at row p is f p, that is the mean of f. Together with what the first
  region leaves in its output array (every row divided by the larger of its norm and ε), the returned scalar is the
  mean row loss of the joined, normalised rows as soon as the second region's two columns differ by the row loss.
-/
import proofs.«148196_j36515811951305_2_alg».proof.Proof.WholeRead
import proofs.«148196_j36515811951305_2_alg».proof.Proof.Spec
import proofs.«148196_j36515811951305_2_alg».proof.Proof.NormValue
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem

/-! ## The joined rows -/

/-- The two arrays joined along the rows, at row \`p\` and column \`k\`. -/
theorem join_of_concat (a b : Cert.Spec.Arg) :
    (fun (p : Fin 8192) (k : Fin 256) =>
      (concatenate S8192x256 0 [⟨S4096x256, a⟩, ⟨S4096x256, b⟩] concatenates_S4096x256_S4096x256_S8192x256_d0) (ix2 p k))
      = Cert.Spec.join a b := by
  funext p k
  unfold Cert.Spec.join
  by_cases h : p.val < 4096
  · rw [dif_pos h]
    refine concatenate_pair_apply_left (0 : Fin 2) a b concatenates_S4096x256_S4096x256_S8192x256_d0 (ix2 p k) rfl
      (ix2 (⟨p.val, h⟩ : Fin 4096) k) (fun d => ?_)
    match d with
    | ⟨0, _⟩ => rfl
    | ⟨1, _⟩ => rfl
  · rw [dif_neg h]
    refine concatenate_pair_apply_right (0 : Fin 2) a b concatenates_S4096x256_S4096x256_S8192x256_d0 (ix2 p k) rfl rfl
      (ix2 (⟨p.val - 4096, by have := p.isLt; omega⟩ : Fin 4096) k) (fun d hd => ?_) ?_
    · match d with
      | ⟨0, _⟩ => exact absurd rfl hd
      | ⟨1, _⟩ => rfl
    · show p.val - 4096 + 4096 = p.val
      omega

/-! ## The mean of the row differences -/

/-- A vector's indices are its one coordinate's values. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-- A column of 8192 entries read as a vector: entry \`p\` is the column's entry in row \`p\`. -/
theorem col_apply (x : (⟨S8192x1, .f32⟩ : BufTy).Contents (Elt Ideal)) (p : Fin 8192) :
    shapeCast S8192 x shapeCasts_S8192x1_S8192 (ix1 p) = x (ix2 p (0 : Fin 1)) :=
  shapeCast_apply x shapeCasts_S8192x1_S8192 (ix1 p) (ix2 p (0 : Fin 1))
    (by rewrite [Shape.rowMajor_val_two, Shape.rowMajor_val_one]; show p.val * 1 + 0 = p.val; omega)

/-- Two columns subtracted, summed from zero and divided by the number of rows: the mean of the differences. -/
theorem mean_of (lse pos : (⟨S8192x1, .f32⟩ : BufTy).Contents (Elt Ideal)) (f : Fin 8192 → EReal)
    (h : ∀ p : Fin 8192, lse (ix2 p (0 : Fin 1)) - pos (ix2 p (0 : Fin 1)) = f p) :
    Host.divf (F := Ideal) (Host.reduceAdd (F := Ideal) (subf (shapeCast S8192 lse shapeCasts_S8192x1_S8192) (shapeCast S8192 pos shapeCasts_S8192x1_S8192))
        (constant (F := Ideal) S_ .f32 0x00000000#32) reducesTo_S8192_S_d0 h_S_) (constant (F := Ideal) S_ .f32 0x46000000#32)
      = fun _ => Ideal.div (Ideal.ofBits .f32 0x00000000#32 + ∑ p : Fin 8192, f p) Cert.Spec.count := by
  funext i
  show Ideal.div (Ideal.hostReduceAdd reducesTo_S8192_S_d0
      (subf (F := Ideal) (φ := .f32) (shapeCast S8192 lse shapeCasts_S8192x1_S8192) (shapeCast S8192 pos shapeCasts_S8192x1_S8192))
      (Ideal.ofBits .f32 0x00000000#32) i) (Ideal.ofBits .f32 0x46000000#32) = _
  rw [Ideal.hostReduceAdd_total reducesTo_S8192_S_d0 (fun b => b.elim0), sum_idx1]
  unfold Cert.Spec.count
  congr 2
  refine Finset.sum_congr rfl fun p _ => ?_
  show shapeCast S8192 lse shapeCasts_S8192x1_S8192 (ix1 p) - shapeCast S8192 pos shapeCasts_S8192x1_S8192 (ix1 p) = f p
  rw [col_apply, col_apply, h p]

/-! ## The returned scalar -/

/-- The first region's output array on the second region's entry, by rows: the joined arguments' rows, each
    divided by the larger of its norm and ε. -/
theorem rows_of (m : (ℓ : Loc nD τ sig) → Buf (Elt Ideal) ℓ) (ρ : Dev nD → PrngReg) (c : Dev nD) :
    (fun (p : Fin 8192) (k : Fin 256) => (V2 (Norm.first (F := Ideal)) m ρ c main_v1) (ix2 p k))
      = Cert.Spec.unit (Cert.Spec.join (m ((c : Thread nD τ).loc main_arg0)) (m ((c : Thread nD τ).loc main_arg1))) := by
  funext p k
  rw [V2_main_v1, Norm.value (V1 m ρ) c p k, V1_main_v0, join_of_concat]

/-- The second region's first output column when the region is left (entered behind the first region), as a column
    of extended reals. -/
abbrev col1 (R1 : RegionData.Second Ideal) (m : (ℓ : Loc nD τ sig) → Buf (Elt Ideal) ℓ) (ρ : Dev nD → PrngReg) (c : Dev nD) :
    (⟨S8192x1, .f32⟩ : BufTy).Contents (Elt Ideal) :=
  (R1.dat (V2 (Norm.first (F := Ideal)) m ρ) c).arrAt 1 cfg1.N
/-- Its second output column. -/
abbrev col2 (R1 : RegionData.Second Ideal) (m : (ℓ : Loc nD τ sig) → Buf (Elt Ideal) ℓ) (ρ : Dev nD → PrngReg) (c : Dev nD) :
    (⟨S8192x1, .f32⟩ : BufTy).Contents (Elt Ideal) :=
  (R1.dat (V2 (Norm.first (F := Ideal)) m ρ) c).arrAt 2 cfg1.N

/-- If, at every row, the second region's two output columns differ by the row's loss over the rows the region was
    entered with, the program returns the mean row loss of the joined, normalised argument rows. -/
theorem value_of (R1 : RegionData.Second Ideal) (m : (ℓ : Loc nD τ sig) → Buf (Elt Ideal) ℓ) (ρ : Dev nD → PrngReg) (c : Dev nD)
    (h : ∀ p : Fin 8192,
      col1 R1 m ρ c (ix2 p (0 : Fin 1)) - col2 R1 m ρ c (ix2 p (0 : Fin 1))
        = Cert.Spec.loss (fun p k => (V2 (Norm.first (F := Ideal)) m ρ c main_v1) (ix2 p k)) p) :
    W4 (Norm.first (F := Ideal)) R1 m ρ c (Proc.devRef .tc main_v7)
      = fun _ => Cert.Spec.result (m ((c : Thread nD τ).loc main_arg0)) (m ((c : Thread nD τ).loc main_arg1)) := by
  rw [W4_main_v7, W3_main_v2_0, W3_main_v2_1]
  refine (mean_of (col1 R1 m ρ c) (col2 R1 m ρ c) _ h).trans ?_
  rw [rows_of]
  rfl

end Cert.KernelIdeal.Whole

end
-- ==== Proof.SimDefs.lean ====
/-
  The second kernel region's vocabulary. At a grid point (row tile, column tile) the body branches on five
  conditions: first / last column tile of the row of tiles, on / off the block diagonal, the partners' tile. Here:
  those conditions as the body computes them, the row tile and the column tile inside the resident array of unit
  rows, the tile of doubled inner products the body leaves (masked on the array's diagonal), the running row sums of
  exp(· − 4) it leaves from those the point before left (zero at a first column tile), that update folded along a
  row of tiles, and two facts about stores and loads through a buffer's whole shape.
-/
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's five branch conditions, as the printed scalar chains over the grid point -/

/-- The column tile is the first of its row of tiles: the running sum is reset. -/
abbrev atFirst (i : grid1.Coords) : Prop := Scalar.cmpi .ne (Scalar.extui (Scalar.cmpi .eq (BitVec.ofNat 32 (i 1).val) 0#32)) 0#32 = 1#1
/-- The tile lies on the block diagonal: its own diagonal is masked. -/
abbrev onDiag (i : grid1.Coords) : Prop := Scalar.cmpi .ne (Scalar.extui (Scalar.cmpi .eq (BitVec.ofNat 32 (i 0).val) (BitVec.ofNat 32 (i 1).val))) 0#32 = 1#1
/-- The tile lies off the block diagonal: it is kept as computed. -/
abbrev offDiag (i : grid1.Coords) : Prop := Scalar.cmpi .ne (Scalar.extui (Scalar.cmpi .ne (BitVec.ofNat 32 (i 0).val) (BitVec.ofNat 32 (i 1).val))) 0#32 = 1#1
/-- The tile holds the partners of the row tile's rows on its own diagonal. -/
abbrev atPartner (i : grid1.Coords) : Prop := k1_cond4 i = 1#1
/-- The column tile is the last of its row of tiles: the logarithm is taken. -/
abbrev atLast (i : grid1.Coords) : Prop := k1_cond5 i = 1#1

theorem hz2 : (![0, 0] : Fin 2 → Nat) = fun _ => 0 := by funext a; fin_cases a <;> rfl

/-- The rows of the row tile, and of the column tile, inside the resident array. -/
abbrev rq (i : grid1.Coords) : Rect S8192x256 := Rect.unit (s := S8192x256) (k1_off1 i) S1024x256.size (k1_off1_inb i)
abbrev rk (i : grid1.Coords) : Rect S8192x256 := Rect.unit (s := S8192x256) (k1_off2 i) S1024x256.size (k1_off2_inb i)

/-- The tile of similarities the body leaves in its first scratch at point `i`: masked on the block diagonal. -/
def tileS (i : grid1.Coords) (x0 : Vec F S8192x256 .bf16) : Vec F S1024x1024 .f32 :=
  if onDiag i then k1_pay5 (View.ld x0 (rq i)) (View.ld x0 (rk i)) else k1_pay6 (View.ld x0 (rq i)) (View.ld x0 (rk i))

/-- The running sums it leaves in its second scratch, from those (`xl`) the point before left: reset first at the first tile. -/
def accL (i : grid1.Coords) (x0 : Vec F S8192x256 .bf16) (xl : Vec F S1024x1 .f32) : Vec F S1024x1 .f32 :=
  k1_pay7 (tileS i x0) (if atFirst i then k1_pay3 (F := F) else xl)

/-- The grid point of row tile `rt` and column tile `ct`. -/
def pt (rt ct : Fin 8) : grid1.Coords := fun a => match a with
  | ⟨0, _⟩ => rt
  | ⟨1, _⟩ => ct

/-- The column tile that holds the partners of row tile `rt`'s rows: four tiles further on, cyclically. -/
def pcol (rt : Fin 8) : Fin 8 := ⟨(rt.val + 4) % 8, Nat.mod_lt _ (by decide)⟩

/-- The running sums after column tile `n` of row tile `rt`: the body's update folded along the row of tiles. -/
def accRow (x0 : Vec F S8192x256 .bf16) (rt : Fin 8) : ℕ → Vec F S1024x1 .f32
  | 0 => accL (pt rt 0) x0 (k1_pay3 (F := F))
  | n + 1 => accL (pt rt ⟨(n + 1) % 8, Nat.mod_lt _ (by decide)⟩) x0 (accRow x0 rt n)

/-- A load through the whole shape of what a store through the whole shape, the last of several, left. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What a buffer reads as after several stores through its whole shape: the payload of the last. -/
theorem read_whole_cons {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

end Cert.KernelIdeal.Sim

end
-- ==== Proof.SimKernel.lean ====
/-
  The second region's body at any grid point, on whole memrefs. From the resident unit rows and any running sums it
  leaves: the rows as they were; the tile of doubled inner products, masked on the array's diagonal; the running sums
  updated by the tile's row sums of exp(· − 4), from zero at a first column tile; 4 + log of them in the
  log-normaliser block at a last column tile; and the tile's diagonal sums in the partner block at the partners'
  tile. One proof for the sixteen ways the four independent conditions can fall: the symbolic run takes each branch
  by the hypothesis at hand, and every buffer is then read back as the payload of the last store through its whole
  shape, or is untouched.
-/
import proofs.«148196_j36515811951305_2_alg».proof.Proof.SimDefs
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a buffer holds after the body: untouched, or the payload of the last store through its whole shape, with the
    loads of earlier whole-shape stores read back as their payloads. -/
local macro "whole_read" : tactic => `(tactic| first
  | rfl
  | (sl_unfold_run_names
     refine (read_whole_cons _ _ hz2 _ _ _).trans ?_
     simp only [readCov_cons_whole (S := S1024x1024) _ hz2, readCov_cons_whole (S := S1024x1) _ hz2, View.readAt_eq_ld,
       View.ld_unit_zero (S := S1024x1024) hz2, View.ld_unit_zero (S := S1024x1) hz2]
     try rfl))

set_option maxHeartbeats 16000000 in
theorem sound_kernel (c : Dev nD) (E : Set ℕ) (i : grid1.Coords)
    (arg2 : Memref sig .tc .vmem S8192x256 .bf16) (harg2 : arg2.IsWhole) (arg3 : Memref sig .tc .vmem S1024x1 .f32) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole)
    (hx : offDiag i ↔ ¬onDiag i)
    (x0 : Vec F S8192x256 .bf16) (x3 x4 : Vec F S1024x1 .f32) (xl : Vec F S1024x1 .f32) (K : PUnit → sProp 𝕄) :
    iprop(owns (c : Thread nD τ) arg2 fullShare x0 ∗ owns (c : Thread nD τ) arg3 fullShare x3 ∗ owns (c : Thread nD τ) arg4 fullShare x4
        ∗ (∃ d, owns (c : Thread nD τ) arg5 fullShare d) ∗ owns (c : Thread nD τ) arg6 fullShare xl
        ∗ (iprop(owns (c : Thread nD τ) arg2 fullShare x0
            ∗ owns (c : Thread nD τ) arg3 fullShare (if atLast i then k1_pay2 (accL i x0 xl) else x3)
            ∗ owns (c : Thread nD τ) arg4 fullShare (if atPartner i then k1_pay1 (tileS i x0) else x4)
            ∗ owns (c : Thread nD τ) arg5 fullShare (tileS i x0)
            ∗ owns (c : Thread nD τ) arg6 fullShare (accL i x0 xl)) -∗ K ⟨⟩))
      ⊢ wp frame (wpE (defs₀ (F := F)) Variants.none c none) E (cc1_kernel i arg2 harg2 arg3 harg3 arg4 harg4 arg5 harg5 arg6 harg6) K := by
  by_cases h1 : atFirst i <;> by_cases h2 : onDiag i <;> by_cases h4 : atPartner i <;> by_cases h5 : atLast i
  all_goals (
    simp only [accL, tileS]
    first | simp only [if_pos h1] | simp only [if_neg h1]
    first | simp only [if_pos h2] | simp only [if_neg h2]
    first | simp only [if_pos h4] | simp only [if_neg h4]
    first | simp only [if_pos h5] | simp only [if_neg h5]
    simp only [cc1_kernel_eq_skeleton]; unfold cc1_kernel_skel
    simp only [k1_part1_eq_skeleton]; unfold k1_part1_skel
    unfold owns
    iintro ⟨⟨%f0, %hf0, H0⟩, ⟨%f3, %hf3, H3⟩, ⟨%f4, %hf4, H4⟩, ⟨%d5, %f5, -, H5⟩, ⟨%f6, %hf6, H6⟩, Hk⟩
    subst hf0; subst hf3; subst hf4; subst hf6
    first
      | have h3 : offDiag i := hx.mpr h2
      | have h3 : ¬offDiag i := fun h => (hx.mp h) h2
    sl_exec (disch := first | sl_exact h1 | sl_exact h2 | sl_exact h3 | sl_exact h4 | sl_exact h5)
    sl_step
    iapply Hk
    isplitl [H0]
    · iexists f0; isplitr; · ipureintro; rfl
      iexact H0
    isplitl [H3]
    · iexists _; isplitr
      swap; · iexact H3
      ipureintro
      whole_read
    isplitl [H4]
    · iexists _; isplitr
      swap; · iexact H4
      ipureintro
      whole_read
    isplitl [H5]
    · iexists _; isplitr
      swap; · iexact H5
      ipureintro
      whole_read
    iexists _; isplitr
    swap; · iexact H6
    ipureintro
    whole_read)

end Cert.KernelIdeal.Sim

end
-- ==== Proof.SimSchedule.lean ====
/-
  The second region's 64 grid points in closed form: point t is column tile t mod 8 of row tile t / 8. Where each of
  the five branch conditions holds, at which points a result block's buffer is stored into, each window's block at a
  point, and what the body leaves point by point: the running sums folded along the points (reset at each first
  column tile) and the partner block of a row tile (the diagonal sums of the tile four column tiles further on).
-/
import proofs.«148196_j36515811951305_2_alg».proof.Proof.SimKernel
import proofs.«148196_j36515811951305_2_alg».proof.Proof.RegionData
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.RegionData (Vals)

/-! ## The schedule of the second region's 64 points, in closed form

Point `t` is column tile `t % 8` of row tile `t / 8`. -/

theorem N1 : cfg1.N = 64 := N_1

theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)
theorem atPartner_iff : ∀ t : Fin cfg1.N, atPartner (grid1.coords t) ↔ t.val % 8 = (t.val / 8 + 4) % 8 :=
  (by decide +kernel : ∀ t : Fin grid1.N, atPartner (grid1.coords t) ↔ t.val % 8 = (t.val / 8 + 4) % 8)
theorem diag_iff : ∀ t : Fin cfg1.N, offDiag (grid1.coords t) ↔ ¬onDiag (grid1.coords t) :=
  (by decide +kernel : ∀ t : Fin grid1.N, offDiag (grid1.coords t) ↔ ¬onDiag (grid1.coords t))

/-- The resident rows are never idle (an input); -/
theorem live0 : ∀ i, cfg1.idle 0 i = false := fun _ => rfl
/-- the log-normaliser block is stored at the last column tile only, -/
theorem idle1_iff : ∀ t : Fin cfg1.N, cfg1.idle 1 (grid1.coords t) = true ↔ t.val % 8 ≠ 7 :=
  (by decide +kernel : ∀ t : Fin grid1.N, cfg1.idle 1 (grid1.coords t) = true ↔ t.val % 8 ≠ 7)
/-- the partner block at the partners' column tile only. -/
theorem idle2_iff : ∀ t : Fin cfg1.N, cfg1.idle 2 (grid1.coords t) = true ↔ t.val % 8 ≠ (t.val / 8 + 4) % 8 :=
  (by decide +kernel : ∀ t : Fin grid1.N, cfg1.idle 2 (grid1.coords t) = true ↔ t.val % 8 ≠ (t.val / 8 + 4) % 8)

/-- The partners' point of row tile `r`. -/
def tpt (r : ℕ) : Fin cfg1.N := ⟨(8 * r + (r + 4) % 8) % 64, by rw [N1]; exact Nat.mod_lt _ (by decide)⟩

theorem tpt_self (t : Fin cfg1.N) (h : t.val % 8 = (t.val / 8 + 4) % 8) : tpt (t.val / 8) = t := by
  apply Fin.ext; have ht : t.val < 64 := lt_of_lt_of_eq t.isLt N1; show (8 * (t.val / 8) + (t.val / 8 + 4) % 8) % 64 = t.val; omega

variable (V : Vals F)

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident rows' staging buffer holds them at every point, fetched there (the first) or not. -/
theorem before_in_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves, point by point -/

/-- The running sums after point `n`: the body's update along the points, reset at each first column tile. -/
def sums (c : Dev nD) : (n : ℕ) → n < cfg1.N → Vec F S1024x1 .f32
  | 0, h => accL (grid1.coords ⟨0, h⟩) (blockAt V c 0 ⟨0, h⟩) (k1_pay3 (F := F))
  | n + 1, h => accL (grid1.coords ⟨n + 1, h⟩) (blockAt V c 0 ⟨n + 1, h⟩) (sums c n (Nat.lt_of_succ_lt h))

/-- The body's update of any sums at a first column tile is its update of the zero sums. -/
theorem accL_first (i : grid1.Coords) (h : atFirst i) (x0 : Vec F S8192x256 .bf16) (xl xl' : Vec F S1024x1 .f32) :
    accL i x0 xl = accL i x0 xl' := by
  unfold accL; rw [if_pos h, if_pos h]

theorem sums_succ (c : Dev nD) (t : Fin cfg1.N) (h0 : t.val ≠ 0) :
    sums V c t.val t.isLt = accL (grid1.coords t) (blockAt V c 0 t) (sums V c (t.val - 1) (Nat.lt_of_le_of_lt (Nat.sub_le _ _) t.isLt)) := by
  obtain ⟨n, hn⟩ := t
  cases n with
  | zero => exact absurd rfl h0
  | succ n => rfl

theorem sums_zero (c : Dev nD) (t : Fin cfg1.N) (h0 : t.val = 0) (xl : Vec F S1024x1 .f32) :
    sums V c t.val t.isLt = accL (grid1.coords t) (blockAt V c 0 t) xl := by
  obtain ⟨n, hn⟩ := t
  cases n with
  | zero => exact accL_first _ ((atFirst_iff ⟨0, hn⟩).mpr rfl) _ _ _
  | succ n => exact absurd h0 (Nat.succ_ne_zero n)

/-- The partner block of row tile `r`: the diagonal sums of its partners' tile. -/
def partnerBlock (c : Dev nD) (r : ℕ) : Vec F S1024x1 .f32 :=
  k1_pay1 (tileS (grid1.coords (tpt r)) (blockAt V c 0 (tpt r)))

end Cert.KernelIdeal.Sim

end
-- ==== Proof.SimData.lean ====
/-
  The second region's invariant and proof data. Between points the two scratch buffers are owned: the tile scratch
  at anything (it is overwritten before it is read), the sums scratch at the running sums after the point before.
  The proof data says what each window's buffer holds after the body at each point; and a buffer stored at the
  partners' column tile still holds that when it is written back after the last column tile.
-/
import proofs.«148196_j36515811951305_2_alg».proof.Proof.SimSchedule
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.RegionData (Vals)

variable (V : Vals F)

/-! ## The invariant carried from point to point

Before the first point: every scoped buffer no window stages at some contents and the generator register at some
state. After point `n`: the same, but the second scratch at the running sums after point `n`. (The first scratch
is overwritten at every point before it is read, so its contents are never named.) -/

abbrev scS : Memref sig .tc .vmem S1024x1024 .f32 := Memref.whole cc1_scratch0
abbrev scL : Memref sig .tc .vmem S1024x1 .f32 := Memref.whole cc1_scratch1

/-- The plain state, with the two scratch buffers as memrefs owned at some contents. -/
theorem plain_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ (∃ d, owns (c : Thread nD τ) scL fullShare d)) ∗ (∃ r, prngReg c r)) := by
  unfold Pipeline.ΦA; rw [scopedRest1_eq]; simp only [scS, scL, owns_whole]; try rfl

/-- The invariant before point `n`. -/
def inv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c n hn)) ∗ (∃ r, prngReg c r)) := rfl

theorem inv_pos (c : Dev nD) (n : ℕ) (h : n ≤ cfg1.N) (hz : n ≠ 0) :
    inv V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c (n - 1) (by omega))) ∗ (∃ r, prngReg c r)) := by
  cases n with
  | zero => exact absurd rfl hz
  | succ n => rfl

/-! ## The proof data -/

/-- The second region's proof data on core `c`: the arrays as the region finds them; after the body at point `t` the
    resident rows' buffer at the rows, the log-normaliser block at 4 + log of the running sums, the partner block at
    the diagonal sums of the row tile's partners' tile; the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => k1_pay2 (sums V c t.val t.isLt)
    | ⟨2, _⟩ => partnerBlock V c (t.val / 8)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = blockAt V c 0 t := by dsimp only [dat]
theorem after1 (c : Dev nD) (t : Fin cfg1.N) : (dat V c).after 1 t = k1_pay2 (sums V c t.val t.isLt) := by dsimp only [dat]
theorem after2 (c : Dev nD) (t : Fin cfg1.N) : (dat V c).after 2 t = partnerBlock V c (t.val / 8) := by dsimp only [dat]
theorem before0 (c : Dev nD) (t : Fin cfg1.N) (d) : (dat V c).before 0 t d = blockAt V c 0 t :=
  before_in_of V (dat V c) (A_eq V c 0) (after0 V c) t d

theorem inv_castSucc (c : Dev nD) (t : Fin cfg1.N) : (dat V c).Φ t.castSucc = inv V c t.val (Nat.le_of_lt t.isLt) := by
  dsimp only [dat]; simp only [Fin.coe_castSucc]

/-- Past the partners' column tile of its row of tiles the partner block's buffer still holds what was stored there:
    nothing stores into it, and it is written back only after the last column tile. -/
theorem before2_after (c : Dev nD) : ∀ (k : ℕ) (t : Fin cfg1.N), t.val = k → (t.val / 8 + 4) % 8 < t.val % 8 →
    ∀ d, (dat V c).before 2 t d = partnerBlock V c (t.val / 8) := by
  intro k
  induction k with
  | zero => intro t ht h; rw [ht] at h; exact absurd h (by decide)
  | succ k ih =>
    intro t ht h d
    have hN : t.val < 64 := lt_of_lt_of_eq t.isLt N1
    have ht0 : t.val ≠ 0 := by omega
    rw [(dat V c).before_of_pos 2 t ht0 ((cfg1.win 2).fetch_out rfl t) d]
    have hfl : ¬ ((cfg1.win 2).flush ⟨t.val - 1, Nat.lt_of_le_of_lt (Nat.sub_le _ _) t.isLt⟩ = true) := fun hf => by
      have := (flush1_2 ⟨t.val - 1, Nat.lt_of_le_of_lt (Nat.sub_le _ _) t.isLt⟩).mp hf
      simp only at this; omega
    rw [if_neg hfl]
    unfold Dat.left
    by_cases hp : (t.val - 1) % 8 = ((t.val - 1) / 8 + 4) % 8
    · have hi : cfg1.idle 2 (cfg1.grid.coords ⟨t.val - 1, Nat.lt_of_le_of_lt (Nat.sub_le _ _) t.isLt⟩) = false := by
        rw [← Bool.not_eq_true]; exact fun h' => (idle2_iff ⟨t.val - 1, Nat.lt_of_le_of_lt (Nat.sub_le _ _) t.isLt⟩).mp h' hp
      rw [hi]
      unfold Dat.kept
      rw [Pipeline.fill_of_clip_none 2 _ (fun _ => rfl) d ((dat V c).after 2 _), Pipeline.Window.fill_cut, after2]
      show partnerBlock V c ((t.val - 1) / 8) = partnerBlock V c (t.val / 8)
      congr 1; omega
    · have hi : cfg1.idle 2 (cfg1.grid.coords ⟨t.val - 1, Nat.lt_of_le_of_lt (Nat.sub_le _ _) t.isLt⟩) = true :=
        (idle2_iff ⟨t.val - 1, Nat.lt_of_le_of_lt (Nat.sub_le _ _) t.isLt⟩).mpr hp
      rw [hi]
      rw [ih ⟨t.val - 1, Nat.lt_of_le_of_lt (Nat.sub_le _ _) t.isLt⟩ (by show t.val - 1 = k; omega) (by show ((t.val - 1) / 8 + 4) % 8 < (t.val - 1) % 8; omega) d]
      show partnerBlock V c ((t.val - 1) / 8) = partnerBlock V c (t.val / 8)
      congr 1; omega

end Cert.KernelIdeal.Sim

end
-- ==== Proof.SimBody.lean ====
/-
  The body obligation of the second region at a generic point: from what the invariant hands over (the running sums
  so far) the body returns the resident rows unchanged, each result block's buffer as the schedule asks (stored at
  its own column tile, otherwise as found), and the invariant for the next point.
-/
import proofs.«148196_j36515811951305_2_alg».proof.Proof.SimData
import proofs.«148196_j36515811951305_2_alg».proof.Proof.Gen.KernelIdeal.Launch
import proofs.«148196_j36515811951305_2_alg».proof.Proof.Gen.KernelIdeal.Skeleton
import proofs.«148196_j36515811951305_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Sim

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.RegionData (Vals)

variable (V : Vals F)

/-! ## The body obligation at a generic point -/

/-- What the invariant hands the body at point `t`: the second scratch at sums `xl` from which the body's update gives
    the running sums after `t` — the sums after the point before, or anything at the first point (a first column
    tile, where the update starts from zero). -/
theorem inv_elim (c : Dev nD) (t : Fin cfg1.N) :
    inv V c t.val (Nat.le_of_lt t.isLt) ⊢ (iprop(∃ xl, ⌜sums V c t.val t.isLt = accL (grid1.coords t) (blockAt V c 0 t) xl⌝
        ∗ (∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare xl ∗ (∃ r, prngReg c r)) : sProp 𝕄) := by
  by_cases hz : t.val = 0
  · rw [inv_zero V c _ _ hz, plain_eq]
    iintro ⟨⟨H1, H2, H3, H4, HS, ⟨%xl, HL⟩⟩, Hg⟩
    iexists xl; isplitr; · ipureintro; exact sums_zero V c t hz xl
    isplitl [H1]; · iexact H1
    isplitl [H2]; · iexact H2
    isplitl [H3]; · iexact H3
    isplitl [H4]; · iexact H4
    isplitl [HS]; · iexact HS
    isplitl [HL]; · iexact HL
    iexact Hg
  · rw [inv_pos V c _ _ hz]
    iintro ⟨⟨H1, H2, H3, H4, HS, HL⟩, Hg⟩
    iexists _; isplitr; · ipureintro; exact sums_succ V c t hz
    isplitl [H1]; · iexact H1
    isplitl [H2]; · iexact H2
    isplitl [H3]; · iexact H3
    isplitl [H4]; · iexact H4
    isplitl [HS]; · iexact HS
    isplitl [HL]; · iexact HL
    iexact Hg

/-- The resident rows' buffer is handed back at the rows. -/
theorem leaves0_eq (c : Dev nD) (t : Fin cfg1.N) :
    (dat V c).leavesExact 0 t = owns (c : Thread nD τ) (st1_0 t) fullShare (blockAt V c 0 t) := by
  unfold Dat.leavesExact; rw [live0 (cfg1.grid.coords t), after0]

/-- The log-normaliser block's buffer: at the last column tile at 4 + log of the running sums, else as found. -/
theorem leaves1_of (c : Dev nD) (t : Fin cfg1.N) (d1) (xl : Vec F S1024x1 .f32)
    (hxl : sums V c t.val t.isLt = accL (grid1.coords t) (blockAt V c 0 t) xl) :
    owns (c : Thread nD τ) (st1_1 t) fullShare (if atLast (grid1.coords t) then k1_pay2 (accL (grid1.coords t) (blockAt V c 0 t) xl) else (dat V c).before 1 t d1)
      ⊢ (dat V c).leavesExact 1 t := by
  by_cases h : atLast (grid1.coords t)
  · rw [if_pos h]
    have hi : cfg1.idle 1 (cfg1.grid.coords t) = false := by
      rw [← Bool.not_eq_true]; exact fun h' => (idle1_iff t).mp h' ((atLast_iff t).mp h)
    unfold Dat.leavesExact; rw [hi, after1, hxl]
  · rw [if_neg h]
    have hi : cfg1.idle 1 (cfg1.grid.coords t) = true := (idle1_iff t).mpr (fun e => h ((atLast_iff t).mpr e))
    have hf : (cfg1.win 1).flush t = false := by
      rw [← Bool.not_eq_true]; exact fun h' => h ((atLast_iff t).mpr ((flush1_1 t).mp h'))
    rw [Dat.leavesExact_idle (dat V c) 1 t hi hf]
    iintro H; iexists d1; iexact H

/-- The partner block's buffer: at the partners' column tile at the tile's diagonal sums; past it, still so when the
    block is written back after the last column tile; else as found. -/
theorem leaves2_of (c : Dev nD) (t : Fin cfg1.N) (d2) :
    owns (c : Thread nD τ) (st1_2 t) fullShare (if atPartner (grid1.coords t) then k1_pay1 (tileS (grid1.coords t) (blockAt V c 0 t)) else (dat V c).before 2 t d2)
      ⊢ (dat V c).leavesExact 2 t := by
  have hN : t.val < 64 := lt_of_lt_of_eq t.isLt N1
  by_cases h : atPartner (grid1.coords t)
  · rw [if_pos h]
    have hp := (atPartner_iff t).mp h
    have hi : cfg1.idle 2 (cfg1.grid.coords t) = false := by
      rw [← Bool.not_eq_true]; exact fun h' => (idle2_iff t).mp h' hp
    unfold Dat.leavesExact; rw [hi, after2]; unfold partnerBlock; rw [tpt_self t hp]
  · rw [if_neg h]
    have hp : t.val % 8 ≠ (t.val / 8 + 4) % 8 := fun e => h ((atPartner_iff t).mpr e)
    have hi : cfg1.idle 2 (cfg1.grid.coords t) = true := (idle2_iff t).mpr hp
    by_cases hl : t.val % 8 = 7
    · have hf : (cfg1.win 2).flush t = true := (flush1_2 t).mpr hl
      unfold Dat.leavesExact; rw [hi, hf, after2, before2_after V c t.val t rfl (by omega) d2]
    · have hf : (cfg1.win 2).flush t = false := by
        rw [← Bool.not_eq_true]; exact fun h' => hl ((flush1_2 t).mp h')
      rw [Dat.leavesExact_idle (dat V c) 2 t hi hf]
      iintro H; iexists d2; iexact H

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 1000000 in
/-- The body at any point: the resident rows' buffer holds the rows; the invariant hands over the two scratch buffers;
    the body's triple applies; the running sums go back into the invariant, each output block's buffer is left as
    the schedule asks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0]
  rw [show (dat V c).owesAt () t.succ = (dat V c).owesAt () t.castSucc from rfl,
    show (dat V c).Φ t.succ = inv V c (t.val + 1) t.isLt from rfl, inv_succ, inv_castSucc, leaves0_eq]
  iintro ⟨HΦ, Ho, ⟨%d0, H0⟩, ⟨%d1, H1⟩, ⟨%d2, H2⟩⟩
  ihave HΦ' := (inv_elim V c t) $$ HΦ
  icases HΦ' with ⟨%xl, %hxl, Ha, Hb, Hc, Hd, HS, HL, Hg⟩
  iapply (sound_kernel c Set.univ (grid1.coords t) _ _ _ _ _ _ _ _ _ _ (diag_iff t) (blockAt V c 0 t) ((dat V c).before 1 t d1) ((dat V c).before 2 t d2) xl _)
  isplitl [H0]; · iexact H0
  isplitl [H1]; · iexact H1
  isplitl [H2]; · iexact H2
  isplitl [HS]; · iexact HS
  isplitl [HL]; · iexact HL
  iintro ⟨H0, H1, H2, HS, HL⟩
  isplitl [Ha Hb Hc Hd HS HL Hg]
  · isplitr [Hg]
    · isplitl [Ha]; · iexact Ha
      isplitl [Hb]; · iexact Hb
      isplitl [Hc]; · iexact Hc
      isplitl [Hd]; · iexact Hd
      isplitl [HS]; · iexists _; iexact HS
      rw [hxl]; iexact HL
    · iexact Hg
  isplitl [Ho]; · iexact Ho
  isplitl [H0]; · iexact H0
  isplitl [H1]
  · iapply (leaves1_of V c t d1 xl hxl); iexact H1
  iapply (leaves2_of V c t d2); iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Sim

end
-- ==== Proof.SimSecond.lean ====
/-
  The second region's record: its proof data at any entry contents, the body obligation at every point, and the two
  ends of the invariant (it starts from, and returns to, the state in which no scratch contents are named).
-/
import proofs.«148196_j36515811951305_2_alg».proof.Proof.SimBody
import proofs.«148196_j36515811951305_2_alg».proof.Proof.RegionData

/-! The second region's record: its proof data at any entry contents, the body obligation, and the invariant's two ends. -/

noncomputable section

namespace Cert.KernelIdeal.Sim

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.RegionData (Vals)

variable {F : FTy → Type} [FloatOps F] [Named F]

local notation "𝕄" => MT nD τ sig Unit (Elt F) ℕ (UR sig nD τ) ℕ

variable (V : Vals F)

/-- The plain state is the invariant before the first point. -/
theorem hin (c : Dev nD) : (Pipeline.ΦA spec1 c : sProp 𝕄) ⊢ (dat V c).Φ 0 := by
  rw [show (dat V c).Φ 0 = inv V c 0 (Nat.zero_le _) from rfl, inv_zero V c 0 _ rfl]
  try exact BI.Entails.refl _

/-- After the last point the invariant gives the plain state back: the running sums' contents are forgotten. -/
theorem hout (c : Dev nD) : (dat V c).Φ (Fin.last cfg1.N) ⊢ (Pipeline.ΦA spec1 c : sProp 𝕄) := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N1; omega), plain_eq]
  iintro ⟨⟨H1, H2, H3, H4, HS, HL⟩, Hg⟩
  isplitr [Hg]
  · isplitl [H1]; · iexact H1
    isplitl [H2]; · iexact H2
    isplitl [H3]; · iexact H3
    isplitl [H4]; · iexact H4
    isplitl [HS]; · iexact HS
    iexists _; iexact HL
  · iexact Hg

/-- The second region, at any entry contents. -/
def second : RegionData.Second F where
  dat := fun V c => dat V c
  A_eq := fun V c w => A_eq V c w
  q_eq := fun _ _ _ => rfl
  owed_eq := fun _ _ _ => rfl
  recorded_eq := fun _ _ => rfl
  body := fun V c => body_obligation V c
  hin := fun V c => hin V c
  hout := fun V c => hout V c

end Cert.KernelIdeal.Sim

end
-- ==== Proof.SimValueTile.lean ====
/-
  The second kernel region on the extended reals: the tile of similarities the body leaves at a grid point.

  At grid point (rt, ct) the body loads rows rt·1024 … of the resident array (the row tile) and rows ct·1024 …
  (the column tile), multiplies the first block by the transpose of the second into a zero accumulator and
  doubles every entry: entry (a, b) is twice the inner product of rows rt·1024 + a and ct·1024 + b. On the block
  diagonal rt = ct the entries with a = b — the array's own diagonal — are replaced by −∞; off it no two rows
  coincide and nothing is replaced. Either way entry (a, b) is the definition's masked similarity of the two rows.
-/
import proofs.«148196_j36515811951305_2_alg».proof.Proof.SimDefs
import proofs.«148196_j36515811951305_2_alg».proof.Proof.Spec
import proofs.«148196_j36515811951305_2_alg».proof.Proof.NormArray
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SimValue

open Cert.KernelIdeal Cert.KernelIdeal.Gen
open Idealize.ShloMosaic Idealize.ShloMosaic.TcCoe Idealize.ShloMosaic.ValueIdx

/-- The rows of the resident array as the loss's definition names them. -/
abbrev rowsOf (x0 : Vec Ideal S8192x256 .bf16) : Cert.Spec.Rows := fun p k => x0 (ix2 p k)

/-- Row a of tile t, as a row of the resident array. -/
def grow (t : Fin 8) (a : Fin 1024) : Fin 8192 :=
  ⟨t.val * 1024 + a.val, by have := t.isLt; have := a.isLt; omega⟩

/-! ## The grid's scalar chains, decided over the 64 points -/

theorem off1 : ∀ rt ct : Fin 8, k1_off1 (Sim.pt rt ct) = ![rt.val * 1024, 0] := by decide +kernel
theorem off2 : ∀ rt ct : Fin 8, k1_off2 (Sim.pt rt ct) = ![ct.val * 1024, 0] := by decide +kernel
theorem onDiag_iff : ∀ rt ct : Fin 8, Sim.onDiag (Sim.pt rt ct) ↔ rt = ct := by decide +kernel
theorem atFirst_iff : ∀ rt ct : Fin 8, Sim.atFirst (Sim.pt rt ct) ↔ ct = 0 := by decide +kernel

/-! ## The two loaded blocks, entry by entry -/

/-- The row tile's block: its row a is row rt·1024 + a of the resident array. -/
theorem ld_rq_apply (x0 : Vec Ideal S8192x256 .bf16) (rt ct : Fin 8) (a : Fin 1024) (k : Fin 256) :
    (View.ld x0 (Sim.rq (Sim.pt rt ct)) : Vec Ideal S1024x256 .bf16) (ix2 a k) = x0 (ix2 (grow rt a) k) := by
  show x0 ((Sim.rq (Sim.pt rt ct)).emb (ix2 a k)) = x0 (ix2 (grow rt a) k)
  congr 1
  funext c
  apply Fin.ext
  match c with
  | ⟨0, _⟩ =>
    show k1_off1 (Sim.pt rt ct) 0 + 1 * a.val = rt.val * 1024 + a.val
    rw [congrFun (off1 rt ct) 0]; show rt.val * 1024 + 1 * a.val = _; omega
  | ⟨1, _⟩ =>
    show k1_off1 (Sim.pt rt ct) 1 + 1 * k.val = k.val
    rw [congrFun (off1 rt ct) 1]; show 0 + 1 * k.val = _; omega

/-- The column tile's block likewise. -/
theorem ld_rk_apply (x0 : Vec Ideal S8192x256 .bf16) (rt ct : Fin 8) (b : Fin 1024) (k : Fin 256) :
    (View.ld x0 (Sim.rk (Sim.pt rt ct)) : Vec Ideal S1024x256 .bf16) (ix2 b k) = x0 (ix2 (grow ct b) k) := by
  show x0 ((Sim.rk (Sim.pt rt ct)).emb (ix2 b k)) = x0 (ix2 (grow ct b) k)
  congr 1
  funext c
  apply Fin.ext
  match c with
  | ⟨0, _⟩ =>
    show k1_off2 (Sim.pt rt ct) 0 + 1 * b.val = ct.val * 1024 + b.val
    rw [congrFun (off2 rt ct) 0]; show ct.val * 1024 + 1 * b.val = _; omega
  | ⟨1, _⟩ =>
    show k1_off2 (Sim.pt rt ct) 1 + 1 * k.val = k.val
    rw [congrFun (off2 rt ct) 1]; show 0 + 1 * k.val = _; omega

/-! ## The block product -/

/-- The product's dimension numbers: rows by the contraction, the contraction by columns. -/
abbrev dd := dot_S1024x256_S256x1024_S1024x1024_1_0_0_1_n_n

theorem lhs_0 (i : S1024x1024.Idx) (q : dd.contr.Idx) : (dd.lhsIdx i q 0).val = (i 0).val := by
  unfold DotDims.lhsIdx
  rw [dif_neg (show ¬(0 : Fin S1024x256.rank) ∈ dd.lhsBatch by decide),
    dif_pos (show (0 : Fin S1024x256.rank) ∈ dd.lhsNonContracting by decide)]
  rfl
theorem lhs_1 (i : S1024x1024.Idx) (q : dd.contr.Idx) : (dd.lhsIdx i q 1).val = (q ⟨0, by decide⟩).val :=
  dd.lhsIdx_val_of_single rfl i q
theorem rhs_0 (i : S1024x1024.Idx) (q : dd.contr.Idx) : (dd.rhsIdx i q 0).val = (q ⟨0, by decide⟩).val :=
  dd.rhsIdx_val_of_single rfl i q
theorem rhs_1 (i : S1024x1024.Idx) (q : dd.contr.Idx) : (dd.rhsIdx i q 1).val = (i 1).val := by
  unfold DotDims.rhsIdx
  rw [dif_neg (show ¬(1 : Fin S256x1024.rank) ∈ dd.rhsBatch by decide),
    dif_pos (show (1 : Fin S256x1024.rank) ∈ dd.rhsNonContracting by decide)]
  rfl

/-- Twice the inner product of row a of the first block and row b of the second: the second block is transposed,
    the product accumulates into zero, and the factor 2 is applied to every entry. -/
theorem pay4_apply (v8 v11 : Vec Ideal S1024x256 .bf16) (a b : Fin 1024) :
    k1_pay4 v8 v11 (ix2 a b) = (∑ k : Fin 256, v8 (ix2 a k) * v11 (ix2 b k)) * Ideal.ofBits .f32 0x40000000#32 := by
  unfold k1_pay4
  simp only [shapeCast_self]
  refine congrArg (· * Ideal.ofBits .f32 0x40000000#32) ?_
  refine (Ideal.matmul_constant_zero_apply dd none v8 _ (ix2 a b)).trans ?_
  rw [← Equiv.sum_comp (contrEquiv1 dd 256 rfl rfl).symm]
  refine Finset.sum_congr rfl fun k _ => ?_
  have hk := contrEquiv1_symm_val dd 256 rfl rfl k
  have el : dd.lhsIdx (ix2 a b) ((contrEquiv1 dd 256 rfl rfl).symm k) = ix2 a k := funext fun c => Fin.ext (by
    match c with
    | ⟨0, _⟩ => exact lhs_0 _ _
    | ⟨1, _⟩ => exact (lhs_1 _ _).trans hk)
  have er : dd.rhsIdx (ix2 a b) ((contrEquiv1 dd 256 rfl rfl).symm k) = ix2 k b := funext fun c => Fin.ext (by
    match c with
    | ⟨0, _⟩ => exact (rhs_0 _ _).trans hk
    | ⟨1, _⟩ => exact rhs_1 _ _)
  rw [el, er, transpose_ix2_apply]

/-! ## The mask -/

/-- Two coordinates below 1024, as 32-bit words, compare equal exactly when they are equal. -/
theorem cmpi_coord (a b : Fin 1024) :
    IntOp.cmpi .eq (BitVec.ofNat 32 a.val) (BitVec.ofNat 32 b.val) = if a = b then 1#1 else 0#1 := by
  by_cases h : a = b
  · subst h; rw [if_pos rfl]; simp [IntOp.cmpi]
  · rw [if_neg h]
    have hne : BitVec.ofNat 32 a.val ≠ BitVec.ofNat 32 b.val := by
      intro e
      have e' := congrArg BitVec.toNat e
      simp only [BitVec.toNat_ofNat] at e'
      have ha := a.isLt; have hb := b.isLt
      rw [Nat.mod_eq_of_lt (by omega), Nat.mod_eq_of_lt (by omega)] at e'
      exact h (Fin.ext e')
    have hb : (BitVec.ofNat 32 a.val == BitVec.ofNat 32 b.val) = false := beq_eq_false_iff_ne.mpr hne
    show BitVec.ofBool (BitVec.ofNat 32 a.val == BitVec.ofNat 32 b.val) = 0#1
    rw [hb]; rfl

/-- The masking constant is −∞ on the extended reals, by the program's table of named constants. -/
theorem neg_big : Named.named (F := Ideal) κ "neg_big" (φ := .f32) 0xF149F2CA#32 = (⊥ : EReal) :=
  IdealRules.named_const.ideal_named_scalar _ _ _ _ rfl

/-- A tile on the block diagonal: −∞ on its own diagonal, the product elsewhere. -/
theorem pay5_apply (v8 v11 : Vec Ideal S1024x256 .bf16) (a b : Fin 1024) :
    k1_pay5 v8 v11 (ix2 a b) = if a = b then (⊥ : EReal) else k1_pay4 v8 v11 (ix2 a b) := by
  unfold k1_pay5
  simp only [shapeCast_self]
  rw [select_apply]
  show Scalar.select (IntOp.cmpi .eq (iota .tc S1024x1024 32 [0] _ (ix2 a b)) (iota .tc S1024x1024 32 [1] _ (ix2 a b))) _ _ = _
  rw [iota_single_apply, iota_single_apply]
  show Scalar.select (IntOp.cmpi .eq (BitVec.ofNat 32 a.val) (BitVec.ofNat 32 b.val)) _ _ = _
  rw [cmpi_coord]
  by_cases h : a = b
  · rw [if_pos h, if_pos h, select_one]; exact neg_big
  · rw [if_neg h, if_neg h, select_zero]

/-- A tile off the block diagonal: the product. -/
theorem pay6_apply (v8 v11 : Vec Ideal S1024x256 .bf16) (a b : Fin 1024) :
    k1_pay6 v8 v11 (ix2 a b) = k1_pay4 v8 v11 (ix2 a b) := by
  unfold k1_pay6
  simp only [shapeCast_self]

/-! ## The tile of similarities -/

/-- Two rows of the resident array are the same row iff they are the same row of the same tile. -/
theorem grow_eq_iff (rt ct : Fin 8) (a b : Fin 1024) : grow rt a = grow ct b ↔ rt = ct ∧ a = b := by
  constructor
  · intro h
    have hv : rt.val * 1024 + a.val = ct.val * 1024 + b.val := congrArg Fin.val h
    have ha := a.isLt; have hb := b.isLt
    exact ⟨Fin.ext (by omega), Fin.ext (by omega)⟩
  · rintro ⟨rfl, rfl⟩; rfl

/-- The tile the body leaves at grid point (rt, ct), entry (a, b): the masked similarity of rows rt·1024 + a and
    ct·1024 + b of the resident array. -/
theorem tileS_apply (rt ct : Fin 8) (x0 : Vec Ideal S8192x256 .bf16) (a b : Fin 1024) :
    Sim.tileS (Sim.pt rt ct) x0 (ix2 a b) = Cert.Spec.simMasked (rowsOf x0) (grow rt a) (grow ct b) := by
  have hprod : k1_pay4 (View.ld x0 (Sim.rq (Sim.pt rt ct))) (View.ld x0 (Sim.rk (Sim.pt rt ct))) (ix2 a b)
      = Cert.Spec.sim (rowsOf x0) (grow rt a) (grow ct b) := by
    rw [pay4_apply]
    unfold Cert.Spec.sim Cert.Spec.two
    rw [Ideal.ofBits_zero_f32, zero_add]
    refine congrArg (· * Ideal.ofBits .f32 0x40000000#32) (Finset.sum_congr rfl fun k _ => ?_)
    exact congrArg₂ (· * ·) (ld_rq_apply x0 rt ct a k) (ld_rk_apply x0 rt ct b k)
  unfold Sim.tileS Cert.Spec.simMasked
  by_cases hd : rt = ct
  · rw [if_pos ((onDiag_iff rt ct).mpr hd), pay5_apply, hprod]
    exact if_congr (by rw [grow_eq_iff]; exact ⟨fun h => ⟨hd, h⟩, fun h => h.2⟩) rfl rfl
  · rw [if_neg (fun h => hd ((onDiag_iff rt ct).mp h)), pay6_apply, hprod,
      if_neg (fun h => hd ((grow_eq_iff rt ct a b).mp h).1)]

end Cert.KernelIdeal.SimValue

end
-- ==== Proof.SimValueAcc.lean ====
/-
  The second kernel region on the extended reals: the running sums along a row of tiles.

  At each grid point the body adds to row a's running sum the sum, along row a of the point's tile, of the
  exponentials of the entries less 4; at the first tile of a row of tiles the running sum starts from zero.
  Folded along the eight tiles of row tile rt the running sum of row a is therefore the sum over all 8192 rows q
  of exp (masked similarity of row rt·1024 + a and row q, less 4): extended-real addition is a commutative monoid,
  so the eight partial sums regroup into one with no finiteness condition. That is the definition's normaliser.
-/
import proofs.«148196_j36515811951305_2_alg».proof.Proof.SimDefs
import proofs.«148196_j36515811951305_2_alg».proof.Proof.Spec
import proofs.«148196_j36515811951305_2_alg».proof.Proof.NormArray
import proofs.«148196_j36515811951305_2_alg».proof.Proof.SimValueTile
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SimValue

open Cert.KernelIdeal Cert.KernelIdeal.Gen
open Idealize.ShloMosaic Idealize.ShloMosaic.TcCoe Idealize.ShloMosaic.ValueIdx

/-! ## The sum along the lanes -/

/-- The sum along the rows of an array of a rows of b extended reals, at row r: the sum of the row's b entries. -/
theorem lane_sum {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ d : Fin b, src (ix2 r d) := by
  refine (Ideal.multiReduction_add_single src _ h hφ hacc (ix1 r)).trans ?_
  refine Finset.sum_congr rfl fun d _ => congrArg src ?_
  funext c
  match c with
  | ⟨0, _⟩ => rfl
  | ⟨1, _⟩ => rfl

/-! ## The running sums -/

/-- The reset value of the running sums is zero. -/
theorem pay3_apply (a : Fin 1024) (u : Fin 1) : k1_pay3 (F := Ideal) (ix2 a u) = 0 := by
  unfold k1_pay3
  simp only [shapeCast_self]
  exact Ideal.ofBits_zero_f32

/-- The update of the running sums by a tile S: row a's sum grows by the sum, along row a of S, of the
    exponentials of the entries less 4. -/
theorem pay7_apply (S : Vec Ideal S1024x1024 .f32) (xl : Vec Ideal S1024x1 .f32) (a : Fin 1024) (u : Fin 1) :
    k1_pay7 S xl (ix2 a u)
      = xl (ix2 a u) + ∑ b : Fin 1024, Ideal.exp (S (ix2 a b) - Ideal.ofBits .f32 0x40800000#32) := by
  unfold k1_pay7
  simp only [shapeCast_self]
  show xl (ix2 a u) + shapeCast S1024x1 _ _ (ix2 a u) = _
  rw [Norm.cast_col]
  exact congrArg (xl (ix2 a u) + ·) (lane_sum _ _ _ _ a)

/-- The running sums the body leaves at a grid point, from those the point before left: reset to zero first at the
    first tile of a row of tiles. -/
theorem accL_apply (i : grid1.Coords) (x0 : Vec Ideal S8192x256 .bf16) (xl : Vec Ideal S1024x1 .f32) (a : Fin 1024) :
    Sim.accL i x0 xl (ix2 a (0 : Fin 1))
      = (if Sim.atFirst i then k1_pay3 (F := Ideal) (ix2 a (0 : Fin 1)) else xl (ix2 a (0 : Fin 1)))
        + ∑ b : Fin 1024, Ideal.exp (Sim.tileS i x0 (ix2 a b) - Cert.Spec.four) := by
  unfold Sim.accL
  rw [pay7_apply]
  unfold Cert.Spec.four
  split_ifs <;> rfl

/-! ## Along a row of tiles -/

/-- The sum, along row a of the tile at (rt, ct), of the exponentials of the masked similarities less 4. -/
def tileSum (x0 : Vec Ideal S8192x256 .bf16) (rt ct : Fin 8) (a : Fin 1024) : EReal :=
  ∑ b : Fin 1024, Ideal.exp (Sim.tileS (Sim.pt rt ct) x0 (ix2 a b) - Cert.Spec.four)

/-- After column tile n of a row of tiles the running sums hold the tile sums of tiles 0 … n added up. -/
theorem accRow_apply (x0 : Vec Ideal S8192x256 .bf16) (rt : Fin 8) (a : Fin 1024) :
    ∀ n, n < 8 → Sim.accRow x0 rt n (ix2 a (0 : Fin 1))
      = ∑ j ∈ Finset.range (n + 1), tileSum x0 rt ⟨j % 8, Nat.mod_lt _ (by decide)⟩ a
  | 0, _ => by
    show Sim.accL (Sim.pt rt 0) x0 (k1_pay3 (F := Ideal)) (ix2 a (0 : Fin 1)) = _
    rw [accL_apply, if_pos ((atFirst_iff rt 0).mpr rfl), pay3_apply, zero_add, Finset.sum_range_one]
    rfl
  | n + 1, hn => by
    show Sim.accL (Sim.pt rt ⟨(n + 1) % 8, Nat.mod_lt _ (by decide)⟩) x0 (Sim.accRow x0 rt n) (ix2 a (0 : Fin 1)) = _
    have hnf : ¬ Sim.atFirst (Sim.pt rt ⟨(n + 1) % 8, Nat.mod_lt _ (by decide)⟩) := fun hf => by
      have h0 := congrArg Fin.val ((atFirst_iff rt _).mp hf)
      have h1 : (n + 1) % 8 = 0 := h0
      omega
    rw [accL_apply, if_neg hnf, accRow_apply x0 rt a n (by omega), Finset.sum_range_succ _ (n + 1)]
    rfl

/-- After the last column tile: the eight tile sums added up. -/
theorem accRow_last (x0 : Vec Ideal S8192x256 .bf16) (rt : Fin 8) (a : Fin 1024) :
    Sim.accRow x0 rt 7 (ix2 a (0 : Fin 1)) = ∑ ct : Fin 8, tileSum x0 rt ct a := by
  rw [accRow_apply x0 rt a 7 (by decide), Finset.sum_range]
  refine Finset.sum_congr rfl fun ct _ => ?_
  have hct : (⟨ct.val % 8, Nat.mod_lt _ (by decide)⟩ : Fin 8) = ct := Fin.ext (Nat.mod_eq_of_lt ct.isLt)
  rw [hct]

/-! ## The eight tiles of a row make the row -/

/-- A row of the resident array is a tile and a row of the tile. -/
def tileEquiv : Fin 8 × Fin 1024 ≃ Fin 8192 where
  toFun x := grow x.1 x.2
  invFun q := (⟨q.val / 1024, by have := q.isLt; omega⟩, ⟨q.val % 1024, Nat.mod_lt _ (by decide)⟩)
  left_inv x := by
    obtain ⟨ct, b⟩ := x
    have hb := b.isLt
    refine Prod.ext (Fin.ext ?_) (Fin.ext ?_)
    · show (ct.val * 1024 + b.val) / 1024 = ct.val; omega
    · show (ct.val * 1024 + b.val) % 1024 = b.val; omega
  right_inv q := Fin.ext (by show q.val / 1024 * 1024 + q.val % 1024 = q.val; omega)

/-- The eight tile sums of row tile rt at row a make the normaliser of row rt·1024 + a. -/
theorem partition_eq (x0 : Vec Ideal S8192x256 .bf16) (rt : Fin 8) (a : Fin 1024) :
    ∑ ct : Fin 8, tileSum x0 rt ct a = Cert.Spec.partition (rowsOf x0) (grow rt a) := by
  unfold Cert.Spec.partition tileSum
  simp only [tileS_apply]
  rw [← Fintype.sum_prod_type' (fun ct b => Ideal.exp (Cert.Spec.simMasked (rowsOf x0) (grow rt a) (grow ct b) - Cert.Spec.four))]
  exact Fintype.sum_equiv tileEquiv _ _ (fun _ => rfl)

end Cert.KernelIdeal.SimValue

end
-- ==== Proof.SimValueLoss.lean ====
/-
  The second kernel region on the extended reals: a row's loss from the region's two results.

  After the last tile of row tile rt the first result holds, at row a, 4 plus the logarithm of the running sum,
  that is 4 + log of the normaliser of row p = rt·1024 + a. The second result holds the sum along row a of the
  partner tile's entries kept on the tile's diagonal and zero elsewhere, which is the one entry (a, a): the
  partner tile is four tiles further on cyclically, so its row a is row (p + 4096) mod 8192, the partner of p,
  and being off the block diagonal the entry is the unmasked similarity of p and its partner. The first less the
  second is the definition's loss of row p.
-/
import proofs.«148196_j36515811951305_2_alg».proof.Proof.SimDefs
import proofs.«148196_j36515811951305_2_alg».proof.Proof.Spec
import proofs.«148196_j36515811951305_2_alg».proof.Proof.NormArray
import proofs.«148196_j36515811951305_2_alg».proof.Proof.SimValueTile
import proofs.«148196_j36515811951305_2_alg».proof.Proof.SimValueAcc
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SimValue

open Cert.KernelIdeal Cert.KernelIdeal.Gen
open Idealize.ShloMosaic Idealize.ShloMosaic.TcCoe Idealize.ShloMosaic.ValueIdx

/-! ## The two results -/

/-- The first result: 4 plus the logarithm of the running sums. -/
theorem pay2_apply (L : Vec Ideal S1024x1 .f32) (a : Fin 1024) (u : Fin 1) :
    k1_pay2 (F := Ideal) L (ix2 a u) = Ideal.ofBits .f32 0x40800000#32 + Ideal.log (L (ix2 a u)) := by
  unfold k1_pay2
  rfl

/-- The second result: the sum along row a of the tile's diagonal entry and zeros elsewhere — the diagonal entry. -/
theorem pay1_apply (S : Vec Ideal S1024x1024 .f32) (a : Fin 1024) (u : Fin 1) :
    k1_pay1 (F := Ideal) S (ix2 a u) = S (ix2 a a) := by
  unfold k1_pay1
  rw [Norm.cast_col]
  refine (lane_sum _ _ _ _ a).trans ?_
  have hterm : ∀ d : Fin 1024,
      select (cmpi .eq (iota .tc S1024x1024 32 [0] iota_S1024x1024_d0_w32) (iota .tc S1024x1024 32 [1] iota_S1024x1024_d1_w32))
        S (broadcast S1024x1024 (Scalar.ofBits (F := Ideal) .f32 0x00000000#32)) (ix2 a d)
        = if a = d then S (ix2 a d) else 0 := fun d => by
    rw [select_apply]
    show Scalar.select (IntOp.cmpi .eq (iota .tc S1024x1024 32 [0] _ (ix2 a d)) (iota .tc S1024x1024 32 [1] _ (ix2 a d))) _ _ = _
    rw [iota_single_apply, iota_single_apply]
    show Scalar.select (IntOp.cmpi .eq (BitVec.ofNat 32 a.val) (BitVec.ofNat 32 d.val)) _ _ = _
    rw [cmpi_coord]
    by_cases h : a = d
    · rw [if_pos h, if_pos h, select_one]
    · rw [if_neg h, if_neg h, select_zero]; exact Ideal.ofBits_zero_f32
  rw [Finset.sum_congr rfl fun d _ => hterm d, Finset.sum_ite_eq, if_pos (Finset.mem_univ a)]

/-! ## The row loss -/

/-- The partner of a row is the same row of the tile four further on, cyclically. -/
theorem partner_grow (rt : Fin 8) (a : Fin 1024) : grow (Sim.pcol rt) a = Cert.Spec.partner (grow rt a) := by
  apply Fin.ext
  show (rt.val + 4) % 8 * 1024 + a.val = (rt.val * 1024 + a.val + 4096) % 8192
  have ha := a.isLt; have hr := rt.isLt
  omega

/-- A row is not its own partner. -/
theorem partner_ne (p : Fin 8192) : p ≠ Cert.Spec.partner p := fun h => by
  have hv : p.val = (p.val + 4096) % 8192 := congrArg Fin.val h
  have hp := p.isLt
  omega

/-- What the two results of a row tile hold at row a, the first less the second: the loss of row rt·1024 + a. -/
theorem lse_pos (x0 : Vec Ideal S8192x256 .bf16) (rt : Fin 8) (a : Fin 1024) :
    k1_pay2 (F := Ideal) (Sim.accRow x0 rt 7) (ix2 a (0 : Fin 1))
        - k1_pay1 (F := Ideal) (Sim.tileS (Sim.pt rt (Sim.pcol rt)) x0) (ix2 a (0 : Fin 1))
      = Cert.Spec.loss (rowsOf x0) ⟨rt.val * 1024 + a.val, by have := a.isLt; have := rt.isLt; omega⟩ := by
  show _ = Cert.Spec.loss (rowsOf x0) (grow rt a)
  rw [pay2_apply, pay1_apply, accRow_last, partition_eq, tileS_apply, partner_grow]
  unfold Cert.Spec.loss Cert.Spec.simMasked Cert.Spec.four
  rw [if_neg (partner_ne _)]

end Cert.KernelIdeal.SimValue

end
-- ==== Proof.SimArray.lean ====
/-
  The second kernel region on the extended reals: its two result arrays after the region, as functions of its
  input array.

  Grid point t is column tile t mod 8 of row tile t / 8. The resident window's block is the whole input array at
  every point, so the running sums after point t are those of row tile t / 8 folded over its column tiles
  0 … t mod 8. Each result window's block at point t is rows (t / 8)·1024 … of its array and is written back at the
  last column tile, t mod 8 = 7: the first holds 4 + log of the running sums after the row's last tile, the second
  the diagonal sums of the row tile's partners' tile, kept since that tile was passed. The eight write-backs fill
  each array, so row p of the first less row p of the second is the loss of row p.
-/
import proofs.«148196_j36515811951305_2_alg».proof.Proof.SimData
import proofs.«148196_j36515811951305_2_alg».proof.Proof.SimValueLoss
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SimValue

open Cert.KernelIdeal Cert.KernelIdeal.Gen
open Idealize.ShloMosaic Idealize.ShloMosaic.TcCoe Idealize.ShloMosaic.ValueIdx
open Idealize.ShloMosaic.Pipeline (Dat)

-- the contents of every buffer of every core's TensorCore when the region is entered
variable (V : Cert.KernelIdeal.RegionData.Vals Ideal)

/-- The region's input array on core c: the rows the first region left. -/
abbrev X (c : Dev nD) : Vec Ideal S8192x256 .bf16 := V c main_v1

/-! ## Rows, tiles and grid points -/

/-- The tile a row of the array lies in, and the row's place in the tile. -/
def tileOf (p : Fin 8192) : Fin 8 := ⟨p.val / 1024, by have := p.isLt; omega⟩
def rowIn (p : Fin 8192) : Fin 1024 := ⟨p.val % 1024, Nat.mod_lt _ (by decide)⟩

theorem tileOf_grow (r : Fin 8) (a : Fin 1024) : tileOf (grow r a) = r :=
  Fin.ext (by have := a.isLt; show (r.val * 1024 + a.val) / 1024 = r.val; omega)
theorem rowIn_grow (r : Fin 8) (a : Fin 1024) : rowIn (grow r a) = a :=
  Fin.ext (by have := a.isLt; show (r.val * 1024 + a.val) % 1024 = a.val; omega)
theorem grow_tileOf_rowIn (p : Fin 8192) : grow (tileOf p) (rowIn p) = p :=
  Fin.ext (by show p.val / 1024 * 1024 + p.val % 1024 = p.val; omega)

/-- The row tile and the column tile of grid point t. -/
def rtOf (t : Fin cfg1.N) : Fin 8 := ⟨t.val / 8, by have := t.isLt; have hN : cfg1.N = 64 := Sim.N1; omega⟩
def ctOf (t : Fin cfg1.N) : Fin 8 := ⟨t.val % 8, Nat.mod_lt _ (by decide)⟩

/-- The index maps and the grid's coordinates, decided over the 64 points: the resident window's block is the
    whole array at every point; each result window's block is the row tile's. -/
theorem idx_facts1 : ∀ t : Fin cfg1.N,
    win1_0.index t (0 : Fin 2) = 0 ∧ win1_0.index t (1 : Fin 2) = 0
    ∧ win1_1.index t (0 : Fin 2) = t.val / 8 ∧ win1_1.index t (1 : Fin 2) = 0
    ∧ win1_2.index t (0 : Fin 2) = t.val / 8 ∧ win1_2.index t (1 : Fin 2) = 0
    ∧ (grid1.coords t (0 : Fin 2)).val = t.val / 8 ∧ (grid1.coords t (1 : Fin 2)).val = t.val % 8 :=
  (by decide +kernel : ∀ t : Fin grid1.N, _)

/-- Grid point t is column tile t mod 8 of row tile t / 8. -/
theorem coords_eq (t : Fin cfg1.N) : grid1.coords t = Sim.pt (rtOf t) (ctOf t) := by
  obtain ⟨-, -, -, -, -, -, g0, g1⟩ := idx_facts1 t
  funext a
  apply Fin.ext
  match a with
  | ⟨0, _⟩ => exact g0
  | ⟨1, _⟩ => exact g1

/-! ## What each point reads and leaves -/

/-- The resident window's block is the input array, at every point. -/
theorem blockAt0 (c : Dev nD) (t : Fin cfg1.N) : (Sim.blockAt V c 0 t : Vec Ideal S8192x256 .bf16) = X V c := by
  obtain ⟨e0, e1, -⟩ := idx_facts1 t
  unfold Sim.blockAt
  funext j
  rw [View.read_apply]
  show V c main_v1 _ = V c main_v1 j
  congr 1
  funext a
  apply Fin.ext
  match a with
  | ⟨0, _⟩ => show win1_0.index t 0 * 8192 + 1 * (j 0).val = (j 0).val; rw [e0]; omega
  | ⟨1, _⟩ => show win1_0.index t 1 * 256 + 1 * (j 1).val = (j 1).val; rw [e1]; omega

/-- One update of the running sums at column tile ct of row tile r, from the sums after the tile before (from
    anything at the first tile), gives the sums after tile ct. -/
theorem accRow_step (x0 : Vec Ideal S8192x256 .bf16) (r ct : Fin 8) (xl : Vec Ideal S1024x1 .f32)
    (hxl : ct.val ≠ 0 → xl = Sim.accRow x0 r (ct.val - 1)) :
    Sim.accL (Sim.pt r ct) x0 xl = Sim.accRow x0 r ct.val := by
  obtain ⟨m, hm⟩ := ct
  cases m with
  | zero =>
    show _ = Sim.accL (Sim.pt r 0) x0 (k1_pay3 (F := Ideal))
    exact Sim.accL_first _ ((atFirst_iff r 0).mpr rfl) _ _ _
  | succ k =>
    show _ = Sim.accL (Sim.pt r ⟨(k + 1) % 8, Nat.mod_lt _ (by decide)⟩) x0 (Sim.accRow x0 r k)
    have hct : (⟨(k + 1) % 8, Nat.mod_lt _ (by decide)⟩ : Fin 8) = ⟨k + 1, hm⟩ := Fin.ext (Nat.mod_eq_of_lt hm)
    rw [hct, hxl (Nat.succ_ne_zero k)]
    rfl

/-- The running sums after point n: those of the point's row of tiles after its column tile. -/
theorem sums_eq (c : Dev nD) : ∀ (n : ℕ) (h : n < cfg1.N),
    Sim.sums V c n h = Sim.accRow (X V c) (rtOf ⟨n, h⟩) (n % 8)
  | 0, h => by
    show Sim.accL (grid1.coords ⟨0, h⟩) (Sim.blockAt V c 0 ⟨0, h⟩) (k1_pay3 (F := Ideal)) = _
    rw [blockAt0, coords_eq]
    exact accRow_step (X V c) _ _ _ (fun h0 => absurd rfl h0)
  | n + 1, h => by
    show Sim.accL (grid1.coords ⟨n + 1, h⟩) (Sim.blockAt V c 0 ⟨n + 1, h⟩) (Sim.sums V c n (Nat.lt_of_succ_lt h)) = _
    rw [blockAt0, coords_eq, sums_eq c n (Nat.lt_of_succ_lt h)]
    refine accRow_step (X V c) _ _ _ (fun h0 => ?_)
    have h0' : (n + 1) % 8 ≠ 0 := h0
    have e1 : rtOf ⟨n, Nat.lt_of_succ_lt h⟩ = rtOf ⟨n + 1, h⟩ := Fin.ext (by show n / 8 = (n + 1) / 8; omega)
    have e2 : n % 8 = (n + 1) % 8 - 1 := by omega
    exact congrArg₂ (fun r m => Sim.accRow (X V c) r m) e1 e2

/-! ## The two result arrays as functions of the input array -/

/-- The first result array: at row p, 4 plus the logarithm of the running sums of p's row of tiles after its last tile. -/
def G1 (c : Dev nD) : S8192x1.Idx → Elt Ideal .f32 := fun i =>
  k1_pay2 (F := Ideal) (Sim.accRow (X V c) (tileOf (i 0)) 7) (ix2 (rowIn (i 0)) (0 : Fin 1))

/-- The second result array: at row p, the diagonal sums of the partners' tile of p's row tile. -/
def G2 (c : Dev nD) : S8192x1.Idx → Elt Ideal .f32 := fun i =>
  k1_pay1 (F := Ideal) (Sim.tileS (Sim.pt (tileOf (i 0)) (Sim.pcol (tileOf (i 0)))) (X V c)) (ix2 (rowIn (i 0)) (0 : Fin 1))

/-- Where entry (a, u) of a result window's block at point t lies in its array: row a of row tile t / 8. -/
theorem emb1 (t : Fin cfg1.N) (a : Fin 1024) (u : Fin 1) :
    ((cfg1.win 1).blk t).view.emb (ix2 a u) = (ix2 (grow (rtOf t) a) (0 : Fin 1) : S8192x1.Idx) := by
  obtain ⟨-, -, e2, e3, -⟩ := idx_facts1 t
  funext d
  apply Fin.ext
  match d with
  | ⟨0, _⟩ => show win1_1.index t 0 * 1024 + 1 * a.val = t.val / 8 * 1024 + a.val; rw [e2]; omega
  | ⟨1, _⟩ => show win1_1.index t 1 * 1 + 1 * u.val = 0; rw [e3]; omega
theorem emb2 (t : Fin cfg1.N) (a : Fin 1024) (u : Fin 1) :
    ((cfg1.win 2).blk t).view.emb (ix2 a u) = (ix2 (grow (rtOf t) a) (0 : Fin 1) : S8192x1.Idx) := by
  obtain ⟨-, -, -, -, e4, e5, -⟩ := idx_facts1 t
  funext d
  apply Fin.ext
  match d with
  | ⟨0, _⟩ => show win1_2.index t 0 * 1024 + 1 * a.val = t.val / 8 * 1024 + a.val; rw [e4]; omega
  | ⟨1, _⟩ => show win1_2.index t 1 * 1 + 1 * u.val = 0; rw [e5]; omega

/-- What a point at the last column tile writes back to the first result array is its block of G1. -/
theorem flushed1_eq (c : Dev nD) (t : Fin cfg1.N) (hf : (cfg1.win 1).flush t = true) :
    (Sim.dat V c).flushed 1 t = ((cfg1.win 1).blk t).view.read (Elt Ideal) (G1 V c) := by
  have h7 : t.val % 8 = 7 := (flush1_1 t).mp hf
  show (cfg1.win 1).cut (grid1.coords t) ((Sim.dat V c).after 1 t) = _
  rw [Sim.after1, sums_eq V c t.val t.isLt, h7]
  funext j
  show k1_pay2 (F := Ideal) (Sim.accRow (X V c) (rtOf t) 7) j = G1 V c (((cfg1.win 1).blk t).view.emb j)
  obtain ⟨a, u, rfl⟩ : ∃ (a : Fin 1024) (u : Fin 1), j = ix2 a u := ⟨j 0, j 1, eq_ix2 j⟩
  obtain rfl : u = 0 := Subsingleton.elim _ _
  rw [emb1]
  unfold G1
  show _ = k1_pay2 (F := Ideal) (Sim.accRow (X V c) (tileOf (grow (rtOf t) a)) 7) (ix2 (rowIn (grow (rtOf t) a)) (0 : Fin 1))
  rw [tileOf_grow, rowIn_grow]

/-- The partners' point of row tile r is column tile (r + 4) mod 8 of row tile r. -/
theorem coords_tpt (t : Fin cfg1.N) : grid1.coords (Sim.tpt (t.val / 8)) = Sim.pt (rtOf t) (Sim.pcol (rtOf t)) := by
  have hN : cfg1.N = 64 := Sim.N1
  have ht := t.isLt
  rw [coords_eq]
  have hq : t.val / 8 < 8 := by omega
  have hs : (t.val / 8 + 4) % 8 < 8 := Nat.mod_lt _ (by decide)
  have e1 : rtOf (Sim.tpt (t.val / 8)) = rtOf t := Fin.ext (by
    show (8 * (t.val / 8) + (t.val / 8 + 4) % 8) % 64 / 8 = t.val / 8
    generalize (t.val / 8 + 4) % 8 = s at hs ⊢
    generalize t.val / 8 = q at hq ⊢
    omega)
  have e2 : ctOf (Sim.tpt (t.val / 8)) = Sim.pcol (rtOf t) := Fin.ext (by
    show (8 * (t.val / 8) + (t.val / 8 + 4) % 8) % 64 % 8 = (t.val / 8 + 4) % 8
    generalize (t.val / 8 + 4) % 8 = s at hs ⊢
    generalize t.val / 8 = q at hq ⊢
    omega)
  rw [e1, e2]

/-- What a point writes back to the second result array is its block of G2. -/
theorem flushed2_eq (c : Dev nD) (t : Fin cfg1.N) :
    (Sim.dat V c).flushed 2 t = ((cfg1.win 2).blk t).view.read (Elt Ideal) (G2 V c) := by
  show (cfg1.win 2).cut (grid1.coords t) ((Sim.dat V c).after 2 t) = _
  rw [Sim.after2]
  unfold Sim.partnerBlock
  rw [blockAt0, coords_tpt]
  funext j
  show k1_pay1 (F := Ideal) (Sim.tileS (Sim.pt (rtOf t) (Sim.pcol (rtOf t))) (X V c)) j = G2 V c (((cfg1.win 2).blk t).view.emb j)
  obtain ⟨a, u, rfl⟩ : ∃ (a : Fin 1024) (u : Fin 1), j = ix2 a u := ⟨j 0, j 1, eq_ix2 j⟩
  obtain rfl : u = 0 := Subsingleton.elim _ _
  rw [emb2]
  unfold G2
  show _ = k1_pay1 (F := Ideal) (Sim.tileS (Sim.pt (tileOf (grow (rtOf t) a)) (Sim.pcol (tileOf (grow (rtOf t) a)))) (X V c))
    (ix2 (rowIn (grow (rtOf t) a)) (0 : Fin 1))
  rw [tileOf_grow, rowIn_grow]

/-! ## The cover -/

theorem mem_blk1 (t : Fin cfg1.N) (i : S8192x1.Idx) :
    i ∈ ((cfg1.win 1).blk t).view.set ↔ ∀ a : Fin 2, win1_1.index t a * S1024x1.size a ≤ (i a).val
      ∧ (i a).val < win1_1.index t a * S1024x1.size a + S1024x1.size a := by
  show i ∈ ((View.whole main_v2_0).slice (win1_1.rect t)).set ↔ _
  rw [View.set_slice_whole, Rect.mem_set_unit]
  exact Iff.rfl
theorem mem_blk2 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v2_1).slice (win1_2.rect t)).set ↔ _
  rw [View.set_slice_whole, Rect.mem_set_unit]
  exact Iff.rfl

/-- The last point of the row of tiles that row p lies in. -/
def lastOf (i : S8192x1.Idx) : Fin cfg1.N :=
  ⟨8 * ((i 0).val / 1024) + 7, by have := (i 0).isLt; have hN : cfg1.N = 64 := Sim.N1; have h : (i 0).val < 8192 := this; omega⟩

/-- Row p of each result array is written back by the last point of p's row of tiles. -/
theorem covered1 (i : S8192x1.Idx) :
    ∃ t : Fin cfg1.N, (cfg1.win 1).flush t = true ∧ i ∈ ((cfg1.win 1).blk t).view.set := by
  have hi0 : (i 0).val < 8192 := (i 0).isLt
  have hi1 : (i 1).val < 1 := (i 1).isLt
  have ht : (lastOf i).val = 8 * ((i 0).val / 1024) + 7 := rfl
  obtain ⟨-, -, e2, e3, -⟩ := idx_facts1 (lastOf i)
  refine ⟨lastOf i, (flush1_1 _).mpr (by rw [ht]; omega), ?_⟩
  rw [mem_blk1]
  intro a
  match a with
  | ⟨0, _⟩ =>
    show win1_1.index (lastOf i) 0 * 1024 ≤ (i 0).val ∧ (i 0).val < win1_1.index (lastOf i) 0 * 1024 + 1024
    rw [e2, ht]; omega
  | ⟨1, _⟩ =>
    show win1_1.index (lastOf i) 1 * 1 ≤ (i 1).val ∧ (i 1).val < win1_1.index (lastOf i) 1 * 1 + 1
    rw [e3]; omega
theorem covered2 (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have ht : (lastOf i).val = 8 * ((i 0).val / 1024) + 7 := rfl
  obtain ⟨-, -, -, -, e4, e5, -⟩ := idx_facts1 (lastOf i)
  refine ⟨lastOf i, (flush1_2 _).mpr (by rw [ht]; omega), ?_⟩
  rw [mem_blk2]
  intro a
  match a with
  | ⟨0, _⟩ =>
    show win1_2.index (lastOf i) 0 * 1024 ≤ (i 0).val ∧ (i 0).val < win1_2.index (lastOf i) 0 * 1024 + 1024
    rw [e4, ht]; omega
  | ⟨1, _⟩ =>
    show win1_2.index (lastOf i) 1 * 1 ≤ (i 1).val ∧ (i 1).val < win1_2.index (lastOf i) 1 * 1 + 1
    rw [e5]; omega

/-! ## The arrays after the region -/

theorem final1 (c : Dev nD) : (Sim.dat V c).arrAt 1 cfg1.N = G1 V c :=
  (Sim.dat V c).arrAt_eq_of_cover 1 (G1 V c) (fun t hf => flushed1_eq V c t hf) covered1
theorem final2 (c : Dev nD) : (Sim.dat V c).arrAt 2 cfg1.N = G2 V c :=
  (Sim.dat V c).arrAt_eq_of_cover 2 (G2 V c) (fun t _ => flushed2_eq V c t) covered2

/-- The two result arrays after the region, as columns of 8192 extended reals. -/
abbrev colL_dat (c : Dev nD) : (⟨S8192x1, .f32⟩ : BufTy).Contents (Elt Ideal) := (Sim.dat V c).arrAt 1 cfg1.N
abbrev colP_dat (c : Dev nD) : (⟨S8192x1, .f32⟩ : BufTy).Contents (Elt Ideal) := (Sim.dat V c).arrAt 2 cfg1.N

/-- Row p of the first result array less row p of the second: the loss of row p of the input array. -/
theorem loss_entry_dat (c : Dev nD) (p : Fin 8192) :
    colL_dat V c (ix2 p (0 : Fin 1)) - colP_dat V c (ix2 p (0 : Fin 1))
      = Cert.Spec.loss (fun p k => V c main_v1 (ix2 p k)) p := by
  have h1 : colL_dat V c = G1 V c := final1 V c
  have h2 : colP_dat V c = G2 V c := final2 V c
  rw [h1, h2]
  show k1_pay2 (F := Ideal) (Sim.accRow (X V c) (tileOf p) 7) (ix2 (rowIn p) (0 : Fin 1))
      - k1_pay1 (F := Ideal) (Sim.tileS (Sim.pt (tileOf p) (Sim.pcol (tileOf p))) (X V c)) (ix2 (rowIn p) (0 : Fin 1)) = _
  exact (lse_pos (X V c) (tileOf p) (rowIn p)).trans (congrArg (Cert.Spec.loss _) (grow_tileOf_rowIn p))

end Cert.KernelIdeal.SimValue

end
-- ==== Proof.SimArrayLoss.lean ====
/-
  The second kernel region's two result arrays after the region, read off the region's record: row p of the first
  less row p of the second is the loss of row p of the region's input array.
-/
import proofs.«148196_j36515811951305_2_alg».proof.Proof.SimSecond
import proofs.«148196_j36515811951305_2_alg».proof.Proof.SimArray

noncomputable section

namespace Cert.KernelIdeal.SimValue

open Cert.KernelIdeal Cert.KernelIdeal.Gen
open Idealize.ShloMosaic Idealize.ShloMosaic.TcCoe Idealize.ShloMosaic.ValueIdx

/-- The first result array after the region, as a column of 8192 extended reals, -/
abbrev colL (V : Cert.KernelIdeal.RegionData.Vals Ideal) (c : Dev nD) : (⟨S8192x1, .f32⟩ : BufTy).Contents (Elt Ideal) :=
  ((Cert.KernelIdeal.Sim.second (F := Ideal)).dat V c).arrAt 1 cfg1.N
/-- and the second. -/
abbrev colP (V : Cert.KernelIdeal.RegionData.Vals Ideal) (c : Dev nD) : (⟨S8192x1, .f32⟩ : BufTy).Contents (Elt Ideal) :=
  ((Cert.KernelIdeal.Sim.second (F := Ideal)).dat V c).arrAt 2 cfg1.N

/-- The record's proof data is the one the arrays were computed for, so the arrays are the same. -/
theorem loss_entry (V : Cert.KernelIdeal.RegionData.Vals Ideal) (c : Dev nD) (p : Fin 8192) :
    colL V c (ix2 p (0 : Fin 1)) - colP V c (ix2 p (0 : Fin 1))
      = Cert.Spec.loss (fun p k => V c main_v1 (ix2 p k)) p :=
  loss_entry_dat V c p

end Cert.KernelIdeal.SimValue

end
-- ==== Proof.Word.RegionData.lean ====
/-
  What a kernel region's proof hands to the proof of the whole program's run.

  For each of the two regions: the pipeline's proof data at ANY contents `V` of the core's buffers on entry
  (the arrays as `V` has them; what the body leaves in each window's buffer at each grid point; the invariant
  carried from point to point), that the body meets its obligation at every point, and that the invariant starts
  from, and ends in, the plain state "every scoped buffer no window stages at some contents, the generator
  register at some state".
-/
import proofs.«148196_j36515811951305_2_alg».proof.Proof.Gen.Kernel.Launch
import proofs.«148196_j36515811951305_2_alg».proof.Proof.Gen.Kernel.Points
import Idealize.ShloMosaic.Lib.Pipeline.Frame
import Idealize.ShloMosaic.Lib.Pipeline.FrameBody

noncomputable section

namespace Cert.Kernel.RegionData

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg BodyObligation)

variable (F : FTy → Type) [FloatOps F]

/-- The contents of every buffer of every core's TensorCore. -/
abbrev Vals : Type := (c : Dev nD) → (b : Ref sig .tc) → Buf (Elt F) ((c : Thread nD τ).loc b)

/-- The first region (each row divided by its norm), at any entry contents. -/
structure First where
  dat : Vals F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  recorded_eq : ∀ V c, (dat V c).recorded 0 = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- The second region (the similarities folded into the row losses' two halves), at any entry contents. -/
structure Second where
  dat : Vals F → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  recorded_eq : ∀ V c, (dat V c).recorded 0 = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

end Cert.Kernel.RegionData

end
-- ==== Proof.Word.WholeFold.lean ====
/-
  The whole program's run, assembled from the two kernel regions' records.

  The program is: one host operation (the two argument arrays put one above the other), the first kernel region
  (each row divided by its norm), the second kernel region (the similarities folded into the two halves of every
  row's loss), and seven host operations (the two halves subtracted, summed, divided by the number of rows).

  What every unscoped buffer of a core holds is followed from the launch to the return as a fold: a host stretch
  rewrites the buffers its operations write, a region leaves in each of its windows' arrays what its write-backs
  have folded into it and every other buffer as it found it. Over that fold the program's run is the library's
  launch theorem for a list of segments, and the run's conclusion is that at the end every unscoped buffer holds
  what the fold says.
-/
import proofs.«148196_j36515811951305_2_alg».proof.Proof.Word.RegionData
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R0 : RegionData.First F) (R1 : RegionData.Second F)
variable (m : (ℓ : Loc nD τ sig) → Buf (Elt F) ℓ) (ρ : Dev nD → PrngReg)

/-! ## What the buffers hold between the program's four parts -/

/-- A core's buffers at launch. -/
abbrev W0 : Dev nD → Valuation τ sig (Elt F) := fun c b => (s₀ m ρ).mem ((c : Dev nD), b)
/-- After the first host stretch: what the first region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the first region is left: its windows' arrays hold what its write-backs have made of them, every other
    buffer what it held on entry. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 R0 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 R0 m ρ c (Proc.devRef .tc b) = W1 m ρ c (Proc.devRef .tc b) := by
  unfold W2; exact Pipeline.withArrays_of_ne spec0 c _ _ b hb
/-- The same, read at the TensorCore's references: what the second region is entered with. -/
abbrev V2 : (c : Dev nD) → (b : Ref sig .tc) → Buf (Elt F) ((c : Thread nD τ).loc b) := fun c b => W2 R0 m ρ c b
theorem hF0 (c : Dev nD) (w : Fin cfg0.W) :
    (R0.dat (V1 m ρ) c).arrAt w cfg0.N = V2 R0 m ρ c (Pipeline.arrRef spec0 w) :=
  (W2_arr R0 m ρ c w).symm
theorem hrest0 (c : Dev nD) : ∀ b, b ∉ Finset.univ.image (Pipeline.arrRef spec0) → V2 R0 m ρ c b = V1 m ρ c b :=
  fun b hb => W2_of_ne R0 m ρ c b fun w e => hb (Finset.mem_image.mpr ⟨w, Finset.mem_univ _, e⟩)

/-- When the second region is left: again its windows' arrays as its write-backs leave them, the rest as entered. -/
def W3 (c : Dev nD) : Valuation τ sig (Elt F) :=
  Pipeline.withArrays spec1 c (W2 R0 m ρ c) fun w => (R1.dat (V2 R0 m ρ) c).arrAt w cfg1.N
theorem W3_arr (c : Dev nD) (w : Fin cfg1.W) :
    W3 R0 R1 m ρ c (Proc.devRef .tc (Pipeline.arrRef spec1 w)) = (R1.dat (V2 R0 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 R0 R1 m ρ c (Proc.devRef .tc b) = W2 R0 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 R0 R1 m ρ c b
theorem hF1 (c : Dev nD) (w : Fin cfg1.W) :
    (R1.dat (V2 R0 m ρ) c).arrAt w cfg1.N = V3 R0 R1 m ρ c (Pipeline.arrRef spec1 w) :=
  (W3_arr R0 R1 m ρ c w).symm
theorem hrest1 (c : Dev nD) : ∀ b, b ∉ Finset.univ.image (Pipeline.arrRef spec1) → V3 R0 R1 m ρ c b = V2 R0 m ρ c b :=
  fun b hb => W3_of_ne R0 R1 m ρ c b fun w e => hb (Finset.mem_image.mpr ⟨w, Finset.mem_univ _, e⟩)

/-- After the last host stretch: what the program returns with. -/
abbrev W4 : Dev nD → Valuation τ sig (Elt F) := fun c => StableHlo.after hostOps2 (W3 R0 R1 m ρ c)

end Cert.Kernel.Whole

end
-- ==== Proof.Word.WholeRun.lean ====
/-
  The program's run as four segments: host stretch, region, region, host stretch.

  Between two segments a core holds every unscoped buffer at the contents the fold of WholeFold gives for that
  boundary, its generator register at some state, and owes nothing. A host stretch takes the buffers from one
  boundary's contents to the next by construction of the fold. A region splits its windows' arrays off the unscoped
  buffers on entry, hands the register and the scoped buffers no window stages to its invariant, gets them back at
  its last point, and puts the arrays back at the contents its write-backs left. The library's launch theorem for
  a list of segments then says: the program terminates, and at the end every unscoped buffer holds the last
  boundary's contents.
-/
import proofs.«148196_j36515811951305_2_alg».proof.Proof.Word.WholeFold

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (R0 : RegionData.First F) (R1 : RegionData.Second F)
variable (m : (ℓ : Loc nD τ sig) → Buf (Elt F) ℓ) (ρ : Dev nD → PrngReg)

/-! ## The regions' proof data and what rides beside the buffers -/

/-- No pipeline has a prefetched table. -/
abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 R0 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment over all the unscoped buffers, from the contents \`W\`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The first stretch's operation allocates nothing. -/
theorem hostOps0_fresh : (hostOps0 : List (HloOp τ sig (Elt F))).Forall fun op => op.fresh = ∅ := by
  simp only [List.Forall]; repeat' constructor
/-- Nor does any of the last stretch's. -/
theorem hostOps2_fresh : (hostOps2 : List (HloOp τ sig (Elt F))).Forall fun op => op.fresh = ∅ := by
  simp only [List.Forall]; repeat' constructor
/-- An unscoped TensorCore reference is among the references the boundaries hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last boundary without what is owed: every unscoped buffer at the last contents, the register at some state. -/
abbrev Tₙ (c : Dev nD) : sProp 𝕄 :=
  iprop(StableHlo.held (c : Thread nD τ) (Pipeline.ucRefs τ sig) (W4 R0 R1 m ρ c) ∗ ∃ r, prngReg c r)

/-- What the last host stretch leaves is the last boundary beside the core owing nothing. -/
theorem last_boundary (c : Dev nD) :
    iprop(StableHlo.held (c : Thread nD τ) (Pipeline.ucRefs τ sig) (W4 R0 R1 m ρ c) ∗ R (F := F) c)
      ⊢ iprop(Tₙ R0 R1 m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first region: entered with every unscoped buffer at \`W1\`, left with them at \`W2\`. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.body (V1 m ρ) c).loose
  hwaits := Pipeline.hwaits_of_owed_zero _ _ _ _ L lv 0 fun c t => R0.owed_eq (V1 m ρ) c t
  pre c := iprop(StableHlo.held (c : Thread nD τ) (Pipeline.ucRefs τ sig) (W1 m ρ c) ∗ R c)
  post c := iprop(StableHlo.held (c : Thread nD τ) (Pipeline.ucRefs τ sig) (W2 R0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full (R0.q_eq (V1 m ρ) c)) (V1 m ρ c) (R0.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 0 c).owed 0 = 0 from R0.owed_eq (V1 m ρ) c 0]
      icases HO with ⟨%W, HO⟩; iexists W; isplitr
      · ipureintro; exact fun x _ => Or.inl (by rw [show (pdats R0 R1 m ρ 0 c).recorded 0 = Set.univ from R0.recorded_eq (V1 m ρ) c]; trivial)
      iexact HO
    isplitl [Hp]; · iexact Hp
    iexact Hrest
  hin c := by
    refine BIBase.Entails.trans ?_ (R0.hin (V1 m ρ) c)
    unfold Pipeline.ΦA
    iintro ⟨Hp, -, Hr⟩
    isplitl [Hr]; · iexact Hr
    iexact Hp
  hout c := by
    rw [Pipeline.ownSems0_none]
    refine BIBase.Entails.trans (R0.hout (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full (R0.q_eq (V1 m ρ) c))
      (V1 m ρ c) (V2 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.owed_eq (V1 m ρ) c _]
    icases HO with ⟨%W, -, HO⟩; iexists W; iexact HO

set_option backward.isDefEq.respectTransparency.types false in
/-- The second region: entered with every unscoped buffer at \`W2\`, left with them at \`W3\`. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V2 R0 m ρ) c).loose
  hwaits := Pipeline.hwaits_of_owed_zero _ _ _ _ L lv 1 fun c t => R1.owed_eq (V2 R0 m ρ) c t
  pre c := iprop(StableHlo.held (c : Thread nD τ) (Pipeline.ucRefs τ sig) (W2 R0 m ρ c) ∗ R c)
  post c := iprop(StableHlo.held (c : Thread nD τ) (Pipeline.ucRefs τ sig) (W3 R0 R1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full (R1.q_eq (V2 R0 m ρ) c)) (V2 R0 m ρ c) (R1.A_eq (V2 R0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 1 c).owed 0 = 0 from R1.owed_eq (V2 R0 m ρ) c 0]
      icases HO with ⟨%W, HO⟩; iexists W; isplitr
      · ipureintro; exact fun x _ => Or.inl (by rw [show (pdats R0 R1 m ρ 1 c).recorded 0 = Set.univ from R1.recorded_eq (V2 R0 m ρ) c]; trivial)
      iexact HO
    isplitl [Hp]; · iexact Hp
    iexact Hrest
  hin c := by
    refine BIBase.Entails.trans ?_ (R1.hin (V2 R0 m ρ) c)
    unfold Pipeline.ΦA
    iintro ⟨Hp, -, Hr⟩
    isplitl [Hr]; · iexact Hr
    iexact Hp
  hout c := by
    rw [Pipeline.ownSems0_none]
    refine BIBase.Entails.trans (R1.hout (V2 R0 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full (R1.q_eq (V2 R0 m ρ) c))
      (V2 R0 m ρ c) (V3 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 1 c).owed (Fin.last _) = 0 from R1.owed_eq (V2 R0 m ρ) c _]
    icases HO with ⟨%W, -, HO⟩; iexists W; iexact HO

/-! ## The program as its segments, and the launch -/

/-- The four segments in the program's order. -/
abbrev segs : List (Pipeline.Seg (pcfgs (F := F)) adm (pdats R0 R1 m ρ) () defs₀ 𝒱₀ L lv) :=
  [ .host (hseg hostOps0 hostOps0_sub hostOps0_fresh (W0 m ρ)),
    .region (reg0 R0 R1 m ρ),
    .region (reg1 R0 R1 m ρ),
    .host (hseg hostOps2 hostOps2_sub hostOps2_fresh (W3 R0 R1 m ρ)) ]
/-- The program is the run of those segments. -/
theorem main_run (c : Dev nD) : main (F := F) c = Pipeline.Seg.run (segs R0 R1 m ρ) := (main_chain c).trans (by chain_rfl)

set_option backward.isDefEq.respectTransparency.types false in
/-- THE RUN. From any memory with zero counters every weakly fair execution of the program on the TensorCores
    terminates, nothing faulting, and in every final state each unscoped buffer of each core holds what the fold
    gives for the last boundary. -/
theorem run : θ_run defs (onTc (τ := τ) (main (F := F))) ⟨m, fun _ => 0, ρ⟩
    (fun r => ∀ c : Dev nD, ∀ b ∈ Pipeline.ucRefs τ sig, r.2.mem ((c : Thread nD τ).1, b) = W4 R0 R1 m ρ c b) :=
  Pipeline.θ_run_regions_kit (pcfgs (F := F)) adm (pdats R0 R1 m ρ) () cellOf_inj emb₁ defs₀ 𝒱₀ L lv m ρ main (segs R0 R1 m ρ)
    (fun c Q => by rw [main_run R0 R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R0 R1 m ρ)
    (hch := ⟨fun _ => .rfl, fun _ => .rfl, fun _ => .rfl, fun _ => .rfl, fun c => last_boundary R0 R1 m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R0 R1 m ρ c) s')
      isplitl [Hh] <;> iassumption)
    (hQ := fun s h => h)

end Cert.Kernel.Whole

end
-- ==== Proof.Word.WholeRead.lean ====
/-
  What the fold of WholeFold gives at the buffers the two sides of the claim read, and the frame claim.

  No host operation and no region writes an argument array, so the last boundary has each as launched. The first
  region is entered with the two arguments joined in its input array; the second region's input array is the first
  region's output array as the first region left it; the returned scalar is the last stretch's seven operations
  applied to the second region's two output arrays.
-/
import proofs.«148196_j36515811951305_2_alg».proof.Proof.Word.WholeRun

set_option maxRecDepth 16384

noncomputable section

namespace Cert.Kernel.Whole

open Cert.Kernel Cert.Kernel.Gen
open Idealize.ShloMosaic Idealize.ShloMosaic.TcCoe Idealize.ShloMosaic.Tactic
open Idealize.ShloMosaic.StableHlo
open Idealize.SL Idealize.SL.Sem
open Idealize.ShloMosaic.Pipeline (Dat Cfg)

variable {F : FTy → Type} [FloatOps F]

variable (R0 : RegionData.First F) (R1 : RegionData.Second F)
variable (m : (ℓ : Loc nD τ sig) → Buf (Elt F) ℓ) (ρ : Dev nD → PrngReg)

/-! ## The arguments end as launched

Neither stretch writes an argument, and an argument is no window's array of either region. -/

theorem W4_main_arg0 (c : Dev nD) :
    W4 R0 R1 m ρ c (Proc.devRef .tc main_arg0) = m ((c : Thread nD τ).loc main_arg0) :=
  calc W4 R0 R1 m ρ c (Proc.devRef .tc main_arg0)
      = W3 R0 R1 m ρ c (Proc.devRef .tc main_arg0) := by
        show StableHlo.after hostOps2 _ (Proc.devRef .tc main_arg0) = _
        after_results
    _ = W2 R0 m ρ c (Proc.devRef .tc main_arg0) := W3_of_ne R0 R1 m ρ c main_arg0 (by decide)
    _ = W1 m ρ c (Proc.devRef .tc main_arg0) := W2_of_ne R0 m ρ c main_arg0 (by decide)
    _ = m ((c : Thread nD τ).loc main_arg0) := by
        show StableHlo.after hostOps0 _ (Proc.devRef .tc main_arg0) = _
        after_results

theorem W4_main_arg1 (c : Dev nD) :
    W4 R0 R1 m ρ c (Proc.devRef .tc main_arg1) = m ((c : Thread nD τ).loc main_arg1) :=
  calc W4 R0 R1 m ρ c (Proc.devRef .tc main_arg1)
      = W3 R0 R1 m ρ c (Proc.devRef .tc main_arg1) := by
        show StableHlo.after hostOps2 _ (Proc.devRef .tc main_arg1) = _
        after_results
    _ = W2 R0 m ρ c (Proc.devRef .tc main_arg1) := W3_of_ne R0 R1 m ρ c main_arg1 (by decide)
    _ = W1 m ρ c (Proc.devRef .tc main_arg1) := W2_of_ne R0 m ρ c main_arg1 (by decide)
    _ = m ((c : Thread nD τ).loc main_arg1) := by
        show StableHlo.after hostOps0 _ (Proc.devRef .tc main_arg1) = _
        after_results

/-! ## The regions' arrays -/

/-- The first region is entered with the first argument's rows above the second's in its input array. -/
theorem V1_main_v0 (c : Dev nD) :
    V1 m ρ c main_v0 = concatenate S8192x256 0 [⟨S4096x256, m ((c : Thread nD τ).loc main_arg0)⟩, ⟨S4096x256, m ((c : Thread nD τ).loc main_arg1)⟩] concatenates_S4096x256_S4096x256_S8192x256_d0 := by
  show StableHlo.after hostOps0 _ (Proc.devRef .tc main_v0) = _
  after_results

/-- The first region's output array, when the region is left. -/
theorem W2_main_v1 (c : Dev nD) :
    W2 R0 m ρ c (Proc.devRef .tc main_v1) = (R0.dat (V1 m ρ) c).arrAt 1 cfg0.N := W2_arr R0 m ρ c 1

/-- The second region's input array on entry is the first region's output array as the first region left it. -/
theorem V2_main_v1 (c : Dev nD) :
    V2 R0 m ρ c main_v1 = (R0.dat (V1 m ρ) c).arrAt 1 cfg0.N := W2_arr R0 m ρ c 1

/-- The second region's two output arrays, when the region is left. -/
theorem W3_main_v2_0 (c : Dev nD) :
    W3 R0 R1 m ρ c (Proc.devRef .tc main_v2_0) = (R1.dat (V2 R0 m ρ) c).arrAt 1 cfg1.N := W3_arr R0 R1 m ρ c 1

theorem W3_main_v2_1 (c : Dev nD) :
    W3 R0 R1 m ρ c (Proc.devRef .tc main_v2_1) = (R1.dat (V2 R0 m ρ) c).arrAt 2 cfg1.N := W3_arr R0 R1 m ρ c 2

/-! ## The returned scalar -/

/-- The last stretch applied to the second region's output arrays: both read as vectors of 8192 entries,
    subtracted, summed from zero, the sum divided by the number of rows. -/
theorem W4_main_v7 (c : Dev nD) :
    W4 R0 R1 m ρ c (Proc.devRef .tc main_v7)
      = Host.divf (Host.reduceAdd (subf (shapeCast S8192 (W3 R0 R1 m ρ c (Proc.devRef .tc main_v2_0)) shapeCasts_S8192x1_S8192)
            (shapeCast S8192 (W3 R0 R1 m ρ c (Proc.devRef .tc main_v2_1)) shapeCasts_S8192x1_S8192))
          (constant S_ .f32 0x00000000#32) reducesTo_S8192_S_d0 h_S_) (constant S_ .f32 0x46000000#32) := by
  show StableHlo.after hostOps2 _ (Proc.devRef .tc main_v7) = _
  after_results
  rfl

/-! ## The run read at the result and the arguments, and the frame claim -/

/-- The program terminates; the result buffer ends at the last stretch's operations applied to the second region's
    output arrays, and the argument arrays end as launched. -/
theorem run_reads : θ_run defs (onTc (τ := τ) (main (F := F))) ⟨m, fun _ => 0, ρ⟩ (fun r => ∀ c : Dev nD,
      r.2.mem ((c.tc : Thread nD τ).loc main_v7) = W4 R0 R1 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v7 (by decide)),
     (h c _ (mem_uc main_arg0 (by decide))).trans (W4_main_arg0 R0 R1 m ρ c),
     (h c _ (mem_uc main_arg1 (by decide))).trans (W4_main_arg1 R0 R1 m ρ c)⟩) (run R0 R1 m ρ)

include R0 R1 in
/-- THE FRAME: the program terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 R0 R1 m ρ c),
     (h c _ (mem_uc main_arg1 (by decide))).trans (W4_main_arg1 R0 R1 m ρ c)⟩) (run R0 R1 m ρ)

end Cert.Kernel.Whole

end
-- ==== Proof.Word.NormBody.lean ====
/-
  The first kernel region: every row of an 8192 × 256 array divided by the larger of its Euclidean norm and ε,
  block of 1024 rows by block, the quotient narrowed to the output's element type.

  At ANY contents V of the core's buffers on entry: the block of each window at a grid point, what one run of the
  body leaves in the output window's buffer as a function of the input block, the body's triple, and the proof data
  the pipeline theorem asks for. Nothing is carried from one grid point to the next, so the invariant is the plain
  one at every point.
-/
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of every buffer of every core's TensorCore when the region is entered
variable (V : (c : Dev nD) → (b : Ref sig .tc) → Buf (Elt F) ((c : Thread nD τ).loc b))

/-! ## The windows' blocks -/

/-- The block of window w at grid point t, read off the window's array as V holds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The input window's staging buffer holds the window's block when the body starts, at every point, for any
    proof data whose array is V's and whose body leaves that block where it was: the window is fetched anew at
    each point and its index moves with the point. -/
theorem before_in_of {c : Dev nD} (dat : Dat τ (Elt F) Unit ℕ (UR sig nD τ) ℕ cfg0 c)
    (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-! ## What the body writes -/

/-- The whole 1024 × 256 buffer as one rectangle: the body's load and its store both cover it. -/
abbrev whole : Rect S1024x256 := Rect.unit (s := S1024x256) ![0, 0] S1024x256.size inb_S1024x256_S1024x256_0_0

/-- The output window's buffer after the body, from the input block x: the body's single store, whose payload is
    the normalised rows of x. -/
def out (x : Vec F S1024x256 .f32) : Vec F S1024x256 .bf16 :=
  View.canon [⟨whole, k0_pay1 (View.ld x whole)⟩]

/-- The one store covers the buffer. -/
theorem cover (p : Vec F S1024x256 .bf16) (y : S1024x256.Idx) :
    ∃ pc ∈ ([⟨whole, p⟩] : List (View.Piece (Elt F) S1024x256 .bf16)), y ∈ pc.1.set :=
  View.cover_of_tiled [⟨whole, p⟩] S1024x256.size (by rfl) y

/-! ## The body's triple -/

set_option maxHeartbeats 1000000 in
/-- The body on whole staging memrefs, the input's holding x and the output's anything, runs to the continuation
    with the input's unchanged and the output's holding out x. -/
theorem sound_kernel (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (x : Vec F S1024x256 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out x)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The pipeline's proof data -/

/-- The proof data on core c: the arrays as V holds them; after the body at point t the input's buffer still at
    its block and the output's at out of that block; the plain invariant at every point; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => out (blockAt V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_in (c : Dev nD) (t : Fin cfg0.N) : (dat V c).after 0 t = blockAt V c 0 t := by dsimp only [dat]
theorem after_out (c : Dev nD) (t : Fin cfg0.N) : (dat V c).after 1 t = out (blockAt V c 0 t) := by dsimp only [dat]

/-- The input's buffer holds its block when the body starts, at every point. -/
theorem before_in (c : Dev nD) (t : Fin cfg0.N) (d) : (dat V c).before 0 t d = blockAt V c 0 t :=
  before_in_of V (dat V c) (A_eq V c 0) (after_in V c) t d

/-! ## The body obligation -/

/-- What the body is called with at point t, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it gives back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so the triple above applies; the invariant and
    what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline theorem's body obligation, at every point. -/
theorem body_obligation (c : Dev nD) :
    BodyObligation (dat (F := F) V c) (defs₀ (F := F)) Variants.none () Set.univ := fun t => by
  rw [bigSep_W0, bigSep_W0]
  exact sound_body V c t

end Cert.Kernel.Norm

end
-- ==== Proof.Word.Norm.lean ====
/-
  The first kernel region's record for the proof of the whole run: the proof data of the block-by-block
  normalisation at any entry contents, its body obligation, and that its invariant is the plain state at both ends.
-/
import proofs.«148196_j36515811951305_2_alg».proof.Proof.Word.NormBody
import proofs.«148196_j36515811951305_2_alg».proof.Proof.Word.RegionData

noncomputable section

namespace Cert.Kernel.Norm

open Cert.Kernel Cert.Kernel.Gen Cert.Kernel.RegionData
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg BodyObligation)

variable {F : FTy → Type} [FloatOps F]

/-- The first region's data at any entry contents: the invariant is the plain state at every point, so it starts
    from it and ends in it by the identity. -/
def first : First F where
  dat := fun V c => dat V c
  A_eq := fun V c w => A_eq V c w
  q_eq := fun V c w => by dsimp only [dat]
  owed_eq := fun V c t => by dsimp only [dat]
  recorded_eq := fun _ _ => rfl
  body := fun V c => body_obligation V c
  hin := fun V c => BI.Entails.refl _
  hout := fun V c => BI.Entails.refl _

end Cert.Kernel.Norm

end
-- ==== Proof.Word.SimDefs.lean ====
/-
  The second kernel region's vocabulary. At a grid point (row tile, column tile) the body branches on five
  conditions: first / last column tile of the row of tiles, on / off the block diagonal, the partners' tile. Here:
  those conditions as the body computes them, the row tile and the column tile inside the resident array of unit
  rows, the tile of doubled inner products the body leaves (masked on the array's diagonal), the running row sums of
  exp(· − 4) it leaves from those the point before left (zero at a first column tile), that update folded along a
  row of tiles, and two facts about stores and loads through a buffer's whole shape.
-/
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's five branch conditions, as the printed scalar chains over the grid point -/

/-- The column tile is the first of its row of tiles: the running sum is reset. -/
abbrev atFirst (i : grid1.Coords) : Prop := Scalar.cmpi .ne (Scalar.extui (Scalar.cmpi .eq (BitVec.ofNat 32 (i 1).val) 0#32)) 0#32 = 1#1
/-- The tile lies on the block diagonal: its own diagonal is masked. -/
abbrev onDiag (i : grid1.Coords) : Prop := Scalar.cmpi .ne (Scalar.extui (Scalar.cmpi .eq (BitVec.ofNat 32 (i 0).val) (BitVec.ofNat 32 (i 1).val))) 0#32 = 1#1
/-- The tile lies off the block diagonal: it is kept as computed. -/
abbrev offDiag (i : grid1.Coords) : Prop := Scalar.cmpi .ne (Scalar.extui (Scalar.cmpi .ne (BitVec.ofNat 32 (i 0).val) (BitVec.ofNat 32 (i 1).val))) 0#32 = 1#1
/-- The tile holds the partners of the row tile's rows on its own diagonal. -/
abbrev atPartner (i : grid1.Coords) : Prop := k1_cond4 i = 1#1
/-- The column tile is the last of its row of tiles: the logarithm is taken. -/
abbrev atLast (i : grid1.Coords) : Prop := k1_cond5 i = 1#1

theorem hz2 : (![0, 0] : Fin 2 → Nat) = fun _ => 0 := by funext a; fin_cases a <;> rfl

/-- The rows of the row tile, and of the column tile, inside the resident array. -/
abbrev rq (i : grid1.Coords) : Rect S8192x256 := Rect.unit (s := S8192x256) (k1_off1 i) S1024x256.size (k1_off1_inb i)
abbrev rk (i : grid1.Coords) : Rect S8192x256 := Rect.unit (s := S8192x256) (k1_off2 i) S1024x256.size (k1_off2_inb i)

/-- The tile of similarities the body leaves in its first scratch at point `i`: masked on the block diagonal. -/
def tileS (i : grid1.Coords) (x0 : Vec F S8192x256 .bf16) : Vec F S1024x1024 .f32 :=
  if onDiag i then k1_pay5 (View.ld x0 (rq i)) (View.ld x0 (rk i)) else k1_pay6 (View.ld x0 (rq i)) (View.ld x0 (rk i))

/-- The running sums it leaves in its second scratch, from those (`xl`) the point before left: reset first at the first tile. -/
def accL (i : grid1.Coords) (x0 : Vec F S8192x256 .bf16) (xl : Vec F S1024x1 .f32) : Vec F S1024x1 .f32 :=
  k1_pay7 (tileS i x0) (if atFirst i then k1_pay3 (F := F) else xl)

/-- The grid point of row tile `rt` and column tile `ct`. -/
def pt (rt ct : Fin 8) : grid1.Coords := fun a => match a with
  | ⟨0, _⟩ => rt
  | ⟨1, _⟩ => ct

/-- The column tile that holds the partners of row tile `rt`'s rows: four tiles further on, cyclically. -/
def pcol (rt : Fin 8) : Fin 8 := ⟨(rt.val + 4) % 8, Nat.mod_lt _ (by decide)⟩

/-- The running sums after column tile `n` of row tile `rt`: the body's update folded along the row of tiles. -/
def accRow (x0 : Vec F S8192x256 .bf16) (rt : Fin 8) : ℕ → Vec F S1024x1 .f32
  | 0 => accL (pt rt 0) x0 (k1_pay3 (F := F))
  | n + 1 => accL (pt rt ⟨(n + 1) % 8, Nat.mod_lt _ (by decide)⟩) x0 (accRow x0 rt n)

/-- A load through the whole shape of what a store through the whole shape, the last of several, left. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- What a buffer reads as after several stores through its whole shape: the payload of the last. -/
theorem read_whole_cons {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon _ _ _ (fun y => ⟨_, List.mem_cons_self, View.mem_set_unit_zero h inb y⟩)).trans
    (View.canon_cons_unit_zero h inb w L)

end Cert.Kernel.Sim

end
-- ==== Proof.Word.SimKernel.lean ====
/-
  The second region's body at any grid point, on whole memrefs. From the resident unit rows and any running sums it
  leaves: the rows as they were; the tile of doubled inner products, masked on the array's diagonal; the running sums
  updated by the tile's row sums of exp(· − 4), from zero at a first column tile; 4 + log of them in the
  log-normaliser block at a last column tile; and the tile's diagonal sums in the partner block at the partners'
  tile. One proof for the sixteen ways the four independent conditions can fall: the symbolic run takes each branch
  by the hypothesis at hand, and every buffer is then read back as the payload of the last store through its whole
  shape, or is untouched.
-/
import proofs.«148196_j36515811951305_2_alg».proof.Proof.Word.SimDefs
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer holds after the body: untouched, or the payload of the last store through its whole shape, with the
    loads of earlier whole-shape stores read back as their payloads. -/
local macro "whole_read" : tactic => `(tactic| first
  | rfl
  | (sl_unfold_run_names
     refine (read_whole_cons _ _ hz2 _ _ _).trans ?_
     simp only [readCov_cons_whole (S := S1024x1024) _ hz2, readCov_cons_whole (S := S1024x1) _ hz2, View.readAt_eq_ld,
       View.ld_unit_zero (S := S1024x1024) hz2, View.ld_unit_zero (S := S1024x1) hz2]
     try rfl))

set_option maxHeartbeats 16000000 in
theorem sound_kernel (c : Dev nD) (E : Set ℕ) (i : grid1.Coords)
    (arg2 : Memref sig .tc .vmem S8192x256 .bf16) (harg2 : arg2.IsWhole) (arg3 : Memref sig .tc .vmem S1024x1 .f32) (harg3 : arg3.IsWhole)
    (arg4 : Memref sig .tc .vmem S1024x1 .f32) (harg4 : arg4.IsWhole) (arg5 : Memref sig .tc .vmem S1024x1024 .f32) (harg5 : arg5.IsWhole)
    (arg6 : Memref sig .tc .vmem S1024x1 .f32) (harg6 : arg6.IsWhole)
    (hx : offDiag i ↔ ¬onDiag i)
    (x0 : Vec F S8192x256 .bf16) (x3 x4 : Vec F S1024x1 .f32) (xl : Vec F S1024x1 .f32) (K : PUnit → sProp 𝕄) :
    iprop(owns (c : Thread nD τ) arg2 fullShare x0 ∗ owns (c : Thread nD τ) arg3 fullShare x3 ∗ owns (c : Thread nD τ) arg4 fullShare x4
        ∗ (∃ d, owns (c : Thread nD τ) arg5 fullShare d) ∗ owns (c : Thread nD τ) arg6 fullShare xl
        ∗ (iprop(owns (c : Thread nD τ) arg2 fullShare x0
            ∗ owns (c : Thread nD τ) arg3 fullShare (if atLast i then k1_pay2 (accL i x0 xl) else x3)
            ∗ owns (c : Thread nD τ) arg4 fullShare (if atPartner i then k1_pay1 (tileS i x0) else x4)
            ∗ owns (c : Thread nD τ) arg5 fullShare (tileS i x0)
            ∗ owns (c : Thread nD τ) arg6 fullShare (accL i x0 xl)) -∗ K ⟨⟩))
      ⊢ wp frame (wpE (defs₀ (F := F)) Variants.none c none) E (cc1_kernel i arg2 harg2 arg3 harg3 arg4 harg4 arg5 harg5 arg6 harg6) K := by
  by_cases h1 : atFirst i <;> by_cases h2 : onDiag i <;> by_cases h4 : atPartner i <;> by_cases h5 : atLast i
  all_goals (
    simp only [accL, tileS]
    first | simp only [if_pos h1] | simp only [if_neg h1]
    first | simp only [if_pos h2] | simp only [if_neg h2]
    first | simp only [if_pos h4] | simp only [if_neg h4]
    first | simp only [if_pos h5] | simp only [if_neg h5]
    simp only [cc1_kernel_eq_skeleton]; unfold cc1_kernel_skel
    simp only [k1_part1_eq_skeleton]; unfold k1_part1_skel
    unfold owns
    iintro ⟨⟨%f0, %hf0, H0⟩, ⟨%f3, %hf3, H3⟩, ⟨%f4, %hf4, H4⟩, ⟨%d5, %f5, -, H5⟩, ⟨%f6, %hf6, H6⟩, Hk⟩
    subst hf0; subst hf3; subst hf4; subst hf6
    first
      | have h3 : offDiag i := hx.mpr h2
      | have h3 : ¬offDiag i := fun h => (hx.mp h) h2
    sl_exec (disch := first | sl_exact h1 | sl_exact h2 | sl_exact h3 | sl_exact h4 | sl_exact h5)
    sl_step
    iapply Hk
    isplitl [H0]
    · iexists f0; isplitr; · ipureintro; rfl
      iexact H0
    isplitl [H3]
    · iexists _; isplitr
      swap; · iexact H3
      ipureintro
      whole_read
    isplitl [H4]
    · iexists _; isplitr
      swap; · iexact H4
      ipureintro
      whole_read
    isplitl [H5]
    · iexists _; isplitr
      swap; · iexact H5
      ipureintro
      whole_read
    iexists _; isplitr
    swap; · iexact H6
    ipureintro
    whole_read)

end Cert.Kernel.Sim

end
-- ==== Proof.Word.SimSchedule.lean ====
/-
  The second region's 64 grid points in closed form: point t is column tile t mod 8 of row tile t / 8. Where each of
  the five branch conditions holds, at which points a result block's buffer is stored into, each window's block at a
  point, and what the body leaves point by point: the running sums folded along the points (reset at each first
  column tile) and the partner block of a row tile (the diagonal sums of the tile four column tiles further on).
-/
import proofs.«148196_j36515811951305_2_alg».proof.Proof.Word.SimKernel
import proofs.«148196_j36515811951305_2_alg».proof.Proof.Word.RegionData
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RegionData (Vals)

/-! ## The schedule of the second region's 64 points, in closed form

Point `t` is column tile `t % 8` of row tile `t / 8`. -/

theorem N1 : cfg1.N = 64 := N_1

theorem atFirst_iff : ∀ t : Fin cfg1.N, atFirst (grid1.coords t) ↔ t.val % 8 = 0 :=
  (by decide +kernel : ∀ t : Fin grid1.N, atFirst (grid1.coords t) ↔ t.val % 8 = 0)
theorem atLast_iff : ∀ t : Fin cfg1.N, atLast (grid1.coords t) ↔ t.val % 8 = 7 :=
  (by decide +kernel : ∀ t : Fin grid1.N, atLast (grid1.coords t) ↔ t.val % 8 = 7)
theorem atPartner_iff : ∀ t : Fin cfg1.N, atPartner (grid1.coords t) ↔ t.val % 8 = (t.val / 8 + 4) % 8 :=
  (by decide +kernel : ∀ t : Fin grid1.N, atPartner (grid1.coords t) ↔ t.val % 8 = (t.val / 8 + 4) % 8)
theorem diag_iff : ∀ t : Fin cfg1.N, offDiag (grid1.coords t) ↔ ¬onDiag (grid1.coords t) :=
  (by decide +kernel : ∀ t : Fin grid1.N, offDiag (grid1.coords t) ↔ ¬onDiag (grid1.coords t))

/-- The resident rows are never idle (an input); -/
theorem live0 : ∀ i, cfg1.idle 0 i = false := fun _ => rfl
/-- the log-normaliser block is stored at the last column tile only, -/
theorem idle1_iff : ∀ t : Fin cfg1.N, cfg1.idle 1 (grid1.coords t) = true ↔ t.val % 8 ≠ 7 :=
  (by decide +kernel : ∀ t : Fin grid1.N, cfg1.idle 1 (grid1.coords t) = true ↔ t.val % 8 ≠ 7)
/-- the partner block at the partners' column tile only. -/
theorem idle2_iff : ∀ t : Fin cfg1.N, cfg1.idle 2 (grid1.coords t) = true ↔ t.val % 8 ≠ (t.val / 8 + 4) % 8 :=
  (by decide +kernel : ∀ t : Fin grid1.N, cfg1.idle 2 (grid1.coords t) = true ↔ t.val % 8 ≠ (t.val / 8 + 4) % 8)

/-- The partners' point of row tile `r`. -/
def tpt (r : ℕ) : Fin cfg1.N := ⟨(8 * r + (r + 4) % 8) % 64, by rw [N1]; exact Nat.mod_lt _ (by decide)⟩

theorem tpt_self (t : Fin cfg1.N) (h : t.val % 8 = (t.val / 8 + 4) % 8) : tpt (t.val / 8) = t := by
  apply Fin.ext; have ht : t.val < 64 := lt_of_lt_of_eq t.isLt N1; show (8 * (t.val / 8) + (t.val / 8 + 4) % 8) % 64 = t.val; omega

variable (V : Vals F)

/-! ## The windows' blocks -/

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The resident rows' staging buffer holds them at every point, fetched there (the first) or not. -/
theorem before_in_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves, point by point -/

/-- The running sums after point `n`: the body's update along the points, reset at each first column tile. -/
def sums (c : Dev nD) : (n : ℕ) → n < cfg1.N → Vec F S1024x1 .f32
  | 0, h => accL (grid1.coords ⟨0, h⟩) (blockAt V c 0 ⟨0, h⟩) (k1_pay3 (F := F))
  | n + 1, h => accL (grid1.coords ⟨n + 1, h⟩) (blockAt V c 0 ⟨n + 1, h⟩) (sums c n (Nat.lt_of_succ_lt h))

/-- The body's update of any sums at a first column tile is its update of the zero sums. -/
theorem accL_first (i : grid1.Coords) (h : atFirst i) (x0 : Vec F S8192x256 .bf16) (xl xl' : Vec F S1024x1 .f32) :
    accL i x0 xl = accL i x0 xl' := by
  unfold accL; rw [if_pos h, if_pos h]

theorem sums_succ (c : Dev nD) (t : Fin cfg1.N) (h0 : t.val ≠ 0) :
    sums V c t.val t.isLt = accL (grid1.coords t) (blockAt V c 0 t) (sums V c (t.val - 1) (Nat.lt_of_le_of_lt (Nat.sub_le _ _) t.isLt)) := by
  obtain ⟨n, hn⟩ := t
  cases n with
  | zero => exact absurd rfl h0
  | succ n => rfl

theorem sums_zero (c : Dev nD) (t : Fin cfg1.N) (h0 : t.val = 0) (xl : Vec F S1024x1 .f32) :
    sums V c t.val t.isLt = accL (grid1.coords t) (blockAt V c 0 t) xl := by
  obtain ⟨n, hn⟩ := t
  cases n with
  | zero => exact accL_first _ ((atFirst_iff ⟨0, hn⟩).mpr rfl) _ _ _
  | succ n => exact absurd h0 (Nat.succ_ne_zero n)

/-- The partner block of row tile `r`: the diagonal sums of its partners' tile. -/
def partnerBlock (c : Dev nD) (r : ℕ) : Vec F S1024x1 .f32 :=
  k1_pay1 (tileS (grid1.coords (tpt r)) (blockAt V c 0 (tpt r)))

end Cert.Kernel.Sim

end
-- ==== Proof.Word.SimData.lean ====
/-
  The second region's invariant and proof data. Between points the two scratch buffers are owned: the tile scratch
  at anything (it is overwritten before it is read), the sums scratch at the running sums after the point before.
  The proof data says what each window's buffer holds after the body at each point; and a buffer stored at the
  partners' column tile still holds that when it is written back after the last column tile.
-/
import proofs.«148196_j36515811951305_2_alg».proof.Proof.Word.SimSchedule
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RegionData (Vals)

variable (V : Vals F)

/-! ## The invariant carried from point to point

Before the first point: every scoped buffer no window stages at some contents and the generator register at some
state. After point `n`: the same, but the second scratch at the running sums after point `n`. (The first scratch
is overwritten at every point before it is read, so its contents are never named.) -/

abbrev scS : Memref sig .tc .vmem S1024x1024 .f32 := Memref.whole cc1_scratch0
abbrev scL : Memref sig .tc .vmem S1024x1 .f32 := Memref.whole cc1_scratch1

/-- The plain state, with the two scratch buffers as memrefs owned at some contents. -/
theorem plain_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ (∃ d, owns (c : Thread nD τ) scL fullShare d)) ∗ (∃ r, prngReg c r)) := by
  unfold Pipeline.ΦA; rw [scopedRest1_eq]; simp only [scS, scL, owns_whole]; try rfl

/-- The invariant before point `n`. -/
def inv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c n hn)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c n hn)) ∗ (∃ r, prngReg c r)) := rfl

theorem inv_pos (c : Dev nD) (n : ℕ) (h : n ≤ cfg1.N) (hz : n ≠ 0) :
    inv V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare (sums V c (n - 1) (by omega))) ∗ (∃ r, prngReg c r)) := by
  cases n with
  | zero => exact absurd rfl hz
  | succ n => rfl

/-! ## The proof data -/

/-- The second region's proof data on core `c`: the arrays as the region finds them; after the body at point `t` the
    resident rows' buffer at the rows, the log-normaliser block at 4 + log of the running sums, the partner block at
    the diagonal sums of the row tile's partners' tile; the invariant above; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => k1_pay2 (sums V c t.val t.isLt)
    | ⟨2, _⟩ => partnerBlock V c (t.val / 8)
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = blockAt V c 0 t := by dsimp only [dat]
theorem after1 (c : Dev nD) (t : Fin cfg1.N) : (dat V c).after 1 t = k1_pay2 (sums V c t.val t.isLt) := by dsimp only [dat]
theorem after2 (c : Dev nD) (t : Fin cfg1.N) : (dat V c).after 2 t = partnerBlock V c (t.val / 8) := by dsimp only [dat]
theorem before0 (c : Dev nD) (t : Fin cfg1.N) (d) : (dat V c).before 0 t d = blockAt V c 0 t :=
  before_in_of V (dat V c) (A_eq V c 0) (after0 V c) t d

theorem inv_castSucc (c : Dev nD) (t : Fin cfg1.N) : (dat V c).Φ t.castSucc = inv V c t.val (Nat.le_of_lt t.isLt) := by
  dsimp only [dat]; simp only [Fin.coe_castSucc]

/-- Past the partners' column tile of its row of tiles the partner block's buffer still holds what was stored there:
    nothing stores into it, and it is written back only after the last column tile. -/
theorem before2_after (c : Dev nD) : ∀ (k : ℕ) (t : Fin cfg1.N), t.val = k → (t.val / 8 + 4) % 8 < t.val % 8 →
    ∀ d, (dat V c).before 2 t d = partnerBlock V c (t.val / 8) := by
  intro k
  induction k with
  | zero => intro t ht h; rw [ht] at h; exact absurd h (by decide)
  | succ k ih =>
    intro t ht h d
    have hN : t.val < 64 := lt_of_lt_of_eq t.isLt N1
    have ht0 : t.val ≠ 0 := by omega
    rw [(dat V c).before_of_pos 2 t ht0 ((cfg1.win 2).fetch_out rfl t) d]
    have hfl : ¬ ((cfg1.win 2).flush ⟨t.val - 1, Nat.lt_of_le_of_lt (Nat.sub_le _ _) t.isLt⟩ = true) := fun hf => by
      have := (flush1_2 ⟨t.val - 1, Nat.lt_of_le_of_lt (Nat.sub_le _ _) t.isLt⟩).mp hf
      simp only at this; omega
    rw [if_neg hfl]
    unfold Dat.left
    by_cases hp : (t.val - 1) % 8 = ((t.val - 1) / 8 + 4) % 8
    · have hi : cfg1.idle 2 (cfg1.grid.coords ⟨t.val - 1, Nat.lt_of_le_of_lt (Nat.sub_le _ _) t.isLt⟩) = false := by
        rw [← Bool.not_eq_true]; exact fun h' => (idle2_iff ⟨t.val - 1, Nat.lt_of_le_of_lt (Nat.sub_le _ _) t.isLt⟩).mp h' hp
      rw [hi]
      unfold Dat.kept
      rw [Pipeline.fill_of_clip_none 2 _ (fun _ => rfl) d ((dat V c).after 2 _), Pipeline.Window.fill_cut, after2]
      show partnerBlock V c ((t.val - 1) / 8) = partnerBlock V c (t.val / 8)
      congr 1; omega
    · have hi : cfg1.idle 2 (cfg1.grid.coords ⟨t.val - 1, Nat.lt_of_le_of_lt (Nat.sub_le _ _) t.isLt⟩) = true :=
        (idle2_iff ⟨t.val - 1, Nat.lt_of_le_of_lt (Nat.sub_le _ _) t.isLt⟩).mpr hp
      rw [hi]
      rw [ih ⟨t.val - 1, Nat.lt_of_le_of_lt (Nat.sub_le _ _) t.isLt⟩ (by show t.val - 1 = k; omega) (by show ((t.val - 1) / 8 + 4) % 8 < (t.val - 1) % 8; omega) d]
      show partnerBlock V c ((t.val - 1) / 8) = partnerBlock V c (t.val / 8)
      congr 1; omega

end Cert.Kernel.Sim

end
-- ==== Proof.Word.SimBody.lean ====
/-
  The body obligation of the second region at a generic point: from what the invariant hands over (the running sums
  so far) the body returns the resident rows unchanged, each result block's buffer as the schedule asks (stored at
  its own column tile, otherwise as found), and the invariant for the next point.
-/
import proofs.«148196_j36515811951305_2_alg».proof.Proof.Word.SimData
import proofs.«148196_j36515811951305_2_alg».proof.Proof.Gen.Kernel.Launch
import proofs.«148196_j36515811951305_2_alg».proof.Proof.Gen.Kernel.Skeleton
import proofs.«148196_j36515811951305_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Sim

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RegionData (Vals)

variable (V : Vals F)

/-! ## The body obligation at a generic point -/

/-- What the invariant hands the body at point `t`: the second scratch at sums `xl` from which the body's update gives
    the running sums after `t` — the sums after the point before, or anything at the first point (a first column
    tile, where the update starts from zero). -/
theorem inv_elim (c : Dev nD) (t : Fin cfg1.N) :
    inv V c t.val (Nat.le_of_lt t.isLt) ⊢ (iprop(∃ xl, ⌜sums V c t.val t.isLt = accL (grid1.coords t) (blockAt V c 0 t) xl⌝
        ∗ (∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ d, owns (c : Thread nD τ) scS fullShare d) ∗ owns (c : Thread nD τ) scL fullShare xl ∗ (∃ r, prngReg c r)) : sProp 𝕄) := by
  by_cases hz : t.val = 0
  · rw [inv_zero V c _ _ hz, plain_eq]
    iintro ⟨⟨H1, H2, H3, H4, HS, ⟨%xl, HL⟩⟩, Hg⟩
    iexists xl; isplitr; · ipureintro; exact sums_zero V c t hz xl
    isplitl [H1]; · iexact H1
    isplitl [H2]; · iexact H2
    isplitl [H3]; · iexact H3
    isplitl [H4]; · iexact H4
    isplitl [HS]; · iexact HS
    isplitl [HL]; · iexact HL
    iexact Hg
  · rw [inv_pos V c _ _ hz]
    iintro ⟨⟨H1, H2, H3, H4, HS, HL⟩, Hg⟩
    iexists _; isplitr; · ipureintro; exact sums_succ V c t hz
    isplitl [H1]; · iexact H1
    isplitl [H2]; · iexact H2
    isplitl [H3]; · iexact H3
    isplitl [H4]; · iexact H4
    isplitl [HS]; · iexact HS
    isplitl [HL]; · iexact HL
    iexact Hg

/-- The resident rows' buffer is handed back at the rows. -/
theorem leaves0_eq (c : Dev nD) (t : Fin cfg1.N) :
    (dat V c).leavesExact 0 t = owns (c : Thread nD τ) (st1_0 t) fullShare (blockAt V c 0 t) := by
  unfold Dat.leavesExact; rw [live0 (cfg1.grid.coords t), after0]

/-- The log-normaliser block's buffer: at the last column tile at 4 + log of the running sums, else as found. -/
theorem leaves1_of (c : Dev nD) (t : Fin cfg1.N) (d1) (xl : Vec F S1024x1 .f32)
    (hxl : sums V c t.val t.isLt = accL (grid1.coords t) (blockAt V c 0 t) xl) :
    owns (c : Thread nD τ) (st1_1 t) fullShare (if atLast (grid1.coords t) then k1_pay2 (accL (grid1.coords t) (blockAt V c 0 t) xl) else (dat V c).before 1 t d1)
      ⊢ (dat V c).leavesExact 1 t := by
  by_cases h : atLast (grid1.coords t)
  · rw [if_pos h]
    have hi : cfg1.idle 1 (cfg1.grid.coords t) = false := by
      rw [← Bool.not_eq_true]; exact fun h' => (idle1_iff t).mp h' ((atLast_iff t).mp h)
    unfold Dat.leavesExact; rw [hi, after1, hxl]
  · rw [if_neg h]
    have hi : cfg1.idle 1 (cfg1.grid.coords t) = true := (idle1_iff t).mpr (fun e => h ((atLast_iff t).mpr e))
    have hf : (cfg1.win 1).flush t = false := by
      rw [← Bool.not_eq_true]; exact fun h' => h ((atLast_iff t).mpr ((flush1_1 t).mp h'))
    rw [Dat.leavesExact_idle (dat V c) 1 t hi hf]
    iintro H; iexists d1; iexact H

/-- The partner block's buffer: at the partners' column tile at the tile's diagonal sums; past it, still so when the
    block is written back after the last column tile; else as found. -/
theorem leaves2_of (c : Dev nD) (t : Fin cfg1.N) (d2) :
    owns (c : Thread nD τ) (st1_2 t) fullShare (if atPartner (grid1.coords t) then k1_pay1 (tileS (grid1.coords t) (blockAt V c 0 t)) else (dat V c).before 2 t d2)
      ⊢ (dat V c).leavesExact 2 t := by
  have hN : t.val < 64 := lt_of_lt_of_eq t.isLt N1
  by_cases h : atPartner (grid1.coords t)
  · rw [if_pos h]
    have hp := (atPartner_iff t).mp h
    have hi : cfg1.idle 2 (cfg1.grid.coords t) = false := by
      rw [← Bool.not_eq_true]; exact fun h' => (idle2_iff t).mp h' hp
    unfold Dat.leavesExact; rw [hi, after2]; unfold partnerBlock; rw [tpt_self t hp]
  · rw [if_neg h]
    have hp : t.val % 8 ≠ (t.val / 8 + 4) % 8 := fun e => h ((atPartner_iff t).mpr e)
    have hi : cfg1.idle 2 (cfg1.grid.coords t) = true := (idle2_iff t).mpr hp
    by_cases hl : t.val % 8 = 7
    · have hf : (cfg1.win 2).flush t = true := (flush1_2 t).mpr hl
      unfold Dat.leavesExact; rw [hi, hf, after2, before2_after V c t.val t rfl (by omega) d2]
    · have hf : (cfg1.win 2).flush t = false := by
        rw [← Bool.not_eq_true]; exact fun h' => hl ((flush1_2 t).mp h')
      rw [Dat.leavesExact_idle (dat V c) 2 t hi hf]
      iintro H; iexists d2; iexact H

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 1000000 in
/-- The body at any point: the resident rows' buffer holds the rows; the invariant hands over the two scratch buffers;
    the body's triple applies; the running sums go back into the invariant, each output block's buffer is left as
    the schedule asks. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0]
  rw [show (dat V c).owesAt () t.succ = (dat V c).owesAt () t.castSucc from rfl,
    show (dat V c).Φ t.succ = inv V c (t.val + 1) t.isLt from rfl, inv_succ, inv_castSucc, leaves0_eq]
  iintro ⟨HΦ, Ho, ⟨%d0, H0⟩, ⟨%d1, H1⟩, ⟨%d2, H2⟩⟩
  ihave HΦ' := (inv_elim V c t) $$ HΦ
  icases HΦ' with ⟨%xl, %hxl, Ha, Hb, Hc, Hd, HS, HL, Hg⟩
  iapply (sound_kernel c Set.univ (grid1.coords t) _ _ _ _ _ _ _ _ _ _ (diag_iff t) (blockAt V c 0 t) ((dat V c).before 1 t d1) ((dat V c).before 2 t d2) xl _)
  isplitl [H0]; · iexact H0
  isplitl [H1]; · iexact H1
  isplitl [H2]; · iexact H2
  isplitl [HS]; · iexact HS
  isplitl [HL]; · iexact HL
  iintro ⟨H0, H1, H2, HS, HL⟩
  isplitl [Ha Hb Hc Hd HS HL Hg]
  · isplitr [Hg]
    · isplitl [Ha]; · iexact Ha
      isplitl [Hb]; · iexact Hb
      isplitl [Hc]; · iexact Hc
      isplitl [Hd]; · iexact Hd
      isplitl [HS]; · iexists _; iexact HS
      rw [hxl]; iexact HL
    · iexact Hg
  isplitl [Ho]; · iexact Ho
  isplitl [H0]; · iexact H0
  isplitl [H1]
  · iapply (leaves1_of V c t d1 xl hxl); iexact H1
  iapply (leaves2_of V c t d2); iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Sim

end
-- ==== Proof.Word.SimSecond.lean ====
/-
  The second region's record: its proof data at any entry contents, the body obligation at every point, and the two
  ends of the invariant (it starts from, and returns to, the state in which no scratch contents are named).
-/
import proofs.«148196_j36515811951305_2_alg».proof.Proof.Word.SimBody
import proofs.«148196_j36515811951305_2_alg».proof.Proof.Word.RegionData

/-! The second region's record: its proof data at any entry contents, the body obligation, and the invariant's two ends. -/

noncomputable section

namespace Cert.Kernel.Sim

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel.RegionData (Vals)

variable {F : FTy → Type} [FloatOps F]

local notation "𝕄" => MT nD τ sig Unit (Elt F) ℕ (UR sig nD τ) ℕ

variable (V : Vals F)

/-- The plain state is the invariant before the first point. -/
theorem hin (c : Dev nD) : (Pipeline.ΦA spec1 c : sProp 𝕄) ⊢ (dat V c).Φ 0 := by
  rw [show (dat V c).Φ 0 = inv V c 0 (Nat.zero_le _) from rfl, inv_zero V c 0 _ rfl]
  try exact BI.Entails.refl _

/-- After the last point the invariant gives the plain state back: the running sums' contents are forgotten. -/
theorem hout (c : Dev nD) : (dat V c).Φ (Fin.last cfg1.N) ⊢ (Pipeline.ΦA spec1 c : sProp 𝕄) := by
  rw [show (dat V c).Φ (Fin.last cfg1.N) = inv V c (Fin.last cfg1.N).val (Nat.le_of_lt_succ (Fin.last cfg1.N).isLt) from rfl,
    inv_pos V c _ _ (by rw [Fin.val_last]; have : cfg1.N = 64 := N1; omega), plain_eq]
  iintro ⟨⟨H1, H2, H3, H4, HS, HL⟩, Hg⟩
  isplitr [Hg]
  · isplitl [H1]; · iexact H1
    isplitl [H2]; · iexact H2
    isplitl [H3]; · iexact H3
    isplitl [H4]; · iexact H4
    isplitl [HS]; · iexact HS
    iexists _; iexact HL
  · iexact Hg

/-- The second region, at any entry contents. -/
def second : RegionData.Second F where
  dat := fun V c => dat V c
  A_eq := fun V c w => A_eq V c w
  q_eq := fun _ _ _ => rfl
  owed_eq := fun _ _ _ => rfl
  recorded_eq := fun _ _ => rfl
  body := fun V c => body_obligation V c
  hin := fun V c => hin V c
  hout := fun V c => hout V c

end Cert.Kernel.Sim

end
-- ==== Proof.RefOps.lean ====
/-
  Four of the five operations of the reference that are not one-element reads, read at an index (the gather is in RefGather.lean).

  Two joins of a pair of equal pieces along the leading axis (an index below the first piece's extent reads the first
  piece, any other the second at the index less that extent); the maximum of each row of a square array, which from
  −∞ is the supremum of the row; and a conjunction along an axis that is constantly true.
-/
import proofs.«148196_j36515811951305_2_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-! ## The joins -/

/-- The join of two [4096, 256] arrays along the rows, read at row `p`. -/
theorem concat_rows_apply {α : Type} (A B : S4096x256.Idx → α) (p : Fin 8192) (k : Fin 256) :
    concatenate S8192x256 0 [⟨S4096x256, A⟩, ⟨S4096x256, B⟩] concatenates_S4096x256_S4096x256_S8192x256_d0 (ix2 p k)
      = if h : p.val < 4096 then A (ix2 (⟨p.val, h⟩ : Fin 4096) k)
        else B (ix2 (⟨p.val - 4096, by have := p.isLt; omega⟩ : Fin 4096) k) := by
  split_ifs with h
  · exact concatenate_pair_apply_left (0 : Fin 2) A B concatenates_S4096x256_S4096x256_S8192x256_d0 (ix2 p k) rfl
      (ix2 (⟨p.val, h⟩ : Fin 4096) k) (fun b => match b with | ⟨0, _⟩ => rfl | ⟨1, _⟩ => rfl)
  · exact concatenate_pair_apply_right (0 : Fin 2) A B concatenates_S4096x256_S4096x256_S8192x256_d0 (ix2 p k) rfl rfl
      (ix2 (⟨p.val - 4096, by have := p.isLt; omega⟩ : Fin 4096) k)
      (fun b hb => match b, hb with | ⟨0, _⟩, hb => absurd rfl hb | ⟨1, _⟩, _ => rfl)
      (by show p.val - 4096 + 4096 = p.val; omega)

/-- The join of two vectors of 4096 words, read at `p`. -/
theorem concat_vec_apply {α : Type} (A B : S4096.Idx → α) (p : Fin 8192) :
    concatenate S8192 0 [⟨S4096, A⟩, ⟨S4096, B⟩] concatenates_S4096_S4096_S8192_d0 (ix1 p)
      = if h : p.val < 4096 then A (ix1 (⟨p.val, h⟩ : Fin 4096))
        else B (ix1 (⟨p.val - 4096, by have := p.isLt; omega⟩ : Fin 4096)) := by
  split_ifs with h
  · exact concatenate_pair_apply_left (0 : Fin 1) A B concatenates_S4096_S4096_S8192_d0 (ix1 p) rfl
      (ix1 (⟨p.val, h⟩ : Fin 4096)) (fun b => match b with | ⟨0, _⟩ => rfl)
  · exact concatenate_pair_apply_right (0 : Fin 1) A B concatenates_S4096_S4096_S8192_d0 (ix1 p) rfl rfl
      (ix1 (⟨p.val - 4096, by have := p.isLt; omega⟩ : Fin 4096))
      (fun b hb => match b, hb with | ⟨0, _⟩, hb => absurd rfl hb)
      (by show p.val - 4096 + 4096 = p.val; omega)

/-! ## The row maximum -/

/-- A fold of `max` from −∞ is the supremum. -/
theorem fold_max_bot {ι : Type} (s : Finset ι) (f : ι → EReal) :
    s.fold (FloatOps.maximumf (F := Ideal) (φ := .f32)) ⊥ f = s.sup f := by
  classical
  induction s using Finset.induction_on with
  | empty => rfl
  | insert a s ha ih =>
    rw [Finset.fold_insert ha, Finset.sup_insert, ih]
    rfl

/-- The host's maximum over the columns, from an initial value −∞, is each row's supremum. -/
theorem reduce_max_apply (x : S8192x8192.Idx → EReal) (init : S_.Idx → EReal)
    (hinit : init (Shape.Idx.first h_S_) = ⊥) (p : Fin 8192) :
    Host.reduce (FloatOps.maximumf (F := Ideal) (φ := .f32)) x init reducesTo_S8192x8192_S8192_d1 h_S_ (ix1 p)
      = Finset.univ.sup fun q : Fin 8192 => x (ix2 p q) := by
  rw [Host.reduce_eq_fold_single _ x init reducesTo_S8192x8192_S8192_d1
    (by decide : S8192x8192.Reduces [1] S8192) h_S_ (ix1 p), hinit, fold_max_bot]
  refine congrArg (Finset.univ.sup ·) (funext fun q => congrArg x (funext fun a => Fin.ext ?_))
  match a with
  | ⟨0, _⟩ => rfl
  | ⟨1, _⟩ => rfl

/-! ## The conjunction along an axis -/

/-- A fold of `and` from 1 over words that are all 1 is 1. -/
theorem fold_andi_one {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf a]; rfl

/-- The host's conjunction along the last axis of a [8192, 1, 1] array of true words, from true, is true. -/
theorem reduce_andi_one (x : S8192x1x1.Idx → BitVec 1) (init : S_.Idx → BitVec 1) (hx : ∀ i, x i = 1#1)
    (hinit : init (Shape.Idx.first h_S_) = 1#1) (j : S8192x1.Idx) :
    Host.reduce IntOp.andi x init reducesTo_S8192x1x1_S8192x1_d2 h_S_ j = 1#1 := by
  rw [Host.reduce_eq_fold_single _ x init reducesTo_S8192x1x1_S8192x1_d2
    (by decide : S8192x1x1.Reduces [2] S8192x1) h_S_ j, hinit]
  exact fold_andi_one _ _ fun k => hx _

end Cert.RefSide

end
-- ==== Proof.RefValue1.lean ====
/-
  The reference's normalised rows are the rows `Cert.Spec.unit (Cert.Spec.join x0 x1)`.

  Each half is read stage by stage at an index: the sum of squares of a row, its square root, the larger of that and ε,
  the quotient; the join of the two halves reads the first below row 4096 and the second from there on.
-/
import proofs.«148196_j36515811951305_2_alg».proof.Proof.RefReadGen
import proofs.«148196_j36515811951305_2_alg».proof.Proof.RefOps
import proofs.«148196_j36515811951305_2_alg».proof.Proof.Spec

noncomputable section

namespace Cert.RefSide

open Cert.ReferenceIdeal Cert.ReferenceIdeal.Gen Cert.ReferenceIdeal.Read Idealize.ShloMosaic Idealize.ShloMosaic.ValueIdx

/-- Two rank-2 indices with the same coordinates are equal. -/
theorem idx2_ext {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Two rank-1 indices with the same coordinate are equal. -/
theorem idx1_ext {n0 : Nat} (i j : (⟨1, ![n0]⟩ : Shape).Idx) (h0 : (i 0).val = (j 0).val) : i = j := by
  funext a
  match a with
  | ⟨0, _⟩ => exact Fin.ext h0

/-- The sum of squares of row `r` of the first array. -/
theorem main_v1c (x : Spec.Arg) (r : Fin 4096) :
    val_main_v1 (F := Ideal) x (ix1 r)
      = Ideal.ofBits .f32 0x00000000#32 + ∑ d : Fin 256, x (ix2 r d) * x (ix2 r d) := by
  rw [val_main_v1_apply]
  exact congrArg (_ + ·) (Finset.sum_congr rfl fun d _ => by
    rw [val_main_v0_apply]
    exact congrArg₂ (· * ·) (congrArg x (idx2_ext _ _ rfl rfl)) (congrArg x (idx2_ext _ _ rfl rfl)))

/-- The divisor of row `r` of the first array. -/
theorem main_v5c (x : Spec.Arg) (r : Fin 4096) :
    val_main_v5 (F := Ideal) x (ix2 r (0 : Fin 1)) = max (Ideal.sqrt (val_main_v1 (F := Ideal) x (ix1 r))) Spec.eps := by
  rw [val_main_v5_apply, val_main_v3_apply, val_main_v2_apply, val_main_v4_apply]
  exact congrArg (fun t => max (Ideal.sqrt t) Spec.eps) (congrArg (val_main_v1 (F := Ideal) x) (idx1_ext _ _ rfl))

/-- An entry of the first array divided by its row's divisor. -/
theorem main_v7c (x : Spec.Arg) (r : Fin 4096) (k : Fin 256) :
    val_main_v7 (F := Ideal) x (ix2 r k) = Ideal.div (x (ix2 r k)) (val_main_v5 (F := Ideal) x (ix2 r (0 : Fin 1))) := by
  rw [val_main_v7_apply, val_main_v6_apply]
  exact congrArg (Ideal.div _) (congrArg (val_main_v5 (F := Ideal) x) (idx2_ext _ _ rfl rfl))

/-- The sum of squares of row `r` of the second array. -/
theorem main_v9c (x : Spec.Arg) (r : Fin 4096) :
    val_main_v9 (F := Ideal) x (ix1 r)
      = Ideal.ofBits .f32 0x00000000#32 + ∑ d : Fin 256, x (ix2 r d) * x (ix2 r d) := by
  rw [val_main_v9_apply]
  exact congrArg (_ + ·) (Finset.sum_congr rfl fun d _ => by
    rw [val_main_v8_apply]
    exact congrArg₂ (· * ·) (congrArg x (idx2_ext _ _ rfl rfl)) (congrArg x (idx2_ext _ _ rfl rfl)))

/-- The divisor of row `r` of the second array. -/
theorem main_v13c (x : Spec.Arg) (r : Fin 4096) :
    val_main_v13 (F := Ideal) x (ix2 r (0 : Fin 1)) = max (Ideal.sqrt (val_main_v9 (F := Ideal) x (ix1 r))) Spec.eps := by
  rw [val_main_v13_apply, val_main_v11_apply, val_main_v10_apply, val_main_v12_apply]
  exact congrArg (fun t => max (Ideal.sqrt t) Spec.eps) (congrArg (val_main_v9 (F := Ideal) x) (idx1_ext _ _ rfl))

/-- An entry of the second array divided by its row's divisor. -/
theorem main_v15c (x : Spec.Arg) (r : Fin 4096) (k : Fin 256) :
    val_main_v15 (F := Ideal) x (ix2 r k) = Ideal.div (x (ix2 r k)) (val_main_v13 (F := Ideal) x (ix2 r (0 : Fin 1))) := by
  rw [val_main_v15_apply, val_main_v14_apply]
  exact congrArg (Ideal.div _) (congrArg (val_main_v13 (F := Ideal) x) (idx2_ext _ _ rfl rfl))

/-- The joined normalised rows are the specification's. -/
theorem v16c (x0 x1 : Spec.Arg) (p : Fin 8192) (k : Fin 256) :
    val_main_v16 (F := Ideal) x0 x1 (ix2 p k) = Spec.unit (Spec.join x0 x1) p k := by
  unfold val_main_v16
  rw [concat_rows_apply]
  unfold Spec.unit Spec.norm Spec.join
  by_cases h : p.val < 4096
  · simp only [dif_pos h]
    rw [main_v7c, main_v5c, main_v1c]
  · simp only [dif_neg h]
    rw [main_v15c, main_v13c, main_v9c]

end Cert.RefSide

end
-- ==== Proof.RefValue2.lean ====
/-
  The reference's similarities, their row maxima and its log-softmax, read at an index.

  With y the normalised rows: the product of y with its transpose divided by 1/2 is `Cert.Spec.simR y`; the select
  against the diagonal puts the word of −∞ there, which is `Cert.Spec.simMaskedR y`; the maximum of a row from −∞, joined
  once more with −∞, is `Cert.Spec.rowMax y`; and the log-softmax entry at (p, q) is the masked similarity less the row
  maximum, less the logarithm of the row's sum of exponentials of those differences.
-/
import proofs.«148196_j36515811951305_2_alg».proof.Proof.RefValue1
import Idealize.ShloMosaic.Lib.Affine

noncomputable section

namespace Cert.RefSide

open Cert.ReferenceIdeal Cert.ReferenceIdeal.Gen Cert.ReferenceIdeal.Read Idealize.ShloMosaic Idealize.ShloMosaic.ValueIdx

/-- The word of −∞. -/
theorem neg_inf_word : Ideal.ofBits .f32 0xFF800000#32 = (⊥ : EReal) := by
  simp [Ideal.ofBits, Ideal.ieee]

/-- Row and column numbers below 8192 are equal as 32-bit words exactly when they are equal. -/
theorem word_eq_iff (p q : Fin 8192) :
    IntOp.addi (BitVec.ofNat 32 p.val) 0#32 = BitVec.ofNat 32 q.val ↔ p = q := by
  have hp := p.isLt
  have hq := q.isLt
  constructor
  · intro h
    have h2 := congrArg BitVec.toNat h
    simp only [IntOp.addi, BitVec.add_zero, BitVec.toNat_ofNat] at h2
    exact Fin.ext (by omega)
  · rintro rfl
    simp only [IntOp.addi, BitVec.add_zero]

/-- The inner products of the normalised rows. -/
theorem v18c (x0 x1 : Spec.Arg) (p q : Fin 8192) :
    val_main_v18 (F := Ideal) x0 x1 (ix2 p q) = ∑ k : Fin 256, (Spec.unit (Spec.join x0 x1)) p k * (Spec.unit (Spec.join x0 x1)) q k := by
  rw [val_main_v18_apply]
  refine Finset.sum_congr rfl fun k _ => ?_
  rw [val_main_v17_apply]
  exact congrArg₂ (· * ·)
    ((congrArg (val_main_v16 (F := Ideal) x0 x1) (idx2_ext (lidx_main_v18 (ix2 p q) k) (ix2 p k) rfl rfl)).trans (v16c x0 x1 p k))
    ((congrArg (val_main_v16 (F := Ideal) x0 x1) (idx2_ext (idx_main_v17 (ridx_main_v18 (ix2 p q) k)) (ix2 q k) rfl rfl)).trans (v16c x0 x1 q k))

/-- Divided by the temperature: the reference's similarities. -/
theorem v20c (x0 x1 : Spec.Arg) (p q : Fin 8192) :
    val_main_v20 (F := Ideal) x0 x1 (ix2 p q) = Spec.simR (Spec.unit (Spec.join x0 x1)) p q := by
  rw [val_main_v20_apply, v18c, val_main_v19_apply]
  unfold Spec.simR Spec.half
  rw [Ideal.ofBits_zero_f32, zero_add]
  rfl

/-- With the diagonal at −∞. -/
theorem v26c (x0 x1 : Spec.Arg) (p q : Fin 8192) :
    val_main_v26 (F := Ideal) x0 x1 (ix2 p q) = Spec.simMaskedR (Spec.unit (Spec.join x0 x1)) p q := by
  rw [val_main_v26_apply, v20c, val_main_call0_v1_apply, val_main_call0_v0_apply, val_main_cst_4_apply,
    val_main_v25_apply, val_main_v24_apply, val_main_v21_apply, val_main_v22_apply, val_main_v23_apply,
    val_main_c_apply]
  unfold Spec.simMaskedR
  by_cases h : p = q
  · rw [if_pos h, IntOp.cmpi_eq.2 ((word_eq_iff p q).2 h), select_one]
    exact neg_inf_word
  · rw [if_neg h, eq_zero_of_ne_one (fun e => h ((word_eq_iff p q).1 (IntOp.cmpi_eq.1 e))), select_zero]

/-- The row maxima. -/
theorem call1_v2c (x0 x1 : Spec.Arg) (p : Fin 8192) :
    val_main_call1_v2 (F := Ideal) x0 x1 (ix1 p) = Spec.rowMax (Spec.unit (Spec.join x0 x1)) p := by
  rw [val_main_call1_v2_apply, val_main_call1_v1_apply, val_main_call1_cst_0_apply]
  unfold val_main_call1_v0
  refine (congrArg (FloatOps.maximumf (F := Ideal) (φ := .f32) _)
    (reduce_max_apply (val_main_v26 (F := Ideal) x0 x1) (val_main_call1_cst (F := Ideal)) neg_inf_word p)).trans ?_
  unfold Spec.rowMax
  rw [show (fun q : Fin 8192 => val_main_v26 (F := Ideal) x0 x1 (ix2 p q)) = Spec.simMaskedR (Spec.unit (Spec.join x0 x1)) p from
    funext fun q => v26c x0 x1 p q]
  exact (congrArg (max · _) neg_inf_word).trans (max_eq_right bot_le)

/-- A masked similarity less its row's maximum. -/
theorem call1_v5c (x0 x1 : Spec.Arg) (p q : Fin 8192) :
    val_main_call1_v5 (F := Ideal) x0 x1 (ix2 p q)
      = Spec.simMaskedR (Spec.unit (Spec.join x0 x1)) p q - Spec.rowMax (Spec.unit (Spec.join x0 x1)) p := by
  rw [val_main_call1_v5_apply, v26c, val_main_call1_v4_apply, val_main_call1_v3_apply,
    show idx_main_call1_v3 (idx_main_call1_v4 (ix2 p q)) = ix1 p from idx1_ext _ _ rfl, call1_v2c]
  rfl

/-- A row's sum of exponentials. -/
theorem call1_v7c (x0 x1 : Spec.Arg) (p : Fin 8192) :
    val_main_call1_v7 (F := Ideal) x0 x1 (ix1 p)
      = Ideal.ofBits .f32 0x00000000#32
        + ∑ q : Fin 8192, Ideal.exp (Spec.simMaskedR (Spec.unit (Spec.join x0 x1)) p q - Spec.rowMax (Spec.unit (Spec.join x0 x1)) p) := by
  rw [val_main_call1_v7_apply]
  refine congrArg (_ + ·) (Finset.sum_congr rfl fun q _ => ?_)
  rw [val_main_call1_v6_apply, show idx_main_call1_v7 (ix1 p) q = ix2 p q from idx2_ext _ _ rfl rfl, call1_v5c]
  rfl

/-- The log-softmax. -/
theorem v32c (x0 x1 : Spec.Arg) (p q : Fin 8192) :
    val_main_v32 (F := Ideal) x0 x1 (ix2 p q)
      = (Spec.simMaskedR (Spec.unit (Spec.join x0 x1)) p q - Spec.rowMax (Spec.unit (Spec.join x0 x1)) p)
        - Ideal.log (Ideal.ofBits .f32 0x00000000#32
          + ∑ q' : Fin 8192, Ideal.exp (Spec.simMaskedR (Spec.unit (Spec.join x0 x1)) p q' - Spec.rowMax (Spec.unit (Spec.join x0 x1)) p)) := by
  rw [val_main_v32_apply, call1_v5c, val_main_call1_v10_apply, val_main_call1_v9_apply, val_main_call1_v8_apply,
    show idx_main_call1_v8 (idx_main_call1_v10 (ix2 p q)) = ix1 p from idx1_ext _ _ rfl, call1_v7c]
  rfl

end Cert.RefSide

end
-- ==== Proof.RefGather.lean ====
/-
  The reference's gather, read at an index.

  The operand is a square array, the start indices one word per row. Row `p` of the result reads row `p` of the operand
  (the rows are the batching axis) at the column the row's index word names, read as a signed integer and clamped into
  the row.
-/
import proofs.«148196_j36515811951305_2_alg».proof.Proof.Gen.ReferenceIdeal
import Idealize.ShloMosaic.Lib.ValueIdx

noncomputable section

namespace Cert.RefSide

open Cert.ReferenceIdeal Cert.ReferenceIdeal.Gen Idealize.ShloMosaic Idealize.ShloMosaic.ValueIdx

/-- On the batching axis the operand's coordinate is the result's row. -/
theorem gather_batchCoord0 (j : S8192x1.Idx) :
    gather_S8192x8192_S8192x1x1_S8192x1_n_1_0_0_1_2_11.batchCoord j 0 = (j 0).val := by
  unfold GatherDims.batchCoord
  rw [dif_pos (show (0 : Fin S8192x8192.rank) ∈ gather_S8192x8192_S8192x1x1_S8192x1_n_1_0_0_1_2_11.operandBatchingDims by decide)]
  unfold GatherDims.siCoord
  simp only [Fin.coe_cast]
  exact congrArg (fun a : Fin S8192x1.rank => (j a).val) (by decide)

/-- The reference's gather at row `p`: the operand's row `p` at the column its index word names, read signed and
    clamped into the row. -/
theorem gather_apply {α : Type} (x : S8192x8192.Idx → α) (idx : IVec S8192x1x1 32) (p : Fin 8192) :
    Host.gather gather_S8192x8192_S8192x1x1_S8192x1_n_1_0_0_1_2_11 x idx (ix2 p (0 : Fin 1))
      = x (ix2 p (⟨min (idx (ix3 p (0 : Fin 1) (0 : Fin 1))).toInt.toNat 8191, by omega⟩ : Fin 8192)) := by
  unfold Host.gather
  refine congrArg x (funext fun a => Fin.ext ?_)
  match a with
  | ⟨0, _⟩ =>
    show gather_S8192x8192_S8192x1x1_S8192x1_n_1_0_0_1_2_11.start (ix2 p (0 : Fin 1)) idx 0
        + gather_S8192x8192_S8192x1x1_S8192x1_n_1_0_0_1_2_11.batchCoord (ix2 p (0 : Fin 1)) 0
        + gather_S8192x8192_S8192x1x1_S8192x1_n_1_0_0_1_2_11.offCoord (ix2 p (0 : Fin 1)) 0 = p.val
    rw [GatherDims.start_batching _ _ idx 0 (by decide),
      GatherDims.offCoord_eq_zero _ _ 0 (fun h => ((GatherDims.mem_sKept _ 0).1 h).2 (by decide))]
    rw [gather_batchCoord0]
    show 0 + p.val + 0 = p.val
    omega
  | ⟨1, _⟩ =>
    show gather_S8192x8192_S8192x1x1_S8192x1_n_1_0_0_1_2_11.start (ix2 p (0 : Fin 1)) idx 1
        + gather_S8192x8192_S8192x1x1_S8192x1_n_1_0_0_1_2_11.batchCoord (ix2 p (0 : Fin 1)) 1
        + gather_S8192x8192_S8192x1x1_S8192x1_n_1_0_0_1_2_11.offCoord (ix2 p (0 : Fin 1)) 1
        = min (idx (ix3 p (0 : Fin 1) (0 : Fin 1))).toInt.toNat 8191
    rw [GatherDims.batchCoord_eq_zero _ _ 1 (by decide),
      GatherDims.offCoord_eq_zero _ _ 1 (fun h => ((GatherDims.mem_sKept _ 1).1 h).1 (by decide))]
    simp only [Nat.add_zero]
    unfold GatherDims.start
    rw [dif_pos (show (1 : Fin S8192x8192.rank) ∈ gather_S8192x8192_S8192x1x1_S8192x1_n_1_0_0_1_2_11.startIndexMap by decide)]
    have hsi : gather_S8192x8192_S8192x1x1_S8192x1_n_1_0_0_1_2_11.siIdx (ix2 p (0 : Fin 1))
        ⟨List.idxOf (1 : Fin S8192x8192.rank) gather_S8192x8192_S8192x1x1_S8192x1_n_1_0_0_1_2_11.startIndexMap,
          List.idxOf_lt_length_iff.2 (by decide)⟩ = ix3 p (0 : Fin 1) (0 : Fin 1) := by
      funext b; refine Fin.ext ?_
      match b with
      | ⟨0, _⟩ => rfl
      | ⟨1, _⟩ => rfl
      | ⟨2, _⟩ => rfl
    rw [hsi]
    rfl

end Cert.RefSide

end
-- ==== Proof.RefValue3.lean ====
/-
  The reference's labels, its gather of the partner's log-softmax entry, and the mean: the result is
  `Cert.Spec.resultR`.

  The label of row p is the word of p + 4096 below row 4096 and of p − 4096 from there on: the word of the partner of
  p, a number in [0, 8191], so the wrap-around of negative indices leaves it, the in-range test of the gather is true,
  and the gather reads column partner p of row p. Negated and summed over the rows, from the zero word, and divided by
  the row count, that is the mean of the specification's row losses.
-/
import proofs.«148196_j36515811951305_2_alg».proof.Proof.RefValue2
import proofs.«148196_j36515811951305_2_alg».proof.Proof.RefGather

noncomputable section

namespace Cert.RefSide

open Cert.ReferenceIdeal Cert.ReferenceIdeal.Gen Cert.ReferenceIdeal.Read Idealize.ShloMosaic Idealize.ShloMosaic.ValueIdx

/-! ## Words of small numbers -/

theorem toInt_ofNat_small (n : Nat) (h : n < 8192) : (BitVec.ofNat 32 n).toInt = (n : ℤ) := by
  rw [BitVec.toInt_eq_toNat_cond, BitVec.toNat_ofNat]
  have : n % 2 ^ 32 = n := Nat.mod_eq_of_lt (by omega)
  rw [this]
  split_ifs with h2
  · rfl
  · omega

theorem add_word (n : Nat) (h : n < 4096) : 4096#32 + BitVec.ofNat 32 n = BitVec.ofNat 32 (n + 4096) := by
  apply BitVec.eq_of_toNat_eq
  simp only [BitVec.toNat_add, BitVec.toNat_ofNat]
  omega

theorem partner_lt (p : Fin 8192) : (Spec.partner p).val < 8192 := (Spec.partner p).isLt

/-! ## The labels -/

/-- The label vector holds the word of each row's partner. -/
theorem v31c (p : Fin 8192) :
    val_main_v31 (F := Ideal) (ix1 p) = BitVec.ofNat 32 (Spec.partner p).val := by
  have hp := p.isLt
  unfold val_main_v31
  rw [concat_vec_apply]
  by_cases h : p.val < 4096
  · rw [dif_pos h, val_main_v29_apply, val_main_v28_apply, val_main_c_5_apply, val_main_v27_apply]
    have e : (Spec.partner p).val = p.val + 4096 := Nat.mod_eq_of_lt (by omega)
    rw [e]
    exact add_word p.val h
  · rw [dif_neg h, val_main_v30_apply]
    have e : (Spec.partner p).val = p.val - 4096 := by
      have e' : (p.val + 4096) % 8192 = p.val - 4096 := by omega
      exact e'
    rw [e]

/-- The start indices of the gather: the same words (a label is not negative, so nothing is wrapped). -/
theorem call2_v5c (p : Fin 8192) :
    val_main_call2_v5 (F := Ideal) (ix3 p (0 : Fin 1) (0 : Fin 1)) = BitVec.ofNat 32 (Spec.partner p).val := by
  have hq := partner_lt p
  have h33 : val_main_v33 (F := Ideal) (ix2 p (0 : Fin 1)) = BitVec.ofNat 32 (Spec.partner p).val := by
    rw [val_main_v33_apply, show idx_main_v33 (ix2 p (0 : Fin 1)) = ix1 p from idx1_ext _ _ rfl, v31c]
  have hslt : IntOp.cmpi .slt (BitVec.ofNat 32 (Spec.partner p).val)
      (val_main_call2_v0 (F := Ideal) (ix2 p (0 : Fin 1))) = 0#1 :=
    eq_zero_of_ne_one (fun e => by
      have h1 := IntOp.cmpi_slt.1 e
      rw [toInt_ofNat_small _ hq, val_main_call2_v0_apply, val_main_call2_c_apply] at h1
      have h0 : (0#32 : BitVec 32).toInt = 0 := by decide
      rw [h0] at h1
      omega)
  rw [val_main_call2_v5_apply,
    show idx_main_call2_v5 (ix3 p (0 : Fin 1) (0 : Fin 1)) = ix2 p (0 : Fin 1) from
      idx2_ext _ _ (by show ((p.val * 1 + 0) * 1 + 0) / 1 = p.val; omega) rfl,
    val_main_call2_v4_apply, val_main_call2_v1_apply, h33, hslt, select_zero]

/-- The in-range test of the gather is true everywhere. -/
theorem call2_v12c (j : S8192x1.Idx) : val_main_call2_v12 (F := Ideal) j = 1#1 := by
  unfold val_main_call2_v12
  refine reduce_andi_one _ _ (fun i => ?_) rfl j
  obtain ⟨p, b, c, rfl⟩ : ∃ (p : Fin 8192) (b c : Fin 1), i = ix3 p b c := ⟨i 0, i 1, i 2, eq_ix3 i⟩
  obtain rfl : b = 0 := Subsingleton.elim _ _
  obtain rfl : c = 0 := Subsingleton.elim _ _
  have hq := partner_lt p
  rw [val_main_call2_v11_apply, val_main_call2_v7_apply, val_main_call2_v10_apply, call2_v5c,
    val_main_call2_v6_apply, val_main_call2_c_2_apply, val_main_call2_v9_apply, val_main_call2_v8_apply,
    val_main_call2_c_1_apply]
  refine IntOp.andi_eq_one.2 ⟨IntOp.cmpi_sge.2 ?_, IntOp.cmpi_sle.2 ?_⟩
  · rw [toInt_ofNat_small _ hq, show (0#32 : BitVec 32).toInt = 0 from by decide]
    omega
  · rw [toInt_ofNat_small _ hq, show (8191#32 : BitVec 32).toInt = 8191 from by decide]
    omega

/-! ## The gathered entry -/

/-- Row p of the gather is the log-softmax at (p, partner p). -/
theorem v34c (x0 x1 : Spec.Arg) (p : Fin 8192) :
    val_main_v34 (F := Ideal) x0 x1 (ix2 p (0 : Fin 1))
      = val_main_v32 (F := Ideal) x0 x1 (ix2 p (Spec.partner p)) := by
  have hq := partner_lt p
  rw [val_main_v34_apply, call2_v12c, select_one]
  unfold val_main_call2_v13
  refine (gather_apply (val_main_v32 (F := Ideal) x0 x1) (val_main_call2_v5 (F := Ideal)) p).trans ?_
  refine congrArg (val_main_v32 (F := Ideal) x0 x1) (idx2_ext _ _ rfl ?_)
  show min (val_main_call2_v5 (F := Ideal) (ix3 p (0 : Fin 1) (0 : Fin 1))).toInt.toNat 8191 = (Spec.partner p).val
  rw [call2_v5c, toInt_ofNat_small _ hq, Int.toNat_natCast]
  omega

/-- Negated: the specification's row loss. -/
theorem v36c (x0 x1 : Spec.Arg) (p : Fin 8192) :
    val_main_v36 (F := Ideal) x0 x1 (ix1 p) = Spec.lossR (Spec.unit (Spec.join x0 x1)) p := by
  rw [val_main_v36_apply, val_main_v35_apply,
    show idx_main_v35 (ix1 p) = ix2 p (0 : Fin 1) from
      idx2_ext _ _ (by show p.val / 1 = p.val; omega) rfl,
    v34c, v32c]
  rfl

/-! ## The mean -/

/-- Rank-1 indices and their coordinate. -/
def idx1Equiv (n : Nat) : Fin n ≃ (⟨1, ![n]⟩ : Shape).Idx where
  toFun := ix1
  invFun j := j 0
  left_inv _ := rfl
  right_inv j := (eq_ix1 j).symm

theorem value (x0 x1 : Cert.Spec.Arg) :
    Cert.ReferenceIdeal.Read.val_main_v38 (F := Ideal) x0 x1 = fun _ => Cert.Spec.resultR x0 x1 := by
  funext i
  rw [val_main_v38_apply, val_main_v37_apply, ← Equiv.sum_comp (idx1Equiv 8192)]
  unfold Spec.resultR Spec.count
  refine congrArg₂ Ideal.div (congrArg (_ + ·) (Finset.sum_congr rfl fun p _ => ?_)) rfl
  exact v36c x0 x1 p

end Cert.RefSide

end
-- ==== Proof.RefFinite.lean ====
/-
  The precondition says every entry of both arrays is a real number.

  The printed predicate is the conjunction, over both arrays, of "every |x| is below +∞". An extended real whose
  absolute value max x (−x) is below +∞ is neither +∞ nor −∞.
-/
import proofs.«148196_j36515811951305_2_alg».proof.Pre_finite_inputs
import proofs.«148196_j36515811951305_2_alg».proof.Proof.Spec
import Idealize.ShloMosaic.Lib.ReduceAll
import Idealize.ShloMosaic.Lib.Affine
import Idealize.ShloMosaic.Lib.ValueIdx

noncomputable section

namespace Cert.RefSide

open Idealize.ShloMosaic

instance : Subsingleton Cert.Pre_finite_inputs.S_.Idx := ⟨fun a b => funext fun d => d.elim0⟩

/-- An extended real whose absolute value is below the word of +∞ is a real number. -/
theorem real_of_abs_lt (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have htop : FloatOps.ofBits (F := Ideal) .f32 0x7F800000#32 = (⊤ : EReal) := by
    simp [Ideal.ofBits, Ideal.ieee]
  rw [htop] at h
  change BitVec.ofBool (decide (max x (-x) < ⊤)) = 1#1 at h
  have h' : max x (-x) < ⊤ := by
    by_contra hc
    rw [show decide (max x (-x) < ⊤) = false from decide_eq_false hc] at h
    exact absurd h (by decide)
  induction x using EReal.rec with
  | bot => simp at h'
  | coe r => exact ⟨r, rfl⟩
  | top => simp at h'

theorem finite_of_pre [Cert.Pre_finite_inputs.Facts] (a b : Cert.Spec.Arg)
    (h : Cert.Pre_finite_inputs.fn (F := Ideal) a b = fun _ => 1#1) : Cert.Spec.Finite a b := by
  have h0 := congrFun h ValueIdx.ix0
  dsimp only [Cert.Pre_finite_inputs.fn] at h0
  obtain ⟨h1, h2⟩ := IntOp.andi_eq_one.1 h0
  exact ⟨fun i => real_of_abs_lt (a i) (Host.reduce_andi_all _ _ _ _ _ h1 i),
    fun i => real_of_abs_lt (b i) (Host.reduce_andi_all _ _ _ _ _ h2 i)⟩

end Cert.RefSide

end
-- ==== Proof.LibHloEnv.lean ====
/-
  Running a straight line of host operations with every intermediate value kept once. The library's fold
  `StableHlo.after ops V` gives what each buffer holds after the operations; reading it at the last result by
  rewriting re-derives every shared intermediate value at each of its uses. Here the fold is walked once, front to
  back, carrying an environment: a list of (buffer, value) pairs the current contents agree with, and the list of the
  buffers named so far. An operation whose operands are in the environment and whose result buffer is new (the
  program is in single-assignment form) extends the environment by its result; nothing else changes. At the end the
  environment holds the result buffers' values as terms of the launch contents, and the argument buffers unchanged.
  The walk is in continuation form, so that a proof is one `refine` per operation.
-/
import Idealize.ShloMosaic.Lib.StableHlo.Run

noncomputable section

namespace HloEnv

open Idealize.ShloMosaic Idealize.ShloMosaic.StableHlo Idealize.ShloMosaic.TcCoe

variable {τ : Topo} {sig : RefSig} {Val : EltTy → Type}

/-- A buffer with a value of its type. -/
abbrev Entry (sig : RefSig) (Val : EltTy → Type) : Type := (r : Ref sig .tc) × r.ty.Contents Val

/-- The contents `W` hold, at every buffer of the environment, the value listed for it; `keys` are the environment's
    buffers in order (kept apart so that "this buffer is new" is a closed, decidable fact about references). -/
structure Inv (W : Valuation τ sig Val) (keys : List (Ref sig .tc)) (env : List (Entry sig Val)) : Prop where
  agrees : ∀ p ∈ env, W (Proc.devRef .tc p.1) = p.2
  keys_eq : env.map Sigma.fst = keys

theorem Inv.fresh {W : Valuation τ sig Val} {keys : List (Ref sig .tc)} {env : List (Entry sig Val)} (h : Inv W keys env)
    {y : Ref sig .tc} (hy : y ∉ keys) : ∀ p ∈ env, p.1 ≠ y := fun p hp e =>
  hy (h.keys_eq ▸ e ▸ List.mem_map_of_mem (f := Sigma.fst) hp)

/-- The start: the launch contents agree with themselves at the listed buffers. -/
theorem Inv.start (V : Valuation τ sig Val) (rs : List (Ref sig .tc)) :
    Inv V rs (rs.map fun r => ⟨r, V (Proc.devRef .tc r)⟩) where
  agrees p hp := by
    obtain ⟨r, -, rfl⟩ := List.mem_map.mp hp
    rfl
  keys_eq := by
    rw [List.map_map]
    exact List.map_id' _ |>.symm ▸ rfl

/-- The start, for two argument buffers. -/
theorem Inv.start2 (V : Valuation τ sig Val) (a b : Ref sig .tc) :
    Inv V [a, b] [⟨a, V (Proc.devRef .tc a)⟩, ⟨b, V (Proc.devRef .tc b)⟩] where
  agrees p hp := by
    rcases List.mem_cons.mp hp with rfl | hp
    · rfl
    · rcases List.mem_cons.mp hp with rfl | hp
      · rfl
      · exact absurd hp (List.not_mem_nil)
  keys_eq := rfl

variable {W : Valuation τ sig Val} {keys : List (Ref sig .tc)} {env : List (Entry sig Val)}
  {Q : Valuation τ sig Val → Prop} {rest : List (HloOp τ sig Val)}

/-- The environment after an operation that wrote only the new buffer `y`, with value `v` there. -/
theorem Inv.extend (h : Inv W keys env) (op : HloOp τ sig Val) (y : Ref sig .tc) (v : y.ty.Contents Val)
    (hy : y ∉ keys) (hres : op.result W (Proc.devRef .tc y) = v)
    (hne : ∀ r : Ref sig .tc, r ≠ y → op.result W (Proc.devRef .tc r) = W (Proc.devRef .tc r)) :
    Inv (op.result W) (y :: keys) (⟨y, v⟩ :: env) where
  agrees p hp := by
    rcases List.mem_cons.mp hp with rfl | hp
    · exact hres
    · rw [hne p.1 (h.fresh hy p hp)]; exact h.agrees p hp
  keys_eq := by rw [List.map_cons, h.keys_eq]

theorem step_nullary (y : Ref sig .tc) (v : y.ty.Contents Val) (hy') (hy : y ∉ keys)
    (k : ∀ W', Inv W' (y :: keys) (⟨y, v⟩ :: env) → Q (after rest W')) :
    Inv W keys env → Q (after (nullary (τ := τ) y v hy' :: rest) W) := fun h =>
  k _ (h.extend _ y v hy (nullary_result y v hy' W) fun _ hr => nullary_result_ne y v hy' W hr)

theorem step_unary (x y : Ref sig .tc) (f : x.ty.Contents Val → y.ty.Contents Val) (hx' hy')
    (vx : x.ty.Contents Val) (hmx : (⟨x, vx⟩ : Entry sig Val) ∈ env) (hy : y ∉ keys)
    (k : ∀ W', Inv W' (y :: keys) (⟨y, f vx⟩ :: env) → Q (after rest W')) :
    Inv W keys env → Q (after (unary (τ := τ) x y f hx' hy' :: rest) W) := fun h =>
  k _ (h.extend _ y (f vx) hy ((unary_result x y f hx' hy' W).trans (congrArg f (h.agrees _ hmx)))
    fun _ hr => unary_result_ne x y f hx' hy' W hr)

theorem step_binary (a b y : Ref sig .tc) (f : a.ty.Contents Val → b.ty.Contents Val → y.ty.Contents Val) (ha' hb' hy')
    (va : a.ty.Contents Val) (vb : b.ty.Contents Val) (hma : (⟨a, va⟩ : Entry sig Val) ∈ env)
    (hmb : (⟨b, vb⟩ : Entry sig Val) ∈ env) (hy : y ∉ keys)
    (k : ∀ W', Inv W' (y :: keys) (⟨y, f va vb⟩ :: env) → Q (after rest W')) :
    Inv W keys env → Q (after (binary (τ := τ) a b y f ha' hb' hy' :: rest) W) := fun h =>
  k _ (h.extend _ y (f va vb) hy
    ((binary_result a b y f ha' hb' hy' W).trans (congrArg₂ f (h.agrees _ hma) (h.agrees _ hmb)))
    fun _ hr => binary_result_ne a b y f ha' hb' hy' W hr)

theorem step_ternary (c a b y : Ref sig .tc)
    (f : c.ty.Contents Val → a.ty.Contents Val → b.ty.Contents Val → y.ty.Contents Val) (hc' ha' hb' hy')
    (vc : c.ty.Contents Val) (va : a.ty.Contents Val) (vb : b.ty.Contents Val) (hmc : (⟨c, vc⟩ : Entry sig Val) ∈ env)
    (hma : (⟨a, va⟩ : Entry sig Val) ∈ env) (hmb : (⟨b, vb⟩ : Entry sig Val) ∈ env) (hy : y ∉ keys)
    (k : ∀ W', Inv W' (y :: keys) (⟨y, f vc va vb⟩ :: env) → Q (after rest W')) :
    Inv W keys env → Q (after (ternary (τ := τ) c a b y f hc' ha' hb' hy' :: rest) W) := fun h =>
  k _ (h.extend _ y (f vc va vb) hy
    ((ternary_result c a b y f hc' ha' hb' hy' W).trans (by rw [h.agrees _ hmc, h.agrees _ hma, h.agrees _ hmb]))
    fun _ hr => ternary_result_ne a b c y f hc' ha' hb' hy' W hr)

theorem step_reshape (x y : Ref sig .tc) (he : x.ty.elt = y.ty.elt) (hn : x.ty.shape.ShapeCasts y.ty.shape) (hx' hy')
    (vx : x.ty.Contents Val) (hmx : (⟨x, vx⟩ : Entry sig Val) ∈ env) (hy : y ∉ keys)
    (k : ∀ W', Inv W' (y :: keys) (⟨y, fun i => he ▸ shapeCast y.ty.shape vx hn i⟩ :: env) → Q (after rest W')) :
    Inv W keys env → Q (after (reshape (τ := τ) (Val := Val) x y he hn hx' hy' :: rest) W) := fun h =>
  k _ (h.extend _ y _ hy ((reshape_result x y he hn hx' hy' W).trans (by rw [h.agrees _ hmx]))
    fun _ hr => reshape_result_ne x y he hn hx' hy' W hr)

/-- The fold over a concatenation is the fold over the second list from the fold over the first. -/
theorem after_append : ∀ (l₁ l₂ : List (HloOp τ sig Val)) (V : Valuation τ sig Val), after (l₁ ++ l₂) V = after l₂ (after l₁ V)
  | [], _, _ => rfl
  | op :: l₁, l₂, V => after_append l₁ l₂ (op.result V)

/-- "After the operations `l` more, `Q`": what is still owed when a line is walked one stretch at a time. -/
def Then (l : List (HloOp τ sig Val)) (Q : Valuation τ sig Val → Prop) (W : Valuation τ sig Val) : Prop := Q (after l W)

/-- A line that is two stretches: walk the first, owing the second. -/
theorem step_append (l₁ l₂ : List (HloOp τ sig Val)) (k : Inv W keys env → Then l₂ Q (after l₁ W)) :
    Inv W keys env → Q (after (l₁ ++ l₂) W) := fun h => by
  rw [after_append]; exact k h

/-- The end of a stretch: go on with what is owed. -/
theorem step_then (l₂ : List (HloOp τ sig Val)) (k : Inv W keys env → Q (after l₂ W)) :
    Inv W keys env → Then l₂ Q (after ([] : List (HloOp τ sig Val)) W) := k

/-- The end of the line. -/
theorem step_nil (k : Inv W keys env → Q W) : Inv W keys env → Q (after ([] : List (HloOp τ sig Val)) W) := k

/-- Finds a buffer's entry in the environment, newest first. -/
macro "env_mem" : tactic => `(tactic| repeat (first | exact List.Mem.head _ | apply List.Mem.tail))

open Lean Elab Tactic Meta in
/-- One operation of the line: the goal is `Inv W keys env → Q (after (op :: rest) W)`; the builder that `op` is
    decides which step applies. -/
elab "hlo_step" : tactic => withMainContext do
  let g ← getMainGoal
  let t ← instantiateMVars (← g.getType)
  let some (_, body) := t.arrow? | throwError "hlo_step: the goal is not an implication"
  let aft := body.appArg!
  unless aft.isAppOf ``Idealize.ShloMosaic.StableHlo.after do throwError "hlo_step: no fold in the goal"
  let L ← whnf aft.appFn!.appArg!
  unless L.isAppOfArity ``List.cons 3 do throwError "hlo_step: the line has ended"
  let op ← whnfR (L.getArg! 1)
  match op.getAppFn.constName? with
  | some n =>
    if n == ``Idealize.ShloMosaic.StableHlo.binary then
      evalTactic (← `(tactic| (refine step_binary _ _ _ _ _ _ _ ?va ?vb ?hma ?hmb (by decide +kernel) (fun W' => ?k)
                               case hma => env_mem
                               case hmb => env_mem)))
    else if n == ``Idealize.ShloMosaic.StableHlo.unary then
      evalTactic (← `(tactic| (refine step_unary _ _ _ _ _ ?vx ?hmx (by decide +kernel) (fun W' => ?k)
                               case hmx => env_mem)))
    else if n == ``Idealize.ShloMosaic.StableHlo.nullary then
      evalTactic (← `(tactic| refine step_nullary _ _ _ (by decide +kernel) (fun W' => ?k)))
    else if n == ``Idealize.ShloMosaic.StableHlo.reshape then
      evalTactic (← `(tactic| (refine step_reshape _ _ _ _ _ _ ?vx ?hmx (by decide +kernel) (fun W' => ?k)
                               case hmx => env_mem)))
    else if n == ``Idealize.ShloMosaic.StableHlo.ternary then
      evalTactic (← `(tactic| (refine step_ternary _ _ _ _ _ _ _ _ _ ?vc ?va ?vb ?hmc ?hma ?hmb (by decide +kernel) (fun W' => ?k)
                               case hmc => env_mem
                               case hma => env_mem
                               case hmb => env_mem)))
    else throwError "hlo_step: no step for the builder {n}"
  | none => throwError "hlo_step: the operation is no builder's: {op}"

end HloEnv

end
-- ==== Proof.RefRun.lean ====
/-
  The reference's run: every weakly fair execution of its 86 host operations ends with the result buffer at the last
  stage's value of the two argument arrays, and the arguments unchanged.

  The fold of the operations over the launch contents is walked once, front to back, with an environment that names
  each buffer's value by its stage, so that a value shared by several later operations is never written out twice.
  An operation of a called function moves its operands and result along the equality of a buffer's type with the
  value's type; at the literal buffers of this program that move is the identity, stated once per such operation
  with the operands as variables.
-/
import proofs.«148196_j36515811951305_2_alg».proof.Proof.RefRunGen
import proofs.«148196_j36515811951305_2_alg».proof.Proof.RefReadGen
import proofs.«148196_j36515811951305_2_alg».proof.Proof.LibHloEnv

noncomputable section

namespace Cert.RefSide

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo HloEnv

variable {F : FTy → Type} [FloatOps F]

/-- The newest entry's value may be replaced by an equal one. -/
theorem _root_.HloEnv.Inv.clean_head {τ : Topo} {sig : RefSig} {Val : EltTy → Type} {W : Valuation τ sig Val}
    {keys : List (Ref sig .tc)} {env : List (Entry sig Val)} {y : Ref sig .tc} {v v' : y.ty.Contents Val} {P : Prop}
    (e : v = v') (k : Inv W keys (⟨y, v'⟩ :: env) → P) : Inv W keys (⟨y, v⟩ :: env) → P := fun h => k (e ▸ h)

/-! ## The called functions' operations at this program's buffers -/

/-- A move along an equality of a type with itself is the identity. -/
theorem cast_self {α : Type} (h : α = α) (a : α) : cast h a = a := rfl

set_option maxRecDepth 8192 in
theorem clean_main_call0_v0 (v0 : (⟨S_, .f32⟩ : BufTy).Contents (Elt F)) :
    TRef.toBuf (Val := Elt F) (TRef.of (sig := sig) (T := ⟨S_, .f32⟩) main_call0_v0) ((id : (⟨S_, .f32⟩ : BufTy).Contents (Elt F) → (⟨S_, .f32⟩ : BufTy).Contents (Elt F)) (TRef.ofBuf (Val := Elt F) (TRef.of (sig := sig) (T := ⟨S_, .f32⟩) main_cst_4) v0)) = (id : (⟨S_, .f32⟩ : BufTy).Contents (Elt F) → (⟨S_, .f32⟩ : BufTy).Contents (Elt F)) v0 :=
  (cast_self _ _).trans (congrArg (id : (⟨S_, .f32⟩ : BufTy).Contents (Elt F) → (⟨S_, .f32⟩ : BufTy).Contents (Elt F)) (cast_self _ v0))
set_option maxRecDepth 8192 in
theorem clean_main_call0_v1 (v0 : (⟨S_, .f32⟩ : BufTy).Contents (Elt F)) :
    TRef.toBuf (Val := Elt F) (TRef.of (sig := sig) (T := ⟨S8192x8192, .f32⟩) main_call0_v1) (((broadcastInDim S8192x8192 ![] bcast_S_S8192x8192) : (⟨S_, .f32⟩ : BufTy).Contents (Elt F) → (⟨S8192x8192, .f32⟩ : BufTy).Contents (Elt F)) (TRef.ofBuf (Val := Elt F) (TRef.of (sig := sig) (T := ⟨S_, .f32⟩) main_call0_v0) v0)) = ((broadcastInDim S8192x8192 ![] bcast_S_S8192x8192) : (⟨S_, .f32⟩ : BufTy).Contents (Elt F) → (⟨S8192x8192, .f32⟩ : BufTy).Contents (Elt F)) v0 :=
  (cast_self _ _).trans (congrArg ((broadcastInDim S8192x8192 ![] bcast_S_S8192x8192) : (⟨S_, .f32⟩ : BufTy).Contents (Elt F) → (⟨S8192x8192, .f32⟩ : BufTy).Contents (Elt F)) (cast_self _ v0))
set_option maxRecDepth 8192 in
theorem clean_main_v26 (v0 : (⟨S8192x8192, .i1⟩ : BufTy).Contents (Elt F)) (v1 : (⟨S8192x8192, .f32⟩ : BufTy).Contents (Elt F)) (v2 : (⟨S8192x8192, .f32⟩ : BufTy).Contents (Elt F)) :
    TRef.toBuf (Val := Elt F) (TRef.of (sig := sig) (T := ⟨S8192x8192, .f32⟩) main_v26) ((select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) (TRef.ofBuf (Val := Elt F) (TRef.of (sig := sig) (T := ⟨S8192x8192, .i1⟩) main_v25) v0) (TRef.ofBuf (Val := Elt F) (TRef.of (sig := sig) (T := ⟨S8192x8192, .f32⟩) main_call0_v1) v1) (TRef.ofBuf (Val := Elt F) (TRef.of (sig := sig) (T := ⟨S8192x8192, .f32⟩) main_v20) v2)) = (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) v0 v1 v2 :=
  (cast_self _ _).trans ((congrArg (fun t => (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) t (TRef.ofBuf (Val := Elt F) (TRef.of (sig := sig) (T := ⟨S8192x8192, .f32⟩) main_call0_v1) v1) (TRef.ofBuf (Val := Elt F) (TRef.of (sig := sig) (T := ⟨S8192x8192, .f32⟩) main_v20) v2)) (cast_self _ v0)).trans
      ((congrArg (fun t => (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) v0 t (TRef.ofBuf (Val := Elt F) (TRef.of (sig := sig) (T := ⟨S8192x8192, .f32⟩) main_v20) v2)) (cast_self _ v1)).trans (congrArg (fun t => (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) v0 v1 t) (cast_self _ v2))))
set_option maxRecDepth 8192 in
theorem clean_main_call1_v0 (v0 : (⟨S8192x8192, .f32⟩ : BufTy).Contents (Elt F)) (v1 : (⟨S_, .f32⟩ : BufTy).Contents (Elt F)) :
    TRef.toBuf (Val := Elt F) (TRef.of (sig := sig) (T := ⟨S8192, .f32⟩) main_call1_v0) (((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (TRef.ofBuf (Val := Elt F) (TRef.of (sig := sig) (T := ⟨S8192x8192, .f32⟩) main_v26) v0) (TRef.ofBuf (Val := Elt F) (TRef.of (sig := sig) (T := ⟨S_, .f32⟩) main_call1_cst) v1)) = ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) v0 v1 :=
  (cast_self _ _).trans (congrArg₂ ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) (cast_self _ v0) (cast_self _ v1))
set_option maxRecDepth 8192 in
theorem clean_main_call1_v1 (v0 : (⟨S_, .f32⟩ : BufTy).Contents (Elt F)) :
    TRef.toBuf (Val := Elt F) (TRef.of (sig := sig) (T := ⟨S8192, .f32⟩) main_call1_v1) (((broadcastInDim S8192 ![] bcast_S_S8192) : (⟨S_, .f32⟩ : BufTy).Contents (Elt F) → (⟨S8192, .f32⟩ : BufTy).Contents (Elt F)) (TRef.ofBuf (Val := Elt F) (TRef.of (sig := sig) (T := ⟨S_, .f32⟩) main_call1_cst_0) v0)) = ((broadcastInDim S8192 ![] bcast_S_S8192) : (⟨S_, .f32⟩ : BufTy).Contents (Elt F) → (⟨S8192, .f32⟩ : BufTy).Contents (Elt F)) v0 :=
  (cast_self _ _).trans (congrArg ((broadcastInDim S8192 ![] bcast_S_S8192) : (⟨S_, .f32⟩ : BufTy).Contents (Elt F) → (⟨S8192, .f32⟩ : BufTy).Contents (Elt F)) (cast_self _ v0))
set_option maxRecDepth 8192 in
theorem clean_main_call1_v2 (v0 : (⟨S8192, .f32⟩ : BufTy).Contents (Elt F)) (v1 : (⟨S8192, .f32⟩ : BufTy).Contents (Elt F)) :
    TRef.toBuf (Val := Elt F) (TRef.of (sig := sig) (T := ⟨S8192, .f32⟩) main_call1_v2) ((maximumf : (⟨S8192, .f32⟩ : BufTy).Contents (Elt F) → (⟨S8192, .f32⟩ : BufTy).Contents (Elt F) → (⟨S8192, .f32⟩ : BufTy).Contents (Elt F)) (TRef.ofBuf (Val := Elt F) (TRef.of (sig := sig) (T := ⟨S8192, .f32⟩) main_call1_v1) v0) (TRef.ofBuf (Val := Elt F) (TRef.of (sig := sig) (T := ⟨S8192, .f32⟩) main_call1_v0) v1)) = (maximumf : (⟨S8192, .f32⟩ : BufTy).Contents (Elt F) → (⟨S8192, .f32⟩ : BufTy).Contents (Elt F) → (⟨S8192, .f32⟩ : BufTy).Contents (Elt F)) v0 v1 :=
  (cast_self _ _).trans (congrArg₂ (maximumf : (⟨S8192, .f32⟩ : BufTy).Contents (Elt F) → (⟨S8192, .f32⟩ : BufTy).Contents (Elt F) → (⟨S8192, .f32⟩ : BufTy).Contents (Elt F)) (cast_self _ v0) (cast_self _ v1))
set_option maxRecDepth 8192 in
theorem clean_main_call1_v3 (v0 : (⟨S8192, .f32⟩ : BufTy).Contents (Elt F)) :
    TRef.toBuf (Val := Elt F) (TRef.of (sig := sig) (T := ⟨S8192x1, .f32⟩) main_call1_v3) (((broadcastInDim S8192x1 ![0] bcast_S8192_S8192x1_0) : (⟨S8192, .f32⟩ : BufTy).Contents (Elt F) → (⟨S8192x1, .f32⟩ : BufTy).Contents (Elt F)) (TRef.ofBuf (Val := Elt F) (TRef.of (sig := sig) (T := ⟨S8192, .f32⟩) main_call1_v2) v0)) = ((broadcastInDim S8192x1 ![0] bcast_S8192_S8192x1_0) : (⟨S8192, .f32⟩ : BufTy).Contents (Elt F) → (⟨S8192x1, .f32⟩ : BufTy).Contents (Elt F)) v0 :=
  (cast_self _ _).trans (congrArg ((broadcastInDim S8192x1 ![0] bcast_S8192_S8192x1_0) : (⟨S8192, .f32⟩ : BufTy).Contents (Elt F) → (⟨S8192x1, .f32⟩ : BufTy).Contents (Elt F)) (cast_self _ v0))
set_option maxRecDepth 8192 in
theorem clean_main_call1_v4 (v0 : (⟨S8192x1, .f32⟩ : BufTy).Contents (Elt F)) :
    TRef.toBuf (Val := Elt F) (TRef.of (sig := sig) (T := ⟨S8192x8192, .f32⟩) main_call1_v4) (((broadcastInDim S8192x8192 ![0, 1] bcast_S8192x1_S8192x8192_0_1) : (⟨S8192x1, .f32⟩ : BufTy).Contents (Elt F) → (⟨S8192x8192, .f32⟩ : BufTy).Contents (Elt F)) (TRef.ofBuf (Val := Elt F) (TRef.of (sig := sig) (T := ⟨S8192x1, .f32⟩) main_call1_v3) v0)) = ((broadcastInDim S8192x8192 ![0, 1] bcast_S8192x1_S8192x8192_0_1) : (⟨S8192x1, .f32⟩ : BufTy).Contents (Elt F) → (⟨S8192x8192, .f32⟩ : BufTy).Contents (Elt F)) v0 :=
  (cast_self _ _).trans (congrArg ((broadcastInDim S8192x8192 ![0, 1] bcast_S8192x1_S8192x8192_0_1) : (⟨S8192x1, .f32⟩ : BufTy).Contents (Elt F) → (⟨S8192x8192, .f32⟩ : BufTy).Contents (Elt F)) (cast_self _ v0))
set_option maxRecDepth 8192 in
theorem clean_main_call1_v5 (v0 : (⟨S8192x8192, .f32⟩ : BufTy).Contents (Elt F)) (v1 : (⟨S8192x8192, .f32⟩ : BufTy).Contents (Elt F)) :
    TRef.toBuf (Val := Elt F) (TRef.of (sig := sig) (T := ⟨S8192x8192, .f32⟩) main_call1_v5) ((subf : (⟨S8192x8192, .f32⟩ : BufTy).Contents (Elt F) → (⟨S8192x8192, .f32⟩ : BufTy).Contents (Elt F) → (⟨S8192x8192, .f32⟩ : BufTy).Contents (Elt F)) (TRef.ofBuf (Val := Elt F) (TRef.of (sig := sig) (T := ⟨S8192x8192, .f32⟩) main_v26) v0) (TRef.ofBuf (Val := Elt F) (TRef.of (sig := sig) (T := ⟨S8192x8192, .f32⟩) main_call1_v4) v1)) = (subf : (⟨S8192x8192, .f32⟩ : BufTy).Contents (Elt F) → (⟨S8192x8192, .f32⟩ : BufTy).Contents (Elt F) → (⟨S8192x8192, .f32⟩ : BufTy).Contents (Elt F)) v0 v1 :=
  (cast_self _ _).trans (congrArg₂ (subf : (⟨S8192x8192, .f32⟩ : BufTy).Contents (Elt F) → (⟨S8192x8192, .f32⟩ : BufTy).Contents (Elt F) → (⟨S8192x8192, .f32⟩ : BufTy).Contents (Elt F)) (cast_self _ v0) (cast_self _ v1))
set_option maxRecDepth 8192 in
theorem clean_main_call1_v6 (v0 : (⟨S8192x8192, .f32⟩ : BufTy).Contents (Elt F)) :
    TRef.toBuf (Val := Elt F) (TRef.of (sig := sig) (T := ⟨S8192x8192, .f32⟩) main_call1_v6) ((Host.exp : (⟨S8192x8192, .f32⟩ : BufTy).Contents (Elt F) → (⟨S8192x8192, .f32⟩ : BufTy).Contents (Elt F)) (TRef.ofBuf (Val := Elt F) (TRef.of (sig := sig) (T := ⟨S8192x8192, .f32⟩) main_call1_v5) v0)) = (Host.exp : (⟨S8192x8192, .f32⟩ : BufTy).Contents (Elt F) → (⟨S8192x8192, .f32⟩ : BufTy).Contents (Elt F)) v0 :=
  (cast_self _ _).trans (congrArg (Host.exp : (⟨S8192x8192, .f32⟩ : BufTy).Contents (Elt F) → (⟨S8192x8192, .f32⟩ : BufTy).Contents (Elt F)) (cast_self _ v0))
set_option maxRecDepth 8192 in
theorem clean_main_call1_v7 (v0 : (⟨S8192x8192, .f32⟩ : BufTy).Contents (Elt F)) (v1 : (⟨S_, .f32⟩ : BufTy).Contents (Elt F)) :
    TRef.toBuf (Val := Elt F) (TRef.of (sig := sig) (T := ⟨S8192, .f32⟩) main_call1_v7) (((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (TRef.ofBuf (Val := Elt F) (TRef.of (sig := sig) (T := ⟨S8192x8192, .f32⟩) main_call1_v6) v0) (TRef.ofBuf (Val := Elt F) (TRef.of (sig := sig) (T := ⟨S_, .f32⟩) main_call1_cst_1) v1)) = ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) v0 v1 :=
  (cast_self _ _).trans (congrArg₂ ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) (cast_self _ v0) (cast_self _ v1))
set_option maxRecDepth 8192 in
theorem clean_main_call1_v8 (v0 : (⟨S8192, .f32⟩ : BufTy).Contents (Elt F)) :
    TRef.toBuf (Val := Elt F) (TRef.of (sig := sig) (T := ⟨S8192x1, .f32⟩) main_call1_v8) (((broadcastInDim S8192x1 ![0] bcast_S8192_S8192x1_0) : (⟨S8192, .f32⟩ : BufTy).Contents (Elt F) → (⟨S8192x1, .f32⟩ : BufTy).Contents (Elt F)) (TRef.ofBuf (Val := Elt F) (TRef.of (sig := sig) (T := ⟨S8192, .f32⟩) main_call1_v7) v0)) = ((broadcastInDim S8192x1 ![0] bcast_S8192_S8192x1_0) : (⟨S8192, .f32⟩ : BufTy).Contents (Elt F) → (⟨S8192x1, .f32⟩ : BufTy).Contents (Elt F)) v0 :=
  (cast_self _ _).trans (congrArg ((broadcastInDim S8192x1 ![0] bcast_S8192_S8192x1_0) : (⟨S8192, .f32⟩ : BufTy).Contents (Elt F) → (⟨S8192x1, .f32⟩ : BufTy).Contents (Elt F)) (cast_self _ v0))
set_option maxRecDepth 8192 in
theorem clean_main_call1_v9 (v0 : (⟨S8192x1, .f32⟩ : BufTy).Contents (Elt F)) :
    TRef.toBuf (Val := Elt F) (TRef.of (sig := sig) (T := ⟨S8192x1, .f32⟩) main_call1_v9) ((Host.log : (⟨S8192x1, .f32⟩ : BufTy).Contents (Elt F) → (⟨S8192x1, .f32⟩ : BufTy).Contents (Elt F)) (TRef.ofBuf (Val := Elt F) (TRef.of (sig := sig) (T := ⟨S8192x1, .f32⟩) main_call1_v8) v0)) = (Host.log : (⟨S8192x1, .f32⟩ : BufTy).Contents (Elt F) → (⟨S8192x1, .f32⟩ : BufTy).Contents (Elt F)) v0 :=
  (cast_self _ _).trans (congrArg (Host.log : (⟨S8192x1, .f32⟩ : BufTy).Contents (Elt F) → (⟨S8192x1, .f32⟩ : BufTy).Contents (Elt F)) (cast_self _ v0))
set_option maxRecDepth 8192 in
theorem clean_main_call1_v10 (v0 : (⟨S8192x1, .f32⟩ : BufTy).Contents (Elt F)) :
    TRef.toBuf (Val := Elt F) (TRef.of (sig := sig) (T := ⟨S8192x8192, .f32⟩) main_call1_v10) (((broadcastInDim S8192x8192 ![0, 1] bcast_S8192x1_S8192x8192_0_1) : (⟨S8192x1, .f32⟩ : BufTy).Contents (Elt F) → (⟨S8192x8192, .f32⟩ : BufTy).Contents (Elt F)) (TRef.ofBuf (Val := Elt F) (TRef.of (sig := sig) (T := ⟨S8192x1, .f32⟩) main_call1_v9) v0)) = ((broadcastInDim S8192x8192 ![0, 1] bcast_S8192x1_S8192x8192_0_1) : (⟨S8192x1, .f32⟩ : BufTy).Contents (Elt F) → (⟨S8192x8192, .f32⟩ : BufTy).Contents (Elt F)) v0 :=
  (cast_self _ _).trans (congrArg ((broadcastInDim S8192x8192 ![0, 1] bcast_S8192x1_S8192x8192_0_1) : (⟨S8192x1, .f32⟩ : BufTy).Contents (Elt F) → (⟨S8192x8192, .f32⟩ : BufTy).Contents (Elt F)) (cast_self _ v0))
set_option maxRecDepth 8192 in
theorem clean_main_v32 (v0 : (⟨S8192x8192, .f32⟩ : BufTy).Contents (Elt F)) (v1 : (⟨S8192x8192, .f32⟩ : BufTy).Contents (Elt F)) :
    TRef.toBuf (Val := Elt F) (TRef.of (sig := sig) (T := ⟨S8192x8192, .f32⟩) main_v32) ((subf : (⟨S8192x8192, .f32⟩ : BufTy).Contents (Elt F) → (⟨S8192x8192, .f32⟩ : BufTy).Contents (Elt F) → (⟨S8192x8192, .f32⟩ : BufTy).Contents (Elt F)) (TRef.ofBuf (Val := Elt F) (TRef.of (sig := sig) (T := ⟨S8192x8192, .f32⟩) main_call1_v5) v0) (TRef.ofBuf (Val := Elt F) (TRef.of (sig := sig) (T := ⟨S8192x8192, .f32⟩) main_call1_v10) v1)) = (subf : (⟨S8192x8192, .f32⟩ : BufTy).Contents (Elt F) → (⟨S8192x8192, .f32⟩ : BufTy).Contents (Elt F) → (⟨S8192x8192, .f32⟩ : BufTy).Contents (Elt F)) v0 v1 :=
  (cast_self _ _).trans (congrArg₂ (subf : (⟨S8192x8192, .f32⟩ : BufTy).Contents (Elt F) → (⟨S8192x8192, .f32⟩ : BufTy).Contents (Elt F) → (⟨S8192x8192, .f32⟩ : BufTy).Contents (Elt F)) (cast_self _ v0) (cast_self _ v1))
set_option maxRecDepth 8192 in
theorem clean_main_call2_v0 (v0 : (⟨S_, .i32⟩ : BufTy).Contents (Elt F)) :
    TRef.toBuf (Val := Elt F) (TRef.of (sig := sig) (T := ⟨S8192x1, .i32⟩) main_call2_v0) (((broadcastInDim S8192x1 ![] bcast_S_S8192x1) : (⟨S_, .i32⟩ : BufTy).Contents (Elt F) → (⟨S8192x1, .i32⟩ : BufTy).Contents (Elt F)) (TRef.ofBuf (Val := Elt F) (TRef.of (sig := sig) (T := ⟨S_, .i32⟩) main_call2_c) v0)) = ((broadcastInDim S8192x1 ![] bcast_S_S8192x1) : (⟨S_, .i32⟩ : BufTy).Contents (Elt F) → (⟨S8192x1, .i32⟩ : BufTy).Contents (Elt F)) v0 :=
  (cast_self _ _).trans (congrArg ((broadcastInDim S8192x1 ![] bcast_S_S8192x1) : (⟨S_, .i32⟩ : BufTy).Contents (Elt F) → (⟨S8192x1, .i32⟩ : BufTy).Contents (Elt F)) (cast_self _ v0))
set_option maxRecDepth 8192 in
theorem clean_main_call2_v1 (v0 : (⟨S8192x1, .i32⟩ : BufTy).Contents (Elt F)) (v1 : (⟨S8192x1, .i32⟩ : BufTy).Contents (Elt F)) :
    TRef.toBuf (Val := Elt F) (TRef.of (sig := sig) (T := ⟨S8192x1, .i1⟩) main_call2_v1) (((cmpi .slt) : (⟨S8192x1, .i32⟩ : BufTy).Contents (Elt F) → (⟨S8192x1, .i32⟩ : BufTy).Contents (Elt F) → (⟨S8192x1, .i1⟩ : BufTy).Contents (Elt F)) (TRef.ofBuf (Val := Elt F) (TRef.of (sig := sig) (T := ⟨S8192x1, .i32⟩) main_v33) v0) (TRef.ofBuf (Val := Elt F) (TRef.of (sig := sig) (T := ⟨S8192x1, .i32⟩) main_call2_v0) v1)) = ((cmpi .slt) : (⟨S8192x1, .i32⟩ : BufTy).Contents (Elt F) → (⟨S8192x1, .i32⟩ : BufTy).Contents (Elt F) → (⟨S8192x1, .i1⟩ : BufTy).Contents (Elt F)) v0 v1 :=
  (cast_self _ _).trans (congrArg₂ ((cmpi .slt) : (⟨S8192x1, .i32⟩ : BufTy).Contents (Elt F) → (⟨S8192x1, .i32⟩ : BufTy).Contents (Elt F) → (⟨S8192x1, .i1⟩ : BufTy).Contents (Elt F)) (cast_self _ v0) (cast_self _ v1))
set_option maxRecDepth 8192 in
theorem clean_main_call2_v2 (v0 : (⟨S_, .i32⟩ : BufTy).Contents (Elt F)) :
    TRef.toBuf (Val := Elt F) (TRef.of (sig := sig) (T := ⟨S8192x1, .i32⟩) main_call2_v2) (((broadcastInDim S8192x1 ![] bcast_S_S8192x1) : (⟨S_, .i32⟩ : BufTy).Contents (Elt F) → (⟨S8192x1, .i32⟩ : BufTy).Contents (Elt F)) (TRef.ofBuf (Val := Elt F) (TRef.of (sig := sig) (T := ⟨S_, .i32⟩) main_call2_c_0) v0)) = ((broadcastInDim S8192x1 ![] bcast_S_S8192x1) : (⟨S_, .i32⟩ : BufTy).Contents (Elt F) → (⟨S8192x1, .i32⟩ : BufTy).Contents (Elt F)) v0 :=
  (cast_self _ _).trans (congrArg ((broadcastInDim S8192x1 ![] bcast_S_S8192x1) : (⟨S_, .i32⟩ : BufTy).Contents (Elt F) → (⟨S8192x1, .i32⟩ : BufTy).Contents (Elt F)) (cast_self _ v0))
set_option maxRecDepth 8192 in
theorem clean_main_call2_v3 (v0 : (⟨S8192x1, .i32⟩ : BufTy).Contents (Elt F)) (v1 : (⟨S8192x1, .i32⟩ : BufTy).Contents (Elt F)) :
    TRef.toBuf (Val := Elt F) (TRef.of (sig := sig) (T := ⟨S8192x1, .i32⟩) main_call2_v3) ((addi : (⟨S8192x1, .i32⟩ : BufTy).Contents (Elt F) → (⟨S8192x1, .i32⟩ : BufTy).Contents (Elt F) → (⟨S8192x1, .i32⟩ : BufTy).Contents (Elt F)) (TRef.ofBuf (Val := Elt F) (TRef.of (sig := sig) (T := ⟨S8192x1, .i32⟩) main_v33) v0) (TRef.ofBuf (Val := Elt F) (TRef.of (sig := sig) (T := ⟨S8192x1, .i32⟩) main_call2_v2) v1)) = (addi : (⟨S8192x1, .i32⟩ : BufTy).Contents (Elt F) → (⟨S8192x1, .i32⟩ : BufTy).Contents (Elt F) → (⟨S8192x1, .i32⟩ : BufTy).Contents (Elt F)) v0 v1 :=
  (cast_self _ _).trans (congrArg₂ (addi : (⟨S8192x1, .i32⟩ : BufTy).Contents (Elt F) → (⟨S8192x1, .i32⟩ : BufTy).Contents (Elt F) → (⟨S8192x1, .i32⟩ : BufTy).Contents (Elt F)) (cast_self _ v0) (cast_self _ v1))
set_option maxRecDepth 8192 in
theorem clean_main_call2_v4 (v0 : (⟨S8192x1, .i1⟩ : BufTy).Contents (Elt F)) (v1 : (⟨S8192x1, .i32⟩ : BufTy).Contents (Elt F)) (v2 : (⟨S8192x1, .i32⟩ : BufTy).Contents (Elt F)) :
    TRef.toBuf (Val := Elt F) (TRef.of (sig := sig) (T := ⟨S8192x1, .i32⟩) main_call2_v4) ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (TRef.ofBuf (Val := Elt F) (TRef.of (sig := sig) (T := ⟨S8192x1, .i1⟩) main_call2_v1) v0) (TRef.ofBuf (Val := Elt F) (TRef.of (sig := sig) (T := ⟨S8192x1, .i32⟩) main_call2_v3) v1) (TRef.ofBuf (Val := Elt F) (TRef.of (sig := sig) (T := ⟨S8192x1, .i32⟩) main_v33) v2)) = (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) v0 v1 v2 :=
  (cast_self _ _).trans ((congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) t (TRef.ofBuf (Val := Elt F) (TRef.of (sig := sig) (T := ⟨S8192x1, .i32⟩) main_call2_v3) v1) (TRef.ofBuf (Val := Elt F) (TRef.of (sig := sig) (T := ⟨S8192x1, .i32⟩) main_v33) v2)) (cast_self _ v0)).trans
      ((congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) v0 t (TRef.ofBuf (Val := Elt F) (TRef.of (sig := sig) (T := ⟨S8192x1, .i32⟩) main_v33) v2)) (cast_self _ v1)).trans (congrArg (fun t => (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) v0 v1 t) (cast_self _ v2))))
set_option maxRecDepth 8192 in
theorem clean_main_call2_v6 (v0 : (⟨S_, .i32⟩ : BufTy).Contents (Elt F)) :
    TRef.toBuf (Val := Elt F) (TRef.of (sig := sig) (T := ⟨S8192x1x1, .i32⟩) main_call2_v6) (((broadcastInDim S8192x1x1 ![] bcast_S_S8192x1x1) : (⟨S_, .i32⟩ : BufTy).Contents (Elt F) → (⟨S8192x1x1, .i32⟩ : BufTy).Contents (Elt F)) (TRef.ofBuf (Val := Elt F) (TRef.of (sig := sig) (T := ⟨S_, .i32⟩) main_call2_c_2) v0)) = ((broadcastInDim S8192x1x1 ![] bcast_S_S8192x1x1) : (⟨S_, .i32⟩ : BufTy).Contents (Elt F) → (⟨S8192x1x1, .i32⟩ : BufTy).Contents (Elt F)) v0 :=
  (cast_self _ _).trans (congrArg ((broadcastInDim S8192x1x1 ![] bcast_S_S8192x1x1) : (⟨S_, .i32⟩ : BufTy).Contents (Elt F) → (⟨S8192x1x1, .i32⟩ : BufTy).Contents (Elt F)) (cast_self _ v0))
set_option maxRecDepth 8192 in
theorem clean_main_call2_v7 (v0 : (⟨S8192x1x1, .i32⟩ : BufTy).Contents (Elt F)) (v1 : (⟨S8192x1x1, .i32⟩ : BufTy).Contents (Elt F)) :
    TRef.toBuf (Val := Elt F) (TRef.of (sig := sig) (T := ⟨S8192x1x1, .i1⟩) main_call2_v7) (((cmpi .sge) : (⟨S8192x1x1, .i32⟩ : BufTy).Contents (Elt F) → (⟨S8192x1x1, .i32⟩ : BufTy).Contents (Elt F) → (⟨S8192x1x1, .i1⟩ : BufTy).Contents (Elt F)) (TRef.ofBuf (Val := Elt F) (TRef.of (sig := sig) (T := ⟨S8192x1x1, .i32⟩) main_call2_v5) v0) (TRef.ofBuf (Val := Elt F) (TRef.of (sig := sig) (T := ⟨S8192x1x1, .i32⟩) main_call2_v6) v1)) = ((cmpi .sge) : (⟨S8192x1x1, .i32⟩ : BufTy).Contents (Elt F) → (⟨S8192x1x1, .i32⟩ : BufTy).Contents (Elt F) → (⟨S8192x1x1, .i1⟩ : BufTy).Contents (Elt F)) v0 v1 :=
  (cast_self _ _).trans (congrArg₂ ((cmpi .sge) : (⟨S8192x1x1, .i32⟩ : BufTy).Contents (Elt F) → (⟨S8192x1x1, .i32⟩ : BufTy).Contents (Elt F) → (⟨S8192x1x1, .i1⟩ : BufTy).Contents (Elt F)) (cast_self _ v0) (cast_self _ v1))
set_option maxRecDepth 8192 in
theorem clean_main_call2_v8 (v0 : (⟨S1, .i32⟩ : BufTy).Contents (Elt F)) :
    TRef.toBuf (Val := Elt F) (TRef.of (sig := sig) (T := ⟨S1x1x1, .i32⟩) main_call2_v8) (((broadcastInDim S1x1x1 ![2] bcast_S1_S1x1x1_2) : (⟨S1, .i32⟩ : BufTy).Contents (Elt F) → (⟨S1x1x1, .i32⟩ : BufTy).Contents (Elt F)) (TRef.ofBuf (Val := Elt F) (TRef.of (sig := sig) (T := ⟨S1, .i32⟩) main_call2_c_1) v0)) = ((broadcastInDim S1x1x1 ![2] bcast_S1_S1x1x1_2) : (⟨S1, .i32⟩ : BufTy).Contents (Elt F) → (⟨S1x1x1, .i32⟩ : BufTy).Contents (Elt F)) v0 :=
  (cast_self _ _).trans (congrArg ((broadcastInDim S1x1x1 ![2] bcast_S1_S1x1x1_2) : (⟨S1, .i32⟩ : BufTy).Contents (Elt F) → (⟨S1x1x1, .i32⟩ : BufTy).Contents (Elt F)) (cast_self _ v0))
set_option maxRecDepth 8192 in
theorem clean_main_call2_v9 (v0 : (⟨S1x1x1, .i32⟩ : BufTy).Contents (Elt F)) :
    TRef.toBuf (Val := Elt F) (TRef.of (sig := sig) (T := ⟨S8192x1x1, .i32⟩) main_call2_v9) (((broadcastInDim S8192x1x1 ![0, 1, 2] bcast_S1x1x1_S8192x1x1_0_1_2) : (⟨S1x1x1, .i32⟩ : BufTy).Contents (Elt F) → (⟨S8192x1x1, .i32⟩ : BufTy).Contents (Elt F)) (TRef.ofBuf (Val := Elt F) (TRef.of (sig := sig) (T := ⟨S1x1x1, .i32⟩) main_call2_v8) v0)) = ((broadcastInDim S8192x1x1 ![0, 1, 2] bcast_S1x1x1_S8192x1x1_0_1_2) : (⟨S1x1x1, .i32⟩ : BufTy).Contents (Elt F) → (⟨S8192x1x1, .i32⟩ : BufTy).Contents (Elt F)) v0 :=
  (cast_self _ _).trans (congrArg ((broadcastInDim S8192x1x1 ![0, 1, 2] bcast_S1x1x1_S8192x1x1_0_1_2) : (⟨S1x1x1, .i32⟩ : BufTy).Contents (Elt F) → (⟨S8192x1x1, .i32⟩ : BufTy).Contents (Elt F)) (cast_self _ v0))
set_option maxRecDepth 8192 in
theorem clean_main_call2_v10 (v0 : (⟨S8192x1x1, .i32⟩ : BufTy).Contents (Elt F)) (v1 : (⟨S8192x1x1, .i32⟩ : BufTy).Contents (Elt F)) :
    TRef.toBuf (Val := Elt F) (TRef.of (sig := sig) (T := ⟨S8192x1x1, .i1⟩) main_call2_v10) (((cmpi .sle) : (⟨S8192x1x1, .i32⟩ : BufTy).Contents (Elt F) → (⟨S8192x1x1, .i32⟩ : BufTy).Contents (Elt F) → (⟨S8192x1x1, .i1⟩ : BufTy).Contents (Elt F)) (TRef.ofBuf (Val := Elt F) (TRef.of (sig := sig) (T := ⟨S8192x1x1, .i32⟩) main_call2_v5) v0) (TRef.ofBuf (Val := Elt F) (TRef.of (sig := sig) (T := ⟨S8192x1x1, .i32⟩) main_call2_v9) v1)) = ((cmpi .sle) : (⟨S8192x1x1, .i32⟩ : BufTy).Contents (Elt F) → (⟨S8192x1x1, .i32⟩ : BufTy).Contents (Elt F) → (⟨S8192x1x1, .i1⟩ : BufTy).Contents (Elt F)) v0 v1 :=
  (cast_self _ _).trans (congrArg₂ ((cmpi .sle) : (⟨S8192x1x1, .i32⟩ : BufTy).Contents (Elt F) → (⟨S8192x1x1, .i32⟩ : BufTy).Contents (Elt F) → (⟨S8192x1x1, .i1⟩ : BufTy).Contents (Elt F)) (cast_self _ v0) (cast_self _ v1))
set_option maxRecDepth 8192 in
theorem clean_main_call2_v11 (v0 : (⟨S8192x1x1, .i1⟩ : BufTy).Contents (Elt F)) (v1 : (⟨S8192x1x1, .i1⟩ : BufTy).Contents (Elt F)) :
    TRef.toBuf (Val := Elt F) (TRef.of (sig := sig) (T := ⟨S8192x1x1, .i1⟩) main_call2_v11) ((andi : (⟨S8192x1x1, .i1⟩ : BufTy).Contents (Elt F) → (⟨S8192x1x1, .i1⟩ : BufTy).Contents (Elt F) → (⟨S8192x1x1, .i1⟩ : BufTy).Contents (Elt F)) (TRef.ofBuf (Val := Elt F) (TRef.of (sig := sig) (T := ⟨S8192x1x1, .i1⟩) main_call2_v7) v0) (TRef.ofBuf (Val := Elt F) (TRef.of (sig := sig) (T := ⟨S8192x1x1, .i1⟩) main_call2_v10) v1)) = (andi : (⟨S8192x1x1, .i1⟩ : BufTy).Contents (Elt F) → (⟨S8192x1x1, .i1⟩ : BufTy).Contents (Elt F) → (⟨S8192x1x1, .i1⟩ : BufTy).Contents (Elt F)) v0 v1 :=
  (cast_self _ _).trans (congrArg₂ (andi : (⟨S8192x1x1, .i1⟩ : BufTy).Contents (Elt F) → (⟨S8192x1x1, .i1⟩ : BufTy).Contents (Elt F) → (⟨S8192x1x1, .i1⟩ : BufTy).Contents (Elt F)) (cast_self _ v0) (cast_self _ v1))
set_option maxRecDepth 8192 in
theorem clean_main_call2_v12 (v0 : (⟨S8192x1x1, .i1⟩ : BufTy).Contents (Elt F)) (v1 : (⟨S_, .i1⟩ : BufTy).Contents (Elt F)) :
    TRef.toBuf (Val := Elt F) (TRef.of (sig := sig) (T := ⟨S8192x1, .i1⟩) main_call2_v12) (((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) (TRef.ofBuf (Val := Elt F) (TRef.of (sig := sig) (T := ⟨S8192x1x1, .i1⟩) main_call2_v11) v0) (TRef.ofBuf (Val := Elt F) (TRef.of (sig := sig) (T := ⟨S_, .i1⟩) main_call2_c_3) v1)) = ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) v0 v1 :=
  (cast_self _ _).trans (congrArg₂ ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) (cast_self _ v0) (cast_self _ v1))
set_option maxRecDepth 8192 in
theorem clean_main_call2_v13 (v0 : (⟨S8192x8192, .f32⟩ : BufTy).Contents (Elt F)) (v1 : (⟨S8192x1x1, .i32⟩ : BufTy).Contents (Elt F)) :
    TRef.toBuf (Val := Elt F) (TRef.of (sig := sig) (T := ⟨S8192x1, .f32⟩) main_call2_v13) (((fun x i => Host.gather gather_S8192x8192_S8192x1x1_S8192x1_n_1_0_0_1_2_11 x i) : (⟨S8192x8192, .f32⟩ : BufTy).Contents (Elt F) → (⟨S8192x1x1, .i32⟩ : BufTy).Contents (Elt F) → (⟨S8192x1, .f32⟩ : BufTy).Contents (Elt F)) (TRef.ofBuf (Val := Elt F) (TRef.of (sig := sig) (T := ⟨S8192x8192, .f32⟩) main_v32) v0) (TRef.ofBuf (Val := Elt F) (TRef.of (sig := sig) (T := ⟨S8192x1x1, .i32⟩) main_call2_v5) v1)) = ((fun x i => Host.gather gather_S8192x8192_S8192x1x1_S8192x1_n_1_0_0_1_2_11 x i) : (⟨S8192x8192, .f32⟩ : BufTy).Contents (Elt F) → (⟨S8192x1x1, .i32⟩ : BufTy).Contents (Elt F) → (⟨S8192x1, .f32⟩ : BufTy).Contents (Elt F)) v0 v1 :=
  (cast_self _ _).trans (congrArg₂ ((fun x i => Host.gather gather_S8192x8192_S8192x1x1_S8192x1_n_1_0_0_1_2_11 x i) : (⟨S8192x8192, .f32⟩ : BufTy).Contents (Elt F) → (⟨S8192x1x1, .i32⟩ : BufTy).Contents (Elt F) → (⟨S8192x1, .f32⟩ : BufTy).Contents (Elt F)) (cast_self _ v0) (cast_self _ v1))
set_option maxRecDepth 8192 in
theorem clean_main_call2_v14 (v0 : (⟨S_, .f32⟩ : BufTy).Contents (Elt F)) :
    TRef.toBuf (Val := Elt F) (TRef.of (sig := sig) (T := ⟨S8192x1, .f32⟩) main_call2_v14) (((broadcastInDim S8192x1 ![] bcast_S_S8192x1) : (⟨S_, .f32⟩ : BufTy).Contents (Elt F) → (⟨S8192x1, .f32⟩ : BufTy).Contents (Elt F)) (TRef.ofBuf (Val := Elt F) (TRef.of (sig := sig) (T := ⟨S_, .f32⟩) main_call2_cst) v0)) = ((broadcastInDim S8192x1 ![] bcast_S_S8192x1) : (⟨S_, .f32⟩ : BufTy).Contents (Elt F) → (⟨S8192x1, .f32⟩ : BufTy).Contents (Elt F)) v0 :=
  (cast_self _ _).trans (congrArg ((broadcastInDim S8192x1 ![] bcast_S_S8192x1) : (⟨S_, .f32⟩ : BufTy).Contents (Elt F) → (⟨S8192x1, .f32⟩ : BufTy).Contents (Elt F)) (cast_self _ v0))
set_option maxRecDepth 8192 in
theorem clean_main_v34 (v0 : (⟨S8192x1, .i1⟩ : BufTy).Contents (Elt F)) (v1 : (⟨S8192x1, .f32⟩ : BufTy).Contents (Elt F)) (v2 : (⟨S8192x1, .f32⟩ : BufTy).Contents (Elt F)) :
    TRef.toBuf (Val := Elt F) (TRef.of (sig := sig) (T := ⟨S8192x1, .f32⟩) main_v34) ((select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) (TRef.ofBuf (Val := Elt F) (TRef.of (sig := sig) (T := ⟨S8192x1, .i1⟩) main_call2_v12) v0) (TRef.ofBuf (Val := Elt F) (TRef.of (sig := sig) (T := ⟨S8192x1, .f32⟩) main_call2_v13) v1) (TRef.ofBuf (Val := Elt F) (TRef.of (sig := sig) (T := ⟨S8192x1, .f32⟩) main_call2_v14) v2)) = (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) v0 v1 v2 :=
  (cast_self _ _).trans ((congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) t (TRef.ofBuf (Val := Elt F) (TRef.of (sig := sig) (T := ⟨S8192x1, .f32⟩) main_call2_v13) v1) (TRef.ofBuf (Val := Elt F) (TRef.of (sig := sig) (T := ⟨S8192x1, .f32⟩) main_call2_v14) v2)) (cast_self _ v0)).trans
      ((congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) v0 t (TRef.ofBuf (Val := Elt F) (TRef.of (sig := sig) (T := ⟨S8192x1, .f32⟩) main_call2_v14) v2)) (cast_self _ v1)).trans (congrArg (fun t => (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) v0 v1 t) (cast_self _ v2))))

/-! ## The walk -/

/-- What the contents `W` after the operations owe the launch contents `V`: the result is the last stage's value of the
    two arguments, and the arguments are unchanged. -/
def Post (V W : Valuation τ sig (Elt F)) : Prop :=
  W (Proc.devRef .tc main_v38) = val_main_v38 (F := F) (V (Proc.devRef .tc main_arg0)) (V (Proc.devRef .tc main_arg1))
    ∧ W (Proc.devRef .tc main_arg0) = V (Proc.devRef .tc main_arg0)
    ∧ W (Proc.devRef .tc main_arg1) = V (Proc.devRef .tc main_arg1)

set_option maxRecDepth 8192 in
set_option maxHeartbeats 4000000 in
/-- The operations walked once, each intermediate value named by its stage. -/
theorem after_ops (V : Valuation τ sig (Elt F)) : Post V (after (ops (F := F)) V) := by
  refine (?walk : Inv V [main_arg0, main_arg1]
      [⟨main_arg0, V (Proc.devRef .tc main_arg0)⟩, ⟨main_arg1, V (Proc.devRef .tc main_arg1)⟩] → _)
    (Inv.start2 V main_arg0 main_arg1)
  hlo_step
  show Inv _ _ (⟨main_v0, val_main_v0 (F := F) (V (Proc.devRef .tc main_arg0))⟩ :: _) → _
  hlo_step
  show Inv _ _ (⟨main_cst, val_main_cst (F := F) ⟩ :: _) → _
  hlo_step
  show Inv _ _ (⟨main_v1, val_main_v1 (F := F) (V (Proc.devRef .tc main_arg0))⟩ :: _) → _
  hlo_step
  show Inv _ _ (⟨main_v2, val_main_v2 (F := F) (V (Proc.devRef .tc main_arg0))⟩ :: _) → _
  hlo_step
  show Inv _ _ (⟨main_v3, val_main_v3 (F := F) (V (Proc.devRef .tc main_arg0))⟩ :: _) → _
  hlo_step
  show Inv _ _ (⟨main_cst_0, val_main_cst_0 (F := F) ⟩ :: _) → _
  hlo_step
  show Inv _ _ (⟨main_v4, val_main_v4 (F := F) ⟩ :: _) → _
  hlo_step
  show Inv _ _ (⟨main_v5, val_main_v5 (F := F) (V (Proc.devRef .tc main_arg0))⟩ :: _) → _
  hlo_step
  show Inv _ _ (⟨main_v6, val_main_v6 (F := F) (V (Proc.devRef .tc main_arg0))⟩ :: _) → _
  hlo_step
  show Inv _ _ (⟨main_v7, val_main_v7 (F := F) (V (Proc.devRef .tc main_arg0))⟩ :: _) → _
  hlo_step
  show Inv _ _ (⟨main_v8, val_main_v8 (F := F) (V (Proc.devRef .tc main_arg1))⟩ :: _) → _
  hlo_step
  show Inv _ _ (⟨main_cst_1, val_main_cst_1 (F := F) ⟩ :: _) → _
  hlo_step
  show Inv _ _ (⟨main_v9, val_main_v9 (F := F) (V (Proc.devRef .tc main_arg1))⟩ :: _) → _
  hlo_step
  show Inv _ _ (⟨main_v10, val_main_v10 (F := F) (V (Proc.devRef .tc main_arg1))⟩ :: _) → _
  hlo_step
  show Inv _ _ (⟨main_v11, val_main_v11 (F := F) (V (Proc.devRef .tc main_arg1))⟩ :: _) → _
  hlo_step
  show Inv _ _ (⟨main_cst_2, val_main_cst_2 (F := F) ⟩ :: _) → _
  hlo_step
  show Inv _ _ (⟨main_v12, val_main_v12 (F := F) ⟩ :: _) → _
  hlo_step
  show Inv _ _ (⟨main_v13, val_main_v13 (F := F) (V (Proc.devRef .tc main_arg1))⟩ :: _) → _
  hlo_step
  show Inv _ _ (⟨main_v14, val_main_v14 (F := F) (V (Proc.devRef .tc main_arg1))⟩ :: _) → _
  hlo_step
  show Inv _ _ (⟨main_v15, val_main_v15 (F := F) (V (Proc.devRef .tc main_arg1))⟩ :: _) → _
  hlo_step
  show Inv _ _ (⟨main_v16, val_main_v16 (F := F) (V (Proc.devRef .tc main_arg0)) (V (Proc.devRef .tc main_arg1))⟩ :: _) → _
  hlo_step
  show Inv _ _ (⟨main_v17, val_main_v17 (F := F) (V (Proc.devRef .tc main_arg0)) (V (Proc.devRef .tc main_arg1))⟩ :: _) → _
  hlo_step
  show Inv _ _ (⟨main_v18, val_main_v18 (F := F) (V (Proc.devRef .tc main_arg0)) (V (Proc.devRef .tc main_arg1))⟩ :: _) → _
  hlo_step
  show Inv _ _ (⟨main_cst_3, val_main_cst_3 (F := F) ⟩ :: _) → _
  hlo_step
  show Inv _ _ (⟨main_v19, val_main_v19 (F := F) ⟩ :: _) → _
  hlo_step
  show Inv _ _ (⟨main_v20, val_main_v20 (F := F) (V (Proc.devRef .tc main_arg0)) (V (Proc.devRef .tc main_arg1))⟩ :: _) → _
  hlo_step
  show Inv _ _ (⟨main_v21, val_main_v21 (F := F) ⟩ :: _) → _
  hlo_step
  show Inv _ _ (⟨main_v22, val_main_v22 (F := F) ⟩ :: _) → _
  hlo_step
  show Inv _ _ (⟨main_c, val_main_c (F := F) ⟩ :: _) → _
  hlo_step
  show Inv _ _ (⟨main_v23, val_main_v23 (F := F) ⟩ :: _) → _
  hlo_step
  show Inv _ _ (⟨main_v24, val_main_v24 (F := F) ⟩ :: _) → _
  hlo_step
  show Inv _ _ (⟨main_v25, val_main_v25 (F := F) ⟩ :: _) → _
  hlo_step
  show Inv _ _ (⟨main_cst_4, val_main_cst_4 (F := F) ⟩ :: _) → _
  hlo_step
  refine Inv.clean_head (clean_main_call0_v0 _) ?_
  show Inv _ _ (⟨main_call0_v0, val_main_call0_v0 (F := F) ⟩ :: _) → _
  hlo_step
  refine Inv.clean_head (clean_main_call0_v1 _) ?_
  show Inv _ _ (⟨main_call0_v1, val_main_call0_v1 (F := F) ⟩ :: _) → _
  hlo_step
  refine Inv.clean_head (clean_main_v26 _ _ _) ?_
  show Inv _ _ (⟨main_v26, val_main_v26 (F := F) (V (Proc.devRef .tc main_arg0)) (V (Proc.devRef .tc main_arg1))⟩ :: _) → _
  hlo_step
  show Inv _ _ (⟨main_v27, val_main_v27 (F := F) ⟩ :: _) → _
  hlo_step
  show Inv _ _ (⟨main_c_5, val_main_c_5 (F := F) ⟩ :: _) → _
  hlo_step
  show Inv _ _ (⟨main_v28, val_main_v28 (F := F) ⟩ :: _) → _
  hlo_step
  show Inv _ _ (⟨main_v29, val_main_v29 (F := F) ⟩ :: _) → _
  hlo_step
  show Inv _ _ (⟨main_v30, val_main_v30 (F := F) ⟩ :: _) → _
  hlo_step
  show Inv _ _ (⟨main_v31, val_main_v31 (F := F) ⟩ :: _) → _
  hlo_step
  show Inv _ _ (⟨main_call1_cst, val_main_call1_cst (F := F) ⟩ :: _) → _
  hlo_step
  refine Inv.clean_head (clean_main_call1_v0 _ _) ?_
  show Inv _ _ (⟨main_call1_v0, val_main_call1_v0 (F := F) (V (Proc.devRef .tc main_arg0)) (V (Proc.devRef .tc main_arg1))⟩ :: _) → _
  hlo_step
  show Inv _ _ (⟨main_call1_cst_0, val_main_call1_cst_0 (F := F) ⟩ :: _) → _
  hlo_step
  refine Inv.clean_head (clean_main_call1_v1 _) ?_
  show Inv _ _ (⟨main_call1_v1, val_main_call1_v1 (F := F) ⟩ :: _) → _
  hlo_step
  refine Inv.clean_head (clean_main_call1_v2 _ _) ?_
  show Inv _ _ (⟨main_call1_v2, val_main_call1_v2 (F := F) (V (Proc.devRef .tc main_arg0)) (V (Proc.devRef .tc main_arg1))⟩ :: _) → _
  hlo_step
  refine Inv.clean_head (clean_main_call1_v3 _) ?_
  show Inv _ _ (⟨main_call1_v3, val_main_call1_v3 (F := F) (V (Proc.devRef .tc main_arg0)) (V (Proc.devRef .tc main_arg1))⟩ :: _) → _
  hlo_step
  refine Inv.clean_head (clean_main_call1_v4 _) ?_
  show Inv _ _ (⟨main_call1_v4, val_main_call1_v4 (F := F) (V (Proc.devRef .tc main_arg0)) (V (Proc.devRef .tc main_arg1))⟩ :: _) → _
  hlo_step
  refine Inv.clean_head (clean_main_call1_v5 _ _) ?_
  show Inv _ _ (⟨main_call1_v5, val_main_call1_v5 (F := F) (V (Proc.devRef .tc main_arg0)) (V (Proc.devRef .tc main_arg1))⟩ :: _) → _
  hlo_step
  refine Inv.clean_head (clean_main_call1_v6 _) ?_
  show Inv _ _ (⟨main_call1_v6, val_main_call1_v6 (F := F) (V (Proc.devRef .tc main_arg0)) (V (Proc.devRef .tc main_arg1))⟩ :: _) → _
  hlo_step
  show Inv _ _ (⟨main_call1_cst_1, val_main_call1_cst_1 (F := F) ⟩ :: _) → _
  hlo_step
  refine Inv.clean_head (clean_main_call1_v7 _ _) ?_
  show Inv _ _ (⟨main_call1_v7, val_main_call1_v7 (F := F) (V (Proc.devRef .tc main_arg0)) (V (Proc.devRef .tc main_arg1))⟩ :: _) → _
  hlo_step
  refine Inv.clean_head (clean_main_call1_v8 _) ?_
  show Inv _ _ (⟨main_call1_v8, val_main_call1_v8 (F := F) (V (Proc.devRef .tc main_arg0)) (V (Proc.devRef .tc main_arg1))⟩ :: _) → _
  hlo_step
  refine Inv.clean_head (clean_main_call1_v9 _) ?_
  show Inv _ _ (⟨main_call1_v9, val_main_call1_v9 (F := F) (V (Proc.devRef .tc main_arg0)) (V (Proc.devRef .tc main_arg1))⟩ :: _) → _
  hlo_step
  refine Inv.clean_head (clean_main_call1_v10 _) ?_
  show Inv _ _ (⟨main_call1_v10, val_main_call1_v10 (F := F) (V (Proc.devRef .tc main_arg0)) (V (Proc.devRef .tc main_arg1))⟩ :: _) → _
  hlo_step
  refine Inv.clean_head (clean_main_v32 _ _) ?_
  show Inv _ _ (⟨main_v32, val_main_v32 (F := F) (V (Proc.devRef .tc main_arg0)) (V (Proc.devRef .tc main_arg1))⟩ :: _) → _
  hlo_step
  show Inv _ _ (⟨main_v33, val_main_v33 (F := F) ⟩ :: _) → _
  hlo_step
  show Inv _ _ (⟨main_call2_c, val_main_call2_c (F := F) ⟩ :: _) → _
  hlo_step
  refine Inv.clean_head (clean_main_call2_v0 _) ?_
  show Inv _ _ (⟨main_call2_v0, val_main_call2_v0 (F := F) ⟩ :: _) → _
  hlo_step
  refine Inv.clean_head (clean_main_call2_v1 _ _) ?_
  show Inv _ _ (⟨main_call2_v1, val_main_call2_v1 (F := F) ⟩ :: _) → _
  hlo_step
  show Inv _ _ (⟨main_call2_c_0, val_main_call2_c_0 (F := F) ⟩ :: _) → _
  hlo_step
  refine Inv.clean_head (clean_main_call2_v2 _) ?_
  show Inv _ _ (⟨main_call2_v2, val_main_call2_v2 (F := F) ⟩ :: _) → _
  hlo_step
  refine Inv.clean_head (clean_main_call2_v3 _ _) ?_
  show Inv _ _ (⟨main_call2_v3, val_main_call2_v3 (F := F) ⟩ :: _) → _
  hlo_step
  refine Inv.clean_head (clean_main_call2_v4 _ _ _) ?_
  show Inv _ _ (⟨main_call2_v4, val_main_call2_v4 (F := F) ⟩ :: _) → _
  hlo_step
  show Inv _ _ (⟨main_call2_v5, val_main_call2_v5 (F := F) ⟩ :: _) → _
  hlo_step
  show Inv _ _ (⟨main_call2_c_1, val_main_call2_c_1 (F := F) ⟩ :: _) → _
  hlo_step
  show Inv _ _ (⟨main_call2_c_2, val_main_call2_c_2 (F := F) ⟩ :: _) → _
  hlo_step
  refine Inv.clean_head (clean_main_call2_v6 _) ?_
  show Inv _ _ (⟨main_call2_v6, val_main_call2_v6 (F := F) ⟩ :: _) → _
  hlo_step
  refine Inv.clean_head (clean_main_call2_v7 _ _) ?_
  show Inv _ _ (⟨main_call2_v7, val_main_call2_v7 (F := F) ⟩ :: _) → _
  hlo_step
  refine Inv.clean_head (clean_main_call2_v8 _) ?_
  show Inv _ _ (⟨main_call2_v8, val_main_call2_v8 (F := F) ⟩ :: _) → _
  hlo_step
  refine Inv.clean_head (clean_main_call2_v9 _) ?_
  show Inv _ _ (⟨main_call2_v9, val_main_call2_v9 (F := F) ⟩ :: _) → _
  hlo_step
  refine Inv.clean_head (clean_main_call2_v10 _ _) ?_
  show Inv _ _ (⟨main_call2_v10, val_main_call2_v10 (F := F) ⟩ :: _) → _
  hlo_step
  refine Inv.clean_head (clean_main_call2_v11 _ _) ?_
  show Inv _ _ (⟨main_call2_v11, val_main_call2_v11 (F := F) ⟩ :: _) → _
  hlo_step
  show Inv _ _ (⟨main_call2_c_3, val_main_call2_c_3 (F := F) ⟩ :: _) → _
  hlo_step
  refine Inv.clean_head (clean_main_call2_v12 _ _) ?_
  show Inv _ _ (⟨main_call2_v12, val_main_call2_v12 (F := F) ⟩ :: _) → _
  hlo_step
  refine Inv.clean_head (clean_main_call2_v13 _ _) ?_
  show Inv _ _ (⟨main_call2_v13, val_main_call2_v13 (F := F) (V (Proc.devRef .tc main_arg0)) (V (Proc.devRef .tc main_arg1))⟩ :: _) → _
  hlo_step
  show Inv _ _ (⟨main_call2_cst, val_main_call2_cst (F := F) ⟩ :: _) → _
  hlo_step
  refine Inv.clean_head (clean_main_call2_v14 _) ?_
  show Inv _ _ (⟨main_call2_v14, val_main_call2_v14 (F := F) ⟩ :: _) → _
  hlo_step
  refine Inv.clean_head (clean_main_v34 _ _ _) ?_
  show Inv _ _ (⟨main_v34, val_main_v34 (F := F) (V (Proc.devRef .tc main_arg0)) (V (Proc.devRef .tc main_arg1))⟩ :: _) → _
  hlo_step
  show Inv _ _ (⟨main_v35, val_main_v35 (F := F) (V (Proc.devRef .tc main_arg0)) (V (Proc.devRef .tc main_arg1))⟩ :: _) → _
  hlo_step
  show Inv _ _ (⟨main_v36, val_main_v36 (F := F) (V (Proc.devRef .tc main_arg0)) (V (Proc.devRef .tc main_arg1))⟩ :: _) → _
  hlo_step
  show Inv _ _ (⟨main_cst_6, val_main_cst_6 (F := F) ⟩ :: _) → _
  hlo_step
  show Inv _ _ (⟨main_v37, val_main_v37 (F := F) (V (Proc.devRef .tc main_arg0)) (V (Proc.devRef .tc main_arg1))⟩ :: _) → _
  hlo_step
  show Inv _ _ (⟨main_cst_7, val_main_cst_7 (F := F) ⟩ :: _) → _
  hlo_step
  show Inv _ _ (⟨main_v38, val_main_v38 (F := F) (V (Proc.devRef .tc main_arg0)) (V (Proc.devRef .tc main_arg1))⟩ :: _) → _
  refine step_nil (fun h => ?_)
  unfold Post
  exact ⟨h.agrees ⟨main_v38, _⟩ (by env_mem), h.agrees ⟨main_arg0, _⟩ (by env_mem), h.agrees ⟨main_arg1, _⟩ (by env_mem)⟩

end Cert.RefSide

end
-- ==== Proof.RefSide.lean ====
import proofs.«148196_j36515811951305_2_alg».proof.Defs
import proofs.«148196_j36515811951305_2_alg».proof.Proof.RefReadGen
import proofs.«148196_j36515811951305_2_alg».proof.Proof.Spec
import proofs.«148196_j36515811951305_2_alg».proof.Proof.RefValue3
import proofs.«148196_j36515811951305_2_alg».proof.Proof.RefFinite
import proofs.«148196_j36515811951305_2_alg».proof.Proof.RefRun

/-! The reference's side: its run read back, index by index.

`Cert.RefSide.value` (RefValue3.lean): the last stage's value of the two argument arrays is the specification's
`resultR` of them. `Cert.RefSide.finite_of_pre` (RefFinite.lean): the precondition makes every entry of both arrays
a real number. `Cert.RefSide.run` (here): every weakly fair execution of the reference ends with the result buffer at
`resultR` of the argument buffers' launch contents, and the argument buffers unchanged. -/

noncomputable section

namespace Cert.RefSide

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

theorem run [Cert.ReferenceIdeal.Facts] [Cert.Pre_finite_inputs.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v38)
            = (fun _ => Cert.Spec.resultR
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1)))
          ∧ r.2.mem ((c.tc : Thread Cert.ReferenceIdeal.nD Cert.ReferenceIdeal.τ).loc Cert.ReferenceIdeal.main_arg0)
              = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m' ((c.tc : Thread Cert.ReferenceIdeal.nD Cert.ReferenceIdeal.τ).loc Cert.ReferenceIdeal.main_arg1)) :=
  (θ_run _ _ _).mono (fun _ h c => by
      obtain ⟨h38, h0, h1⟩ := after_ops (F := Ideal) (launchContents m' c)
      exact ⟨(h c main_v38).trans (h38.trans (value _ _)), (h c main_arg0).trans h0, (h c main_arg1).trans h1⟩)
    (run_seq scopedRefs_eq scopedSems_eq defs main (fun _ => ops) main_eq (fun _ => ops_sub) m' ρ')

end Cert.RefSide

end
-- ==== Proof.LossLawConsts.lean ====
/-
  The constants of the loss as real numbers, and the coercion of a finite real sum.

  The binary words the loss carries denote 2, 1/2, 4 and a positive real below every norm that matters; the
  zero word denotes 0. These are the only evaluations of words the equality of the two spellings needs.
-/
import proofs.«148196_j36515811951305_2_alg».proof.Proof.Spec

noncomputable section

namespace Cert.LossLaw

open Idealize.ShloMosaic Cert.Spec

/-- The factor of the similarities is the real number 2. -/
theorem two_eq : two = ((2 : ℝ) : EReal) := by
  simp [two, Ideal.ofBits, Ideal.ieee]
  rw [← EReal.coe_mul]; norm_num

/-- The divisor of the reference's similarities is the real number 1/2. -/
theorem half_eq : half = (((1 / 2 : ℝ)) : EReal) := by
  simp [half, Ideal.ofBits, Ideal.ieee]
  rw [← EReal.coe_mul]; norm_num

/-- The fixed shift is the real number 4. -/
theorem four_eq : four = ((4 : ℝ) : EReal) := by
  simp [four, Ideal.ofBits, Ideal.ieee]
  rw [← EReal.coe_mul]; norm_num

/-- The lower bound of the norms is a positive real number. -/
theorem eps_pos : ∃ r : ℝ, 0 < r ∧ eps = (r : EReal) := by
  simp [eps, Ideal.ofBits, Ideal.ieee]
  exact ⟨_, by positivity, (EReal.coe_mul _ _).symm⟩

/-- The zero word is 0. -/
theorem zero_eq : Ideal.ofBits .f32 0x00000000#32 = ((0 : ℝ) : EReal) := by
  simp [Ideal.ofBits, Ideal.ieee]

/-- A finite sum of real numbers, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LossLaw

end
-- ==== Proof.LossLawUnit.lean ====
/-
  Rows of real numbers divided by their norms are rows of real numbers.

  The sum of the squares of a row of reals is a real number ≥ 0, so its square root is the real square root; the larger
  of that and the positive real ε is a positive real; and a real divided by a nonzero real is a real.
-/
import proofs.«148196_j36515811951305_2_alg».proof.Proof.LossLawConsts

noncomputable section

namespace Cert.LossLaw

open Idealize.ShloMosaic

/-- Every entry of the joined rows of two real arrays is real. -/
theorem join_real (a b : Spec.Arg) (h : Spec.Finite a b) (p : Fin 8192) (k : Fin 256) :
    ∃ r : ℝ, Spec.join a b p k = (r : EReal) := by
  unfold Spec.join
  split_ifs with hp
  · exact h.1 _
  · exact h.2 _

/-- The divisor of a real row is a positive real. -/
theorem norm_real (x : Spec.Rows) (hx : ∀ p k, ∃ r : ℝ, x p k = (r : EReal)) (p : Fin 8192) :
    ∃ n : ℝ, 0 < n ∧ Spec.norm x p = (n : EReal) := by
  choose X hX using hx
  obtain ⟨e, he, hee⟩ := eps_pos
  have hsum : Ideal.ofBits .f32 0x00000000#32 + ∑ d : Fin 256, x p d * x p d
      = ((∑ d : Fin 256, X p d * X p d : ℝ) : EReal) := by
    rw [zero_eq, EReal.coe_zero, zero_add, coe_sum]
    exact Finset.sum_congr rfl fun d _ => by rw [hX p d, EReal.coe_mul]
  have hnn : 0 ≤ ∑ d : Fin 256, X p d * X p d := Finset.sum_nonneg fun d _ => mul_self_nonneg _
  unfold Spec.norm
  rw [hsum, Ideal.sqrt_coe, if_neg (not_lt.2 hnn), hee]
  rcases le_total (Real.sqrt (∑ d : Fin 256, X p d * X p d)) e with hle | hle
  · exact ⟨e, he, max_eq_right (EReal.coe_le_coe_iff.2 hle)⟩
  · exact ⟨_, lt_of_lt_of_le he hle, max_eq_left (EReal.coe_le_coe_iff.2 hle)⟩

/-- Real rows divided by their norms are real rows. -/
theorem unit_real_of (x : Spec.Rows) (hx : ∀ p k, ∃ r : ℝ, x p k = (r : EReal)) :
    ∀ p k, ∃ r : ℝ, Spec.unit x p k = (r : EReal) := by
  intro p k
  obtain ⟨n, hn, hnn⟩ := norm_real x hx p
  obtain ⟨r, hr⟩ := hx p k
  unfold Spec.unit
  rw [hnn, hr, Ideal.div_coe hn.ne', ← EReal.coe_mul]
  exact ⟨_, rfl⟩

/-- The normalised rows of two real arrays are real. -/
theorem unit_real (a b : Cert.Spec.Arg) (h : Cert.Spec.Finite a b) :
    ∀ p k, ∃ r : ℝ, Cert.Spec.unit (Cert.Spec.join a b) p k = (r : EReal) :=
  unit_real_of _ (join_real a b h)

end Cert.LossLaw

end
-- ==== Proof.LossLawCore.lean ====
/-
  The softmax cross-entropy of one row, for real logits, does not depend on the shift of the exponentials.

  Fix real logits s over a finite index set, a row p whose own entry is masked to −∞ and a partner t ≠ p. Write
  Z = ∑_{q ≠ p} exp (s q), a positive real. For every real shift c,

      ∑ q, exp (s' q − c) = Z · exp (−c),        log (Z · exp (−c)) = log Z − c,

  so c + log (∑ q, exp (s' q − c)) − s t = log Z − s t; and with the largest masked logit M (a real number, since
  the partner's logit is real and none is +∞) in place of c, −((s t − M) − log (∑ q, exp (s' q − M))) is the same.
-/
import proofs.«148196_j36515811951305_2_alg».proof.Proof.LossLawConsts

noncomputable section

namespace Cert.LossLaw

open Idealize.ShloMosaic

variable {ι : Type} [Fintype ι] [DecidableEq ι]

/-- The logits of row `p` with its own entry at −∞. -/
def masked (s : ι → ℝ) (p q : ι) : EReal := if p = q then ⊥ else (s q : EReal)

/-- The sum of the exponentials of the logits off the diagonal. -/
def Z (s : ι → ℝ) (p : ι) : ℝ := ∑ q, if p = q then 0 else Real.exp (s q)

theorem Z_pos (s : ι → ℝ) {p t : ι} (h : p ≠ t) : 0 < Z s p := by
  unfold Z
  apply Finset.sum_pos'
  · intro q _
    split_ifs
    · exact le_rfl
    · exact (Real.exp_pos _).le
  · exact ⟨t, Finset.mem_univ _, by rw [if_neg h]; exact Real.exp_pos _⟩

/-- One exponential of a shifted masked logit. -/
theorem exp_masked_sub (s : ι → ℝ) (p q : ι) (c : ℝ) :
    Ideal.exp (masked s p q - (c : EReal))
      = (((if p = q then 0 else Real.exp (s q)) * Real.exp (-c) : ℝ) : EReal) := by
  unfold masked
  split_ifs with h
  · rw [EReal.bot_sub, Ideal.exp_bot, zero_mul, EReal.coe_zero]
  · rw [← EReal.coe_sub, Ideal.exp_coe, sub_eq_add_neg, Real.exp_add]

/-- The sum of the exponentials of the shifted masked logits. -/
theorem sum_exp_masked_sub (s : ι → ℝ) (p : ι) (c : ℝ) :
    ∑ q, Ideal.exp (masked s p q - (c : EReal)) = ((Z s p * Real.exp (-c) : ℝ) : EReal) := by
  unfold Z
  rw [Finset.sum_mul, coe_sum]
  exact Finset.sum_congr rfl fun q _ => exp_masked_sub s p q c

/-- Its logarithm. -/
theorem log_sum_exp_masked_sub (s : ι → ℝ) {p t : ι} (h : p ≠ t) (c : ℝ) :
    Ideal.log (∑ q, Ideal.exp (masked s p q - (c : EReal))) = ((Real.log (Z s p) - c : ℝ) : EReal) := by
  have hZ := Z_pos s h
  rw [sum_exp_masked_sub, Ideal.log_coe, if_neg (not_le.2 (mul_pos hZ (Real.exp_pos _))),
    Real.log_mul hZ.ne' (Real.exp_pos _).ne', Real.log_exp, sub_eq_add_neg]

/-- The largest masked logit is a real number. -/
theorem sup_masked_real (s : ι → ℝ) {p t : ι} (h : p ≠ t) :
    ∃ M : ℝ, Finset.univ.sup (masked s p) = (M : EReal) := by
  have hbot : Finset.univ.sup (masked s p) ≠ ⊥ := by
    have h1 : masked s p t ≤ Finset.univ.sup (masked s p) := Finset.le_sup (Finset.mem_univ t)
    have h2 : masked s p t = (s t : EReal) := by unfold masked; rw [if_neg h]
    intro h3
    rw [h3, h2] at h1
    exact (EReal.coe_ne_bot _) (le_bot_iff.1 h1)
  have htop : Finset.univ.sup (masked s p) ≠ ⊤ := by
    refine ne_of_lt ((Finset.sup_lt_iff (bot_lt_top)).2 fun q _ => ?_)
    unfold masked
    split_ifs
    · exact bot_lt_top
    · exact EReal.coe_lt_top _
  exact ⟨_, (EReal.coe_toReal htop hbot).symm⟩

/-- The two spellings of the row loss agree: shift `c` on the left, the largest masked logit on the right. -/
theorem row_law (s : ι → ℝ) {p t : ι} (h : p ≠ t) (c : ℝ) :
    ((c : EReal) + Ideal.log (∑ q, Ideal.exp (masked s p q - (c : EReal)))) - (s t : EReal)
      = -((masked s p t - Finset.univ.sup (masked s p))
          - Ideal.log ((0 : EReal) + ∑ q, Ideal.exp (masked s p q - Finset.univ.sup (masked s p)))) := by
  obtain ⟨M, hM⟩ := sup_masked_real s h
  have ht : masked s p t = (s t : EReal) := by unfold masked; rw [if_neg h]
  rw [hM, zero_add, log_sum_exp_masked_sub s h c, log_sum_exp_masked_sub s h M, ht,
    ← EReal.coe_add, ← EReal.coe_sub, ← EReal.coe_sub, ← EReal.coe_sub, ← EReal.coe_neg]
  congr 1
  ring

end Cert.LossLaw

end
-- ==== Proof.LossLawRow.lean ====
/-
  The two spellings of a row's loss agree on rows of real numbers.

  For real rows every similarity is a real number, the same one in both spellings (dividing by 1/2 is multiplying
  by 2), the partner of a row is another row, and the rest is the law of real logits.
-/
import proofs.«148196_j36515811951305_2_alg».proof.Proof.LossLawCore

noncomputable section

namespace Cert.LossLaw

open Idealize.ShloMosaic

/-- A row is not its own partner. -/
theorem ne_partner (p : Fin 8192) : p ≠ Spec.partner p := by
  intro h
  have h1 : p.val = (p.val + 4096) % 8192 := congrArg Fin.val h
  have := p.isLt
  omega

theorem loss_eq (y : Cert.Spec.Rows) (hy : ∀ p k, ∃ r : ℝ, y p k = (r : EReal)) (p : Fin 8192) :
    Cert.Spec.loss y p = Cert.Spec.lossR y p := by
  choose Y hY using hy
  -- the real similarities of row p
  obtain ⟨s, hs⟩ : ∃ s : Fin 8192 → ℝ, ∀ q, s q = (∑ k : Fin 256, Y p k * Y q k) * 2 := ⟨_, fun _ => rfl⟩
  have hdot : ∀ q, Ideal.ofBits .f32 0x00000000#32 + ∑ k : Fin 256, y p k * y q k
      = ((∑ k : Fin 256, Y p k * Y q k : ℝ) : EReal) := by
    intro q
    rw [zero_eq, EReal.coe_zero, zero_add, coe_sum]
    exact Finset.sum_congr rfl fun k _ => by rw [hY p k, hY q k, EReal.coe_mul]
  have hsim : ∀ q, Spec.sim y p q = (s q : EReal) := by
    intro q
    unfold Spec.sim
    rw [hdot, two_eq, ← EReal.coe_mul, hs]
  have hsimR : ∀ q, Spec.simR y p q = (s q : EReal) := by
    intro q
    unfold Spec.simR
    rw [hdot, half_eq, Ideal.div_coe (by norm_num), ← EReal.coe_mul, hs]
    congr 1
    norm_num
  have hm : Spec.simMasked y p = masked s p := by
    funext q
    unfold Spec.simMasked masked
    rw [hsim]
  have hmR : Spec.simMaskedR y p = masked s p := by
    funext q
    unfold Spec.simMaskedR masked
    rw [hsimR]
  unfold Spec.loss Spec.lossR Spec.partition Spec.rowMax
  rw [hm, hmR, hsim, four_eq, zero_eq, EReal.coe_zero]
  exact row_law s (ne_partner p) 4

end Cert.LossLaw

end
-- ==== Proof.LossLaw.lean ====
/-
  The mean of the row losses is the same in both spellings when both arrays hold real numbers.

  The normalised rows of real arrays are real, so each row's two losses agree, and the two means are the same
  expression of equal summands.
-/
import proofs.«148196_j36515811951305_2_alg».proof.Proof.LossLawUnit
import proofs.«148196_j36515811951305_2_alg».proof.Proof.LossLawRow

noncomputable section

namespace Cert.LossLaw

open Idealize.ShloMosaic

theorem result_eq (a b : Cert.Spec.Arg) (h : Cert.Spec.Finite a b) :
    Cert.Spec.result a b = Cert.Spec.resultR a b := by
  unfold Spec.result Spec.resultR
  rw [Finset.sum_congr rfl fun p _ => loss_eq (Spec.unit (Spec.join a b)) (unit_real a b h) p]

end Cert.LossLaw

end
-- ==== Proof.lean ====
/-
  The proof of \`Cert.Claim\`: the three programs run and leave their arguments as launched, the idealised kernel
  program is the printed one up to the one named constant, and on the extended reals the idealised kernel program
  and the idealised reference return the same number from the same two arrays of real numbers.

  WHAT BOTH COMPUTE. Put the 4096 rows of the first array above the 4096 rows of the second: 8192 rows x of 256
  entries. Divide every row by the larger of its Euclidean norm and the constant ε: rows y. The similarity of rows p
  and q is twice their inner product; a row's own similarity is replaced by −∞; the partner of row p is row
  p + 4096 (mod 8192). The loss of row p is the logarithm of the sum of the exponentials of its masked similarities
  less its partner's similarity, and the result is the mean of the 8192 losses (Spec).

  HOW THE KERNEL PROGRAM COMPUTES IT. One host operation joins the arrays. A first kernel region takes the rows in
  eight blocks of 1024 and writes every row divided by its clamped norm (Norm*). A second kernel region walks the
  8 × 8 tiles of 1024 × 1024 similarities row tile by row tile: across a row tile's eight tiles it carries, for each
  of the 1024 rows, the running sum of exp (similarity − 4) over the columns seen so far, the diagonal masked out in
  the diagonal tile, and in the partner tile (four tiles on, cyclically) it keeps the tile's diagonal, which is each
  row's partner similarity; after the eighth tile it writes 4 + log of the running sum and the partner similarity
  into two columns (Sim*). The host subtracts the columns, adds the 8192 differences up from zero and divides by 8192
  (WholeValue). The run of the whole program — host stretch, region, region, host stretch — is read off the two
  regions' records by following what every buffer holds from one part to the next (WholeFold, WholeRun, WholeRead).

  HOW THE REFERENCE COMPUTES IT. The same rows y; the similarity as the inner product divided by 1/2; the exponentials
  shifted by the row's largest masked similarity instead of by 4; the logarithm of the softmax at the partner, negated;
  the mean (Ref*).

  THE LAW THAT JOINS THEM. For REAL similarities s with positive real normaliser Z = ∑ exp s over the unmasked columns,
  c + log (∑ exp (s − c)) = log Z for every real shift c: with c = 4 this is the kernel's term, with c the row maximum
  the reference's; and dividing a real by 1/2 is doubling it. On the extended reals the law fails (a shift of ∞ − ∞),
  so it is used only where every similarity is a real number: the arrays hold real numbers by the precondition, real rows
  divided by a positive real norm are real rows, and their inner products are real (LossLaw*).
-/
import proofs.«148196_j36515811951305_2_alg».proof.Defs
import proofs.«148196_j36515811951305_2_alg».proof.Proof.Gen.Kernel
import proofs.«148196_j36515811951305_2_alg».proof.Proof.Gen.KernelIdeal
import proofs.«148196_j36515811951305_2_alg».proof.Proof.Gen.ReferenceIdeal
import proofs.«148196_j36515811951305_2_alg».proof.Proof.Gen.Pre_finite_inputs
import proofs.«148196_j36515811951305_2_alg».proof.Proof.WholeValue
import proofs.«148196_j36515811951305_2_alg».proof.Proof.SimSecond
import proofs.«148196_j36515811951305_2_alg».proof.Proof.SimArrayLoss
import proofs.«148196_j36515811951305_2_alg».proof.Proof.Word.WholeRead
import proofs.«148196_j36515811951305_2_alg».proof.Proof.Word.Norm
import proofs.«148196_j36515811951305_2_alg».proof.Proof.Word.SimSecond
import proofs.«148196_j36515811951305_2_alg».proof.Proof.RefSide
import proofs.«148196_j36515811951305_2_alg».proof.Proof.RefFinite
import proofs.«148196_j36515811951305_2_alg».proof.Proof.LossLaw
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-! ## The three programs run and leave their arguments as launched -/

theorem frame_p : Cert.frame_Kernel := fun m ρ _ =>
  Cert.Kernel.Whole.frame Cert.Kernel.Norm.first Cert.Kernel.Sim.second m ρ

theorem frame_pi : Cert.frame_KernelIdeal := fun m ρ _ =>
  Cert.KernelIdeal.Whole.frame Cert.KernelIdeal.Norm.first Cert.KernelIdeal.Sim.second m ρ

theorem frame_ri : Cert.frame_ReferenceIdeal := fun m ρ _ =>
  (θ_run Cert.ReferenceIdeal.defs _ _).mono (fun _ h c => (h c).2) (Cert.RefSide.run m ρ)

/-! ## The idealised program is the printed one up to its named constant -/

/-- The one rewrite: the mask value is named, and the name denotes −∞. -/
theorem preserves : Cert.preserves_Kernel_KernelIdeal :=
  IdealRules.named_const.statement Cert.KernelIdeal.κ "neg_big" .f32 0xF149F2CA#32 ⊥ rfl

/-! ## The two idealised programs return the same number -/

/-- From arrays of real numbers both programs end with the mean row loss of the joined, normalised rows in their
    result buffer: the kernel program in the form with the fixed shift, the reference in the form with the row
    maximum, and the two forms are one number on real rows. -/
theorem algebraic : Cert.algebraic_KernelIdeal_ReferenceIdeal := by
  intro m ρ m' ρ' hpre hagree
  refine ⟨fun c _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Whole.run_reads Cert.KernelIdeal.Norm.first Cert.KernelIdeal.Sim.second m ρ)
    exact Cert.KernelIdeal.Whole.value_of Cert.KernelIdeal.Sim.second m ρ c
      (fun p => Cert.KernelIdeal.SimValue.loss_entry (Cert.KernelIdeal.Whole.V2 Cert.KernelIdeal.Norm.first m ρ) c p)
  · refine (θ_run Cert.ReferenceIdeal.defs _ _).mono (fun _ h c => ⟨(h c).1.trans ?_, (h c).2⟩)
      (Cert.RefSide.run m' ρ')
    rw [(hagree c).1, (hagree c).2]
    exact funext fun _ => (Cert.LossLaw.result_eq _ _ (Cert.RefSide.finite_of_pre _ _ (hpre c))).symm

/-! ## The claim -/

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
